-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x384 : Shape := ⟨2, ![200000, 384]⟩
abbrev S100000x64 : Shape := ⟨2, ![100000, 64]⟩
abbrev S5000x64 : Shape := ⟨2, ![5000, 64]⟩
abbrev S2000x64 : Shape := ⟨2, ![2000, 64]⟩
abbrev S1000x64 : Shape := ⟨2, ![1000, 64]⟩
abbrev S384x64 : Shape := ⟨2, ![384, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S200000 : Shape := ⟨1, ![200000]⟩
abbrev S400000 : Shape := ⟨1, ![400000]⟩
abbrev S1000000 : Shape := ⟨1, ![1000000]⟩
abbrev S_ : Shape := ⟨0, ![]⟩

class Facts : Prop where
  bcast_S_S200000x384 : S_.BroadcastsInDim S200000x384 (![] : Fin 0 → Fin S200000x384.rank)
  reducesTo_S200000x384_S_d0_1 : S200000x384.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S5000x64 : S_.BroadcastsInDim S5000x64 (![] : Fin 0 → Fin S5000x64.rank)
  reducesTo_S5000x64_S_d0_1 : S5000x64.ReducesTo [0, 1] S_
  bcast_S_S2000x64 : S_.BroadcastsInDim S2000x64 (![] : Fin 0 → Fin S2000x64.rank)
  reducesTo_S2000x64_S_d0_1 : S2000x64.ReducesTo [0, 1] S_
  bcast_S_S1000x64 : S_.BroadcastsInDim S1000x64 (![] : Fin 0 → Fin S1000x64.rank)
  reducesTo_S1000x64_S_d0_1 : S1000x64.ReducesTo [0, 1] S_
  bcast_S_S384x64 : S_.BroadcastsInDim S384x64 (![] : Fin 0 → Fin S384x64.rank)
  reducesTo_S384x64_S_d0_1 : S384x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_arg11 : FVec F S32 .f32) (main_arg12 : FVec F S64x32 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S64x32 .f32 := Host.absf main_arg12
  let main_cst_22 : FVec F S_ .f32 := constant S_ .f32 0x7F800000#32
  let main_v60 : FVec F S64x32 .f32 := broadcastInDim S64x32 ![] bcast_S_S64x32 main_cst_22
  let main_v61 : IVec S64x32 1 := cmpf .olt main_v59 main_v60
  let main_c_23 : IVec S_ 1 := constantI S_ 1 1#1
  let main_v62 : IVec S_ 1 := (fun x v => Host.reduce IntOp.andi x v reducesTo_S64x32_S_d0_1 h_S_) main_v61 main_c_23
  let main_v63 : IVec S_ 1 := andi main_v58 main_v62
  main_v63

def fn_part2 {F : FTy → Type} [FloatOps F] (main_arg7 : FVec F S64x64 .f32) (main_arg8 : FVec F S64 .f32) (main_arg9 : FVec F S64x64 .f32) (main_arg10 : FVec F S64x32 .f32) (main_arg11 : FVec F S32 .f32) (main_arg12 : FVec F S64x32 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x32 .f32 := Host.absf main_arg10
  let main_cst_18 : FVec F S_ .f32 := constant S_ .f32 0x7F800000#32
  let main_v50 : FVec F S64x32 .f32 := broadcastInDim S64x32 ![] bcast_S_S64x32 main_cst_18
  fn_part3 (F := F) main_arg11 main_arg12 main_v48 main_v49 main_v50

def fn_part1 {F : FTy → Type} [FloatOps F] (main_arg4 : FVec F S1000x64 .f32) (main_arg5 : FVec F S384x64 .f32) (main_arg6 : FVec F S64 .f32) (main_arg7 : FVec F S64x64 .f32) (main_arg8 : FVec F S64 .f32) (main_arg9 : FVec F S64x64 .f32) (main_arg10 : FVec F S64x32 .f32) (main_arg11 : FVec F S32 .f32) (main_arg12 : FVec F S64x32 .f32) (main_v13 : IVec S_ 1) (main_v16 : IVec S2000x64 1) : IVec S_ 1 :=
  let main_c_5 : IVec S_ 1 := constantI S_ 1 1#1
  let main_v17 : IVec S_ 1 := (fun x v => Host.reduce IntOp.andi x v reducesTo_S2000x64_S_d0_1 h_S_) main_v16 main_c_5
  let main_v18 : IVec S_ 1 := andi main_v13 main_v17
  let main_v19 : FVec F S1000x64 .f32 := Host.absf main_arg4
  let main_cst_6 : FVec F S_ .f32 := constant S_ .f32 0x7F800000#32
  let main_v20 : FVec F S1000x64 .f32 := broadcastInDim S1000x64 ![] bcast_S_S1000x64 main_cst_6
  let main_v21 : IVec S1000x64 1 := cmpf .olt main_v19 main_v20
  let main_c_7 : IVec S_ 1 := constantI S_ 1 1#1
  let main_v22 : IVec S_ 1 := (fun x v => Host.reduce IntOp.andi x v reducesTo_S1000x64_S_d0_1 h_S_) main_v21 main_c_7
  let main_v23 : IVec S_ 1 := andi main_v18 main_v22
  let main_v24 : FVec F S384x64 .f32 := Host.absf main_arg5
  let main_cst_8 : FVec F S_ .f32 := constant S_ .f32 0x7F800000#32
  let main_v25 : FVec F S384x64 .f32 := broadcastInDim S384x64 ![] bcast_S_S384x64 main_cst_8
  let main_v26 : IVec S384x64 1 := cmpf .olt main_v24 main_v25
  let main_c_9 : IVec S_ 1 := constantI S_ 1 1#1
  let main_v27 : IVec S_ 1 := (fun x v => Host.reduce IntOp.andi x v reducesTo_S384x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S200000x384 .f32) (main_arg1 : FVec F S100000x64 .f32) (main_arg2 : FVec F S5000x64 .f32) (main_arg3 : FVec F S2000x64 .f32) (main_arg4 : FVec F S1000x64 .f32) (main_arg5 : FVec F S384x64 .f32) (main_arg6 : FVec F S64 .f32) (main_arg7 : FVec F S64x64 .f32) (main_arg8 : FVec F S64 .f32) (main_arg9 : FVec F S64x64 .f32) (main_arg10 : FVec F S64x32 .f32) (main_arg11 : FVec F S32 .f32) (main_arg12 : FVec F S64x32 .f32) (main_arg13 : IVec S200000 32) (main_arg14 : IVec S200000 32) (main_arg15 : IVec S200000 32) (main_arg16 : IVec S200000 32) (main_arg17 : IVec S400000 32) (main_arg18 : IVec S400000 32) (main_arg19 : IVec S1000000 32) (main_arg20 : IVec S1000000 32) : IVec S_ 1 :=
  let main_v0 : FVec F S200000x384 .f32 := Host.absf main_arg0
  let main_cst : FVec F S_ .f32 := constant S_ .f32 0x7F800000#32
  let main_v1 : FVec F S200000x384 .f32 := broadcastInDim S200000x384 ![] bcast_S_S200000x384 main_cst
  let main_v2 : IVec S200000x384 1 := cmpf .olt main_v0 main_v1
  let main_c : IVec S_ 1 := constantI S_ 1 1#1
  let main_v3 : IVec S_ 1 := (fun x v => Host.reduce IntOp.andi x v reducesTo_S200000x384_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S5000x64 .f32 := Host.absf main_arg2
  let main_cst_2 : FVec F S_ .f32 := constant S_ .f32 0x7F800000#32
  let main_v10 : FVec F S5000x64 .f32 := broadcastInDim S5000x64 ![] bcast_S_S5000x64 main_cst_2
  let main_v11 : IVec S5000x64 1 := cmpf .olt main_v9 main_v10
  let main_c_3 : IVec S_ 1 := constantI S_ 1 1#1
  let main_v12 : IVec S_ 1 := (fun x v => Host.reduce IntOp.andi x v reducesTo_S5000x64_S_d0_1 h_S_) main_v11 main_c_3
  let main_v13 : IVec S_ 1 := andi main_v8 main_v12
  let main_v14 : FVec F S2000x64 .f32 := Host.absf main_arg3
  let main_cst_4 : FVec F S_ .f32 := constant S_ .f32 0x7F800000#32
  let main_v15 : FVec F S2000x64 .f32 := broadcastInDim S2000x64 ![] bcast_S_S2000x64 main_cst_4
  let main_v16 : IVec S2000x64 1 := cmpf .olt main_v14 main_v15
  fn_part1 (F := F) main_arg4 main_arg5 main_arg6 main_arg7 main_arg8 main_arg9 main_arg10 main_arg11 main_arg12 main_v13 main_v16
-- ==== Kernel.lean ====
abbrev S200000x384 : Shape := ⟨2, ![200000, 384]⟩
abbrev S100000x64 : Shape := ⟨2, ![100000, 64]⟩
abbrev S5000x64 : Shape := ⟨2, ![5000, 64]⟩
abbrev S2000x64 : Shape := ⟨2, ![2000, 64]⟩
abbrev S1000x64 : Shape := ⟨2, ![1000, 64]⟩
abbrev S384x64 : Shape := ⟨2, ![384, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S200000 : Shape := ⟨1, ![200000]⟩
abbrev S400000 : Shape := ⟨1, ![400000]⟩
abbrev S1000000 : Shape := ⟨1, ![1000000]⟩
abbrev S200000x64 : Shape := ⟨2, ![200000, 64]⟩
abbrev S5000x384 : Shape := ⟨2, ![5000, 384]⟩
abbrev S1x64 : Shape := ⟨2, ![1, 64]⟩
abbrev S308000x64 : Shape := ⟨2, ![308000, 64]⟩
abbrev S_ : Shape := ⟨0, ![]⟩
abbrev S3600000 : Shape := ⟨1, ![3600000]⟩
abbrev S3600000x1 : Shape := ⟨2, ![3600000, 1]⟩
abbrev S3600000x64 : Shape := ⟨2, ![3600000, 64]⟩
abbrev S308000 : Shape := ⟨1, ![308000]⟩
abbrev S308000x1 : Shape := ⟨2, ![308000, 1]⟩
abbrev S6160x64 : Shape := ⟨2, ![6160, 64]⟩
abbrev S308000x32 : Shape := ⟨2, ![308000, 32]⟩
abbrev S6160x32 : Shape := ⟨2, ![6160, 32]⟩
abbrev S1x32 : Shape := ⟨2, ![1, 32]⟩

abbrev nBuf : Space → Nat
  | .hbm => 89
  | .vmem => 24
  | .smem => 0
  | _ => 0

abbrev bufTy : (tb : Table) → Fin (tcTables nBuf tb) → BufTy
  | .hbm, ⟨0, _⟩ => ⟨S200000x384, .f32⟩
  | .hbm, ⟨1, _⟩ => ⟨S100000x64, .f32⟩
  | .hbm, ⟨2, _⟩ => ⟨S5000x64, .f32⟩
  | .hbm, ⟨3, _⟩ => ⟨S2000x64, .f32⟩
  | .hbm, ⟨4, _⟩ => ⟨S1000x64, .f32⟩
  | .hbm, ⟨5, _⟩ => ⟨S384x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64x32, .f32⟩
  | .hbm, ⟨11, _⟩ => ⟨S32, .f32⟩
  | .hbm, ⟨12, _⟩ => ⟨S64x32, .f32⟩
  | .hbm, ⟨13, _⟩ => ⟨S200000, .i32⟩
  | .hbm, ⟨14, _⟩ => ⟨S200000, .i32⟩
  | .hbm, ⟨15, _⟩ => ⟨S200000, .i32⟩
  | .hbm, ⟨16, _⟩ => ⟨S200000, .i32⟩
  | .hbm, ⟨17, _⟩ => ⟨S400000, .i32⟩
  | .hbm, ⟨18, _⟩ => ⟨S400000, .i32⟩
  | .hbm, ⟨19, _⟩ => ⟨S1000000, .i32⟩
  | .hbm, ⟨20, _⟩ => ⟨S1000000, .i32⟩
  | .hbm, ⟨21, _⟩ => ⟨S200000x64, .f32⟩
  | .hbm, ⟨22, _⟩ => ⟨S308000x64, .f32⟩
  | .hbm, ⟨23, _⟩ => ⟨S_, .i32⟩
  | .hbm, ⟨24, _⟩ => ⟨S200000, .i32⟩
  | .hbm, ⟨25, _⟩ => ⟨S200000, .i32⟩
  | .hbm, ⟨26, _⟩ => ⟨S_, .i32⟩
  | .hbm, ⟨27, _⟩ => ⟨S200000, .i32⟩
  | .hbm, ⟨28, _⟩ => ⟨S200000, .i32⟩
  | .hbm, ⟨29, _⟩ => ⟨S_, .i32⟩
  | .hbm, ⟨30, _⟩ => ⟨S400000, .i32⟩
  | .hbm, ⟨31, _⟩ => ⟨S400000, .i32⟩
  | .hbm, ⟨32, _⟩ => ⟨S_, .i32⟩
  | .hbm, ⟨33, _⟩ => ⟨S1000000, .i32⟩
  | .hbm, ⟨34, _⟩ => ⟨S1000000, .i32⟩
  | .hbm, ⟨35, _⟩ => ⟨S3600000, .i32⟩
  | .hbm, ⟨36, _⟩ => ⟨S3600000, .i32⟩
  | .hbm, ⟨37, _⟩ => ⟨S_, .i32⟩
  | .hbm, ⟨38, _⟩ => ⟨S3600000, .i32⟩
  | .hbm, ⟨39, _⟩ => ⟨S3600000, .i1⟩
  | .hbm, ⟨40, _⟩ => ⟨S_, .i32⟩
  | .hbm, ⟨41, _⟩ => ⟨S3600000, .i32⟩
  | .hbm, ⟨42, _⟩ => ⟨S3600000, .i32⟩
  | .hbm, ⟨43, _⟩ => ⟨S3600000, .i32⟩
  | .hbm, ⟨44, _⟩ => ⟨S3600000x1, .i32⟩
  | .hbm, ⟨45, _⟩ => ⟨S3600000x64, .f32⟩
  | .hbm, ⟨46, _⟩ => ⟨S_, .f32⟩
  | .hbm, ⟨47, _⟩ => ⟨S308000x64, .f32⟩
  | .hbm, ⟨48, _⟩ => ⟨S3600000x1, .i32⟩
  | .hbm, ⟨49, _⟩ => ⟨S308000x64, .f32⟩
  | .hbm, ⟨50, _⟩ => ⟨S_, .f32⟩
  | .hbm, ⟨51, _⟩ => ⟨S3600000, .f32⟩
  | .hbm, ⟨52, _⟩ => ⟨S_, .f32⟩
  | .hbm, ⟨53, _⟩ => ⟨S308000, .f32⟩
  | .hbm, ⟨54, _⟩ => ⟨S3600000x1, .i32⟩
  | .hbm, ⟨55, _⟩ => ⟨S308000, .f32⟩
  | .hbm, ⟨56, _⟩ => ⟨S_, .f32⟩
  | .hbm, ⟨57, _⟩ => ⟨S308000, .f32⟩
  | .hbm, ⟨58, _⟩ => ⟨S308000, .f32⟩
  | .hbm, ⟨59, _⟩ => ⟨S308000x1, .f32⟩
  | .hbm, ⟨60, _⟩ => ⟨S308000x64, .f32⟩
  | .hbm, ⟨61, _⟩ => ⟨S308000x64, .f32⟩
  | .hbm, ⟨62, _⟩ => ⟨S308000x64, .f32⟩
  | .hbm, ⟨63, _⟩ => ⟨S_, .i32⟩
  | .hbm, ⟨64, _⟩ => ⟨S3600000, .i32⟩
  | .hbm, ⟨65, _⟩ => ⟨S3600000, .i1⟩
  | .hbm, ⟨66, _⟩ => ⟨S_, .i32⟩
  | .hbm, ⟨67, _⟩ => ⟨S3600000, .i32⟩
  | .hbm, ⟨68, _⟩ => ⟨S3600000, .i32⟩
  | .hbm, ⟨69, _⟩ => ⟨S3600000, .i32⟩
  | .hbm, ⟨70, _⟩ => ⟨S3600000x1, .i32⟩
  | .hbm, ⟨71, _⟩ => ⟨S3600000x64, .f32⟩
  | .hbm, ⟨72, _⟩ => ⟨S_, .f32⟩
  | .hbm, ⟨73, _⟩ => ⟨S308000x64, .f32⟩
  | .hbm, ⟨74, _⟩ => ⟨S3600000x1, .i32⟩
  | .hbm, ⟨75, _⟩ => ⟨S308000x64, .f32⟩
  | .hbm, ⟨76, _⟩ => ⟨S_, .f32⟩
  | .hbm, ⟨77, _⟩ => ⟨S3600000, .f32⟩
  | .hbm, ⟨78, _⟩ => ⟨S_, .f32⟩
  | .hbm, ⟨79, _⟩ => ⟨S308000, .f32⟩
  | .hbm, ⟨80, _⟩ => ⟨S3600000x1, .i32⟩
  | .hbm, ⟨81, _⟩ => ⟨S308000, .f32⟩
  | .hbm, ⟨82, _⟩ => ⟨S_, .f32⟩
  | .hbm, ⟨83, _⟩ => ⟨S308000, .f32⟩
  | .hbm, ⟨84, _⟩ => ⟨S308000, .f32⟩
  | .hbm, ⟨85, _⟩ => ⟨S308000x1, .f32⟩
  | .hbm, ⟨86, _⟩ => ⟨S308000x64, .f32⟩
  | .hbm, ⟨87, _⟩ => ⟨S308000x64, .f32⟩
  | .hbm, ⟨88, _⟩ => ⟨S308000x32, .f32⟩
  | .local _ .vmem, ⟨0, _⟩ => ⟨S5000x384, .f32⟩
  | .local _ .vmem, ⟨1, _⟩ => ⟨S5000x384, .f32⟩
  | .local _ .vmem, ⟨2, _⟩ => ⟨S384x64, .f32⟩
  | .local _ .vmem, ⟨3, _⟩ => ⟨S64, .f32⟩
  | .local _ .vmem, ⟨4, _⟩ => ⟨S5000x64, .f32⟩
  | .local _ .vmem, ⟨5, _⟩ => ⟨S5000x64, .f32⟩
  | .local _ .vmem, ⟨6, _⟩ => ⟨S6160x64, .f32⟩
  | .local _ .vmem, ⟨7, _⟩ => ⟨S6160x64, .f32⟩
  | .local _ .vmem, ⟨8, _⟩ => ⟨S6160x64, .f32⟩
  | .local _ .vmem, ⟨9, _⟩ => ⟨S6160x64, .f32⟩
  | .local _ .vmem, ⟨10, _⟩ => ⟨S64x64, .f32⟩
  | .local _ .vmem, ⟨11, _⟩ => ⟨S64, .f32⟩
  | .local _ .vmem, ⟨12, _⟩ => ⟨S64x64, .f32⟩
  | .local _ .vmem, ⟨13, _⟩ => ⟨S6160x64, .f32⟩
  | .local _ .vmem, ⟨14, _⟩ => ⟨S6160x64, .f32⟩
  | .local _ .vmem, ⟨15, _⟩ => ⟨S6160x64, .f32⟩
  | .local _ .vmem, ⟨16, _⟩ => ⟨S6160x64, .f32⟩
  | .local _ .vmem, ⟨17, _⟩ => ⟨S6160x64, .f32⟩
  | .local _ .vmem, ⟨18, _⟩ => ⟨S6160x64, .f32⟩
  | .local _ .vmem, ⟨19, _⟩ => ⟨S64x32, .f32⟩
  | .local _ .vmem, ⟨20, _⟩ => ⟨S32, .f32⟩
  | .local _ .vmem, ⟨21, _⟩ => ⟨S64x32, .f32⟩
  | .local _ .vmem, ⟨22, _⟩ => ⟨S6160x32, .f32⟩
  | .local _ .vmem, ⟨23, _⟩ => ⟨S6160x32, .f32⟩
  | _, _ => ⟨S200000x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_c : Ref sig .tc := ⟨.hbm, 23, rfl⟩
abbrev main_v2 : Ref sig .tc := ⟨.hbm, 24, rfl⟩
abbrev main_v3 : Ref sig .tc := ⟨.hbm, 25, rfl⟩
abbrev main_c_0 : Ref sig .tc := ⟨.hbm, 26, rfl⟩
abbrev main_v4 : Ref sig .tc := ⟨.hbm, 27, rfl⟩
abbrev main_v5 : Ref sig .tc := ⟨.hbm, 28, rfl⟩
abbrev main_c_1 : Ref sig .tc := ⟨.hbm, 29, rfl⟩
abbrev main_v6 : Ref sig .tc := ⟨.hbm, 30, rfl⟩
abbrev main_v7 : Ref sig .tc := ⟨.hbm, 31, rfl⟩
abbrev main_c_2 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_c_3 : Ref sig .tc := ⟨.hbm, 37, rfl⟩
abbrev main_v12 : Ref sig .tc := ⟨.hbm, 38, rfl⟩
abbrev main_v13 : Ref sig .tc := ⟨.hbm, 39, rfl⟩
abbrev main_c_4 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_5 : Ref sig .tc := ⟨.hbm, 50, rfl⟩
abbrev main_v22 : Ref sig .tc := ⟨.hbm, 51, rfl⟩
abbrev main_cst_6 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_7 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_c_8 : Ref sig .tc := ⟨.hbm, 63, rfl⟩
abbrev main_v32 : Ref sig .tc := ⟨.hbm, 64, rfl⟩
abbrev main_v33 : Ref sig .tc := ⟨.hbm, 65, rfl⟩
abbrev main_c_9 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_10 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_11 : Ref sig .tc := ⟨.hbm, 76, rfl⟩
abbrev main_v42 : Ref sig .tc := ⟨.hbm, 77, rfl⟩
abbrev main_cst_12 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_cst_13 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6160x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6160x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S6160x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6160x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6160x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S6160x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  inb_S5000x384_S5000x384_0_0 : ∀ a, (![0, 0] : Fin 2 → Nat) a + S5000x384.size a ≤ S5000x384.size a
  h_S5000x384 : 0 < S5000x384.numel
  bitsLt_bf16_f32 : FTy.bits .bf16 < FTy.bits .f32
  inb_S384x64_S384x64_0_0 : ∀ a, (![0, 0] : Fin 2 → Nat) a + S384x64.size a ≤ S384x64.size a
  h_S384x64 : 0 < S384x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  concatenates_S200000x64_S100000x64_S5000x64_S2000x64_S1000x64_S308000x64_d0 : Shape.Concatenates [S200000x64, S100000x64, S5000x64, S2000x64, S1000x64] S308000x64 0
  bcast_S_S200000 : S_.BroadcastsInDim S200000 (![] : Fin 0 → Fin S200000.rank)
  bcast_S_S400000 : S_.BroadcastsInDim S400000 (![] : Fin 0 → Fin S400000.rank)
  bcast_S_S1000000 : S_.BroadcastsInDim S1000000 (![] : Fin 0 → Fin S1000000.rank)
  concatenates_S200000_S200000_S200000_S200000_S400000_S400000_S1000000_S1000000_S3600000_d0 : Shape.Concatenates [S200000, S200000, S200000, S200000, S400000, S400000, S1000000, S1000000] S3600000 0
  bcast_S_S3600000 : S_.BroadcastsInDim S3600000 (![] : Fin 0 → Fin S3600000.rank)
  bcast_S3600000_S3600000x1_0 : S3600000.BroadcastsInDim S3600000x1 (![0] : Fin 1 → Fin S3600000x1.rank)
  bcast_S_S308000x64 : S_.BroadcastsInDim S308000x64 (![] : Fin 0 → Fin S308000x64.rank)
  bcast_S_S308000 : S_.BroadcastsInDim S308000 (![] : Fin 0 → Fin S308000.rank)
  bcast_S308000_S308000x1_0 : S308000.BroadcastsInDim S308000x1 (![0] : Fin 1 → Fin S308000x1.rank)
  bcast_S308000x1_S308000x64_0_1 : S308000x1.BroadcastsInDim S308000x64 (![0, 1] : Fin 2 → Fin S308000x64.rank)
  inb_S6160x64_S6160x64_0_0 : ∀ a, (![0, 0] : Fin 2 → Nat) a + S6160x64.size a ≤ S6160x64.size a
  h_S6160x64 : 0 < S6160x64.numel
  shapeCasts_S6160x64_S6160x64 : S6160x64.ShapeCasts S6160x64
  inb_S64x64_S64x64_0_0 : ∀ a, (![0, 0] : Fin 2 → Nat) a + S64x64.size a ≤ S64x64.size a
  h_S64x64 : 0 < S64x64.numel
  broadcasts_S1x64_S6160x64 : S1x64.Broadcasts S6160x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S6160x32 : S1x32.Broadcasts S6160x32
  inb_S6160x32_S6160x32_0_0 : ∀ a, (![0, 0] : Fin 2 → Nat) a + S6160x32.size a ≤ S6160x32.size a
  h_S6160x32 : 0 < S6160x32.numel
  dot_S5000x384_S384x64_S5000x64_1_0_0_1_n_n_wf : DotDims.WF S5000x384 S384x64 S5000x64 [1] [0] [0] [1] [] []
  gather_S308000x64_S3600000x1_S3600000x64_1_0_n_n_0_1_164_wf : GatherDims.WF S308000x64 S3600000x1 S3600000x64 [1] [0] [] [0] [] 1 ![1, 64]
  scatter_S308000x64_S3600000x1_S3600000x64_1_0_0_1_wf : ScatterDims.WF S308000x64 S3600000x1 S3600000x64 [1] [0] [0] 1
  scatter_S308000_S3600000x1_S3600000_n_0_0_1_wf : ScatterDims.WF S308000 S3600000x1 S3600000 [] [0] [0] 1
  dot_S6160x64_S64x64_S6160x64_1_0_0_1_n_n_wf : DotDims.WF S6160x64 S64x64 S6160x64 [1] [0] [0] [1] [] []
  dot_S6160x64_S64x32_S6160x32_1_0_0_1_n_n_wf : DotDims.WF S6160x64 S64x32 S6160x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x384.size a ≤ S200000x384.size a
  hwx0_0 : ∀ i : grid0.Coords, EltTy.bits .f32 = 32 ∨ (Rect.block (s := S200000x384) S5000x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x64.size a ≤ S384x64.size a
  hwx0_1 : ∀ i : grid0.Coords, EltTy.bits .f32 = 32 ∨ (Rect.block (s := S384x64) S384x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S200000x64.size a
  hwx0_3 : ∀ i : grid0.Coords, EltTy.bits .f32 = 32 ∨ (Rect.block (s := S200000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6160x64.size a ≤ S308000x64.size a
  hwx1_0 : ∀ i : grid1.Coords, EltTy.bits .f32 = 32 ∨ (Rect.block (s := S308000x64) S6160x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6160x64.size a ≤ S308000x64.size a
  hwx1_1 : ∀ i : grid1.Coords, EltTy.bits .f32 = 32 ∨ (Rect.block (s := S308000x64) S6160x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S6160x64.size a ≤ S308000x64.size a
  hwx1_5 : ∀ i : grid1.Coords, EltTy.bits .f32 = 32 ∨ (Rect.block (s := S308000x64) S6160x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6160x64.size a ≤ S308000x64.size a
  hwx2_0 : ∀ i : grid2.Coords, EltTy.bits .f32 = 32 ∨ (Rect.block (s := S308000x64) S6160x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6160x64.size a ≤ S308000x64.size a
  hwx2_1 : ∀ i : grid2.Coords, EltTy.bits .f32 = 32 ∨ (Rect.block (s := S308000x64) S6160x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x32.size a ≤ S64x32.size a
  hwx2_2 : ∀ i : grid2.Coords, EltTy.bits .f32 = 32 ∨ (Rect.block (s := S64x32) S64x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32.size a ≤ S32.size a
  hwx2_3 : ∀ i : grid2.Coords, EltTy.bits .f32 = 32 ∨ (Rect.block (s := S32) S32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x32.size a ≤ S64x32.size a
  hwx2_4 : ∀ i : grid2.Coords, EltTy.bits .f32 = 32 ∨ (Rect.block (s := S64x32) S64x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S6160x32.size a ≤ S308000x32.size a
  hwx2_5 : ∀ i : grid2.Coords, EltTy.bits .f32 = 32 ∨ (Rect.block (s := S308000x32) S6160x32.size (cc2_transform_5 i) (hinb2_5 i)).WholeWords (EltTy.packing .f32)

variable [Facts₀]

def dot_S5000x384_S384x64_S5000x64_1_0_0_1_n_n : DotDims S5000x384 S384x64 S5000x64 where
  lhsContracting := [1]
  rhsContracting := [0]
  lhsNonContracting := [0]
  rhsNonContracting := [1]
  lhsBatch := []
  rhsBatch := []
  wf := dot_S5000x384_S384x64_S5000x64_1_0_0_1_n_n_wf
def gather_S308000x64_S3600000x1_S3600000x64_1_0_n_n_0_1_164 : GatherDims S308000x64 S3600000x1 S3600000x64 where
  offsetDims := [1]
  collapsedSliceDims := [0]
  operandBatchingDims := []
  startIndicesBatchingDims := []
  startIndexMap := [0]
  indexVectorDim := 1
  sliceSizes := ![1, 64]
  wf := gather_S308000x64_S3600000x1_S3600000x64_1_0_n_n_0_1_164_wf
def scatter_S308000x64_S3600000x1_S3600000x64_1_0_0_1 : ScatterDims S308000x64 S3600000x1 S3600000x64 where
  updateWindowDims := [1]
  insertedWindowDims := [0]
  scatterDimsToOperandDims := [0]
  indexVectorDim := 1
  wf := scatter_S308000x64_S3600000x1_S3600000x64_1_0_0_1_wf
def scatter_S308000_S3600000x1_S3600000_n_0_0_1 : ScatterDims S308000 S3600000x1 S3600000 where
  updateWindowDims := []
  insertedWindowDims := [0]
  scatterDimsToOperandDims := [0]
  indexVectorDim := 1
  wf := scatter_S308000_S3600000x1_S3600000_n_0_0_1_wf
def dot_S6160x64_S64x64_S6160x64_1_0_0_1_n_n : DotDims S6160x64 S64x64 S6160x64 where
  lhsContracting := [1]
  rhsContracting := [0]
  lhsNonContracting := [0]
  rhsNonContracting := [1]
  lhsBatch := []
  rhsBatch := []
  wf := dot_S6160x64_S64x64_S6160x64_1_0_0_1_n_n_wf
def dot_S6160x64_S64x32_S6160x32_1_0_0_1_n_n : DotDims S6160x64 S64x32 S6160x32 where
  lhsContracting := [1]
  rhsContracting := [0]
  lhsNonContracting := [0]
  rhsNonContracting := [1]
  lhsBatch := []
  rhsBatch := []
  wf := dot_S6160x64_S64x32_S6160x32_1_0_0_1_n_n_wf

abbrev win0_0 : Pipeline.Window sig grid0 :=
  Pipeline.Window.ofSpec (Memref.whole main_arg0) S5000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S384x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S6160x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S6160x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S6160x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v50) S6160x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S6160x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S64x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S64x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S6160x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S200000x384 : Shape := ⟨2, ![200000, 384]⟩
abbrev S100000x64 : Shape := ⟨2, ![100000, 64]⟩
abbrev S5000x64 : Shape := ⟨2, ![5000, 64]⟩
abbrev S2000x64 : Shape := ⟨2, ![2000, 64]⟩
abbrev S1000x64 : Shape := ⟨2, ![1000, 64]⟩
abbrev S384x64 : Shape := ⟨2, ![384, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S200000 : Shape := ⟨1, ![200000]⟩
abbrev S400000 : Shape := ⟨1, ![400000]⟩
abbrev S1000000 : Shape := ⟨1, ![1000000]⟩
abbrev S200000x64 : Shape := ⟨2, ![200000, 64]⟩
abbrev S1x64 : Shape := ⟨2, ![1, 64]⟩
abbrev S_ : Shape := ⟨0, ![]⟩
abbrev S308000x64 : Shape := ⟨2, ![308000, 64]⟩
abbrev S3600000 : Shape := ⟨1, ![3600000]⟩
abbrev S3600000x1 : Shape := ⟨2, ![3600000, 1]⟩
abbrev S3600000x64 : Shape := ⟨2, ![3600000, 64]⟩
abbrev S308000 : Shape := ⟨1, ![308000]⟩
abbrev S308000x1 : Shape := ⟨2, ![308000, 1]⟩
abbrev S308000x32 : Shape := ⟨2, ![308000, 32]⟩
abbrev S1x32 : Shape := ⟨2, ![1, 32]⟩

abbrev nBuf : Space → Nat
  | .hbm => 108
  | .vmem => 0
  | .smem => 0
  | _ => 0

abbrev bufTy : (tb : Table) → Fin (tcTables nBuf tb) → BufTy
  | .hbm, ⟨0, _⟩ => ⟨S200000x384, .f32⟩
  | .hbm, ⟨1, _⟩ => ⟨S100000x64, .f32⟩
  | .hbm, ⟨2, _⟩ => ⟨S5000x64, .f32⟩
  | .hbm, ⟨3, _⟩ => ⟨S2000x64, .f32⟩
  | .hbm, ⟨4, _⟩ => ⟨S1000x64, .f32⟩
  | .hbm, ⟨5, _⟩ => ⟨S384x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64x32, .f32⟩
  | .hbm, ⟨11, _⟩ => ⟨S32, .f32⟩
  | .hbm, ⟨12, _⟩ => ⟨S64x32, .f32⟩
  | .hbm, ⟨13, _⟩ => ⟨S200000, .i32⟩
  | .hbm, ⟨14, _⟩ => ⟨S200000, .i32⟩
  | .hbm, ⟨15, _⟩ => ⟨S200000, .i32⟩
  | .hbm, ⟨16, _⟩ => ⟨S200000, .i32⟩
  | .hbm, ⟨17, _⟩ => ⟨S400000, .i32⟩
  | .hbm, ⟨18, _⟩ => ⟨S400000, .i32⟩
  | .hbm, ⟨19, _⟩ => ⟨S1000000, .i32⟩
  | .hbm, ⟨20, _⟩ => ⟨S1000000, .i32⟩
  | .hbm, ⟨21, _⟩ => ⟨S200000x64, .f32⟩
  | .hbm, ⟨22, _⟩ => ⟨S1x64, .f32⟩
  | .hbm, ⟨23, _⟩ => ⟨S200000x64, .f32⟩
  | .hbm, ⟨24, _⟩ => ⟨S200000x64, .f32⟩
  | .hbm, ⟨25, _⟩ => ⟨S_, .f32⟩
  | .hbm, ⟨26, _⟩ => ⟨S200000x64, .f32⟩
  | .hbm, ⟨27, _⟩ => ⟨S200000x64, .f32⟩
  | .hbm, ⟨28, _⟩ => ⟨S308000x64, .f32⟩
  | .hbm, ⟨29, _⟩ => ⟨S_, .i32⟩
  | .hbm, ⟨30, _⟩ => ⟨S200000, .i32⟩
  | .hbm, ⟨31, _⟩ => ⟨S200000, .i32⟩
  | .hbm, ⟨32, _⟩ => ⟨S_, .i32⟩
  | .hbm, ⟨33, _⟩ => ⟨S200000, .i32⟩
  | .hbm, ⟨34, _⟩ => ⟨S200000, .i32⟩
  | .hbm, ⟨35, _⟩ => ⟨S_, .i32⟩
  | .hbm, ⟨36, _⟩ => ⟨S400000, .i32⟩
  | .hbm, ⟨37, _⟩ => ⟨S400000, .i32⟩
  | .hbm, ⟨38, _⟩ => ⟨S_, .i32⟩
  | .hbm, ⟨39, _⟩ => ⟨S1000000, .i32⟩
  | .hbm, ⟨40, _⟩ => ⟨S1000000, .i32⟩
  | .hbm, ⟨41, _⟩ => ⟨S3600000, .i32⟩
  | .hbm, ⟨42, _⟩ => ⟨S3600000, .i32⟩
  | .hbm, ⟨43, _⟩ => ⟨S_, .i32⟩
  | .hbm, ⟨44, _⟩ => ⟨S3600000, .i32⟩
  | .hbm, ⟨45, _⟩ => ⟨S3600000, .i1⟩
  | .hbm, ⟨46, _⟩ => ⟨S_, .i32⟩
  | .hbm, ⟨47, _⟩ => ⟨S3600000, .i32⟩
  | .hbm, ⟨48, _⟩ => ⟨S3600000, .i32⟩
  | .hbm, ⟨49, _⟩ => ⟨S3600000, .i32⟩
  | .hbm, ⟨50, _⟩ => ⟨S3600000x1, .i32⟩
  | .hbm, ⟨51, _⟩ => ⟨S3600000x64, .f32⟩
  | .hbm, ⟨52, _⟩ => ⟨S_, .f32⟩
  | .hbm, ⟨53, _⟩ => ⟨S308000x64, .f32⟩
  | .hbm, ⟨54, _⟩ => ⟨S3600000x1, .i32⟩
  | .hbm, ⟨55, _⟩ => ⟨S308000x64, .f32⟩
  | .hbm, ⟨56, _⟩ => ⟨S_, .f32⟩
  | .hbm, ⟨57, _⟩ => ⟨S3600000, .f32⟩
  | .hbm, ⟨58, _⟩ => ⟨S_, .f32⟩
  | .hbm, ⟨59, _⟩ => ⟨S308000, .f32⟩
  | .hbm, ⟨60, _⟩ => ⟨S3600000x1, .i32⟩
  | .hbm, ⟨61, _⟩ => ⟨S308000, .f32⟩
  | .hbm, ⟨62, _⟩ => ⟨S_, .f32⟩
  | .hbm, ⟨63, _⟩ => ⟨S308000, .f32⟩
  | .hbm, ⟨64, _⟩ => ⟨S308000, .f32⟩
  | .hbm, ⟨65, _⟩ => ⟨S308000x1, .f32⟩
  | .hbm, ⟨66, _⟩ => ⟨S308000x64, .f32⟩
  | .hbm, ⟨67, _⟩ => ⟨S308000x64, .f32⟩
  | .hbm, ⟨68, _⟩ => ⟨S308000x64, .f32⟩
  | .hbm, ⟨69, _⟩ => ⟨S1x64, .f32⟩
  | .hbm, ⟨70, _⟩ => ⟨S308000x64, .f32⟩
  | .hbm, ⟨71, _⟩ => ⟨S308000x64, .f32⟩
  | .hbm, ⟨72, _⟩ => ⟨S308000x64, .f32⟩
  | .hbm, ⟨73, _⟩ => ⟨S308000x64, .f32⟩
  | .hbm, ⟨74, _⟩ => ⟨S_, .f32⟩
  | .hbm, ⟨75, _⟩ => ⟨S308000x64, .f32⟩
  | .hbm, ⟨76, _⟩ => ⟨S308000x64, .f32⟩
  | .hbm, ⟨77, _⟩ => ⟨S_, .i32⟩
  | .hbm, ⟨78, _⟩ => ⟨S3600000, .i32⟩
  | .hbm, ⟨79, _⟩ => ⟨S3600000, .i1⟩
  | .hbm, ⟨80, _⟩ => ⟨S_, .i32⟩
  | .hbm, ⟨81, _⟩ => ⟨S3600000, .i32⟩
  | .hbm, ⟨82, _⟩ => ⟨S3600000, .i32⟩
  | .hbm, ⟨83, _⟩ => ⟨S3600000, .i32⟩
  | .hbm, ⟨84, _⟩ => ⟨S3600000x1, .i32⟩
  | .hbm, ⟨85, _⟩ => ⟨S3600000x64, .f32⟩
  | .hbm, ⟨86, _⟩ => ⟨S_, .f32⟩
  | .hbm, ⟨87, _⟩ => ⟨S308000x64, .f32⟩
  | .hbm, ⟨88, _⟩ => ⟨S3600000x1, .i32⟩
  | .hbm, ⟨89, _⟩ => ⟨S308000x64, .f32⟩
  | .hbm, ⟨90, _⟩ => ⟨S_, .f32⟩
  | .hbm, ⟨91, _⟩ => ⟨S3600000, .f32⟩
  | .hbm, ⟨92, _⟩ => ⟨S_, .f32⟩
  | .hbm, ⟨93, _⟩ => ⟨S308000, .f32⟩
  | .hbm, ⟨94, _⟩ => ⟨S3600000x1, .i32⟩
  | .hbm, ⟨95, _⟩ => ⟨S308000, .f32⟩
  | .hbm, ⟨96, _⟩ => ⟨S_, .f32⟩
  | .hbm, ⟨97, _⟩ => ⟨S308000, .f32⟩
  | .hbm, ⟨98, _⟩ => ⟨S308000, .f32⟩
  | .hbm, ⟨99, _⟩ => ⟨S308000x1, .f32⟩
  | .hbm, ⟨100, _⟩ => ⟨S308000x64, .f32⟩
  | .hbm, ⟨101, _⟩ => ⟨S308000x64, .f32⟩
  | .hbm, ⟨102, _⟩ => ⟨S308000x32, .f32⟩
  | .hbm, ⟨103, _⟩ => ⟨S1x32, .f32⟩
  | .hbm, ⟨104, _⟩ => ⟨S308000x32, .f32⟩
  | .hbm, ⟨105, _⟩ => ⟨S308000x32, .f32⟩
  | .hbm, ⟨106, _⟩ => ⟨S308000x32, .f32⟩
  | .hbm, ⟨107, _⟩ => ⟨S308000x32, .f32⟩
  | _, _ => ⟨S200000x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_call0_cst : Ref sig .tc := ⟨.hbm, 25, rfl⟩
abbrev main_call0_v0 : Ref sig .tc := ⟨.hbm, 26, rfl⟩
abbrev main_v4 : Ref sig .tc := ⟨.hbm, 27, rfl⟩
abbrev main_v5 : Ref sig .tc := ⟨.hbm, 28, rfl⟩
abbrev main_c : Ref sig .tc := ⟨.hbm, 29, rfl⟩
abbrev main_v6 : Ref sig .tc := ⟨.hbm, 30, rfl⟩
abbrev main_v7 : Ref sig .tc := ⟨.hbm, 31, rfl⟩
abbrev main_c_0 : Ref sig .tc := ⟨.hbm, 32, rfl⟩
abbrev main_v8 : Ref sig .tc := ⟨.hbm, 33, rfl⟩
abbrev main_v9 : Ref sig .tc := ⟨.hbm, 34, rfl⟩
abbrev main_c_1 : Ref sig .tc := ⟨.hbm, 35, rfl⟩
abbrev main_v10 : Ref sig .tc := ⟨.hbm, 36, rfl⟩
abbrev main_v11 : Ref sig .tc := ⟨.hbm, 37, rfl⟩
abbrev main_c_2 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_c_3 : Ref sig .tc := ⟨.hbm, 43, rfl⟩
abbrev main_v16 : Ref sig .tc := ⟨.hbm, 44, rfl⟩
abbrev main_v17 : Ref sig .tc := ⟨.hbm, 45, rfl⟩
abbrev main_c_4 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_cst : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_5 : Ref sig .tc := ⟨.hbm, 56, rfl⟩
abbrev main_v26 : Ref sig .tc := ⟨.hbm, 57, rfl⟩
abbrev main_cst_6 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_7 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_call1_cst : Ref sig .tc := ⟨.hbm, 74, rfl⟩
abbrev main_call1_v0 : Ref sig .tc := ⟨.hbm, 75, rfl⟩
abbrev main_v41 : Ref sig .tc := ⟨.hbm, 76, rfl⟩
abbrev main_c_8 : Ref sig .tc := ⟨.hbm, 77, rfl⟩
abbrev main_v42 : Ref sig .tc := ⟨.hbm, 78, rfl⟩
abbrev main_v43 : Ref sig .tc := ⟨.hbm, 79, rfl⟩
abbrev main_c_9 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_cst_10 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_11 : Ref sig .tc := ⟨.hbm, 90, rfl⟩
abbrev main_v52 : Ref sig .tc := ⟨.hbm, 91, rfl⟩
abbrev main_cst_12 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_cst_13 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  concatenates_S200000x64_S100000x64_S5000x64_S2000x64_S1000x64_S308000x64_d0 : Shape.Concatenates [S200000x64, S100000x64, S5000x64, S2000x64, S1000x64] S308000x64 0
  bcast_S_S200000 : S_.BroadcastsInDim S200000 (![] : Fin 0 → Fin S200000.rank)
  bcast_S_S400000 : S_.BroadcastsInDim S400000 (![] : Fin 0 → Fin S400000.rank)
  bcast_S_S1000000 : S_.BroadcastsInDim S1000000 (![] : Fin 0 → Fin S1000000.rank)
  concatenates_S200000_S200000_S200000_S200000_S400000_S400000_S1000000_S1000000_S3600000_d0 : Shape.Concatenates [S200000, S200000, S200000, S200000, S400000, S400000, S1000000, S1000000] S3600000 0
  bcast_S_S3600000 : S_.BroadcastsInDim S3600000 (![] : Fin 0 → Fin S3600000.rank)
  bcast_S3600000_S3600000x1_0 : S3600000.BroadcastsInDim S3600000x1 (![0] : Fin 1 → Fin S3600000x1.rank)
  bcast_S_S308000x64 : S_.BroadcastsInDim S308000x64 (![] : Fin 0 → Fin S308000x64.rank)
  bcast_S_S308000 : S_.BroadcastsInDim S308000 (![] : Fin 0 → Fin S308000.rank)
  bcast_S308000_S308000x1_0 : S308000.BroadcastsInDim S308000x1 (![0] : Fin 1 → Fin S308000x1.rank)
  bcast_S308000x1_S308000x64_0_1 : S308000x1.BroadcastsInDim S308000x64 (![0, 1] : Fin 2 → Fin S308000x64.rank)
  bcast_S1x64_S308000x64_0_1 : S1x64.BroadcastsInDim S308000x64 (![0, 1] : Fin 2 → Fin S308000x64.rank)
  bcast_S32_S1x32_1 : S32.BroadcastsInDim S1x32 (![1] : Fin 1 → Fin S1x32.rank)
  bcast_S1x32_S308000x32_0_1 : S1x32.BroadcastsInDim S308000x32 (![0, 1] : Fin 2 → Fin S308000x32.rank)
  dot_S200000x384_S384x64_S200000x64_1_0_0_1_n_n_wf : DotDims.WF S200000x384 S384x64 S200000x64 [1] [0] [0] [1] [] []
  gather_S308000x64_S3600000x1_S3600000x64_1_0_n_n_0_1_164_wf : GatherDims.WF S308000x64 S3600000x1 S3600000x64 [1] [0] [] [0] [] 1 ![1, 64]
  scatter_S308000x64_S3600000x1_S3600000x64_1_0_0_1_wf : ScatterDims.WF S308000x64 S3600000x1 S3600000x64 [1] [0] [0] 1
  scatter_S308000_S3600000x1_S3600000_n_0_0_1_wf : ScatterDims.WF S308000 S3600000x1 S3600000 [] [0] [0] 1
  dot_S308000x64_S64x64_S308000x64_1_0_0_1_n_n_wf : DotDims.WF S308000x64 S64x64 S308000x64 [1] [0] [0] [1] [] []
  dot_S308000x64_S64x32_S308000x32_1_0_0_1_n_n_wf : DotDims.WF S308000x64 S64x32 S308000x32 [1] [0] [0] [1] [] []

variable [Facts₀]

def dot_S200000x384_S384x64_S200000x64_1_0_0_1_n_n : DotDims S200000x384 S384x64 S200000x64 where
  lhsContracting := [1]
  rhsContracting := [0]
  lhsNonContracting := [0]
  rhsNonContracting := [1]
  lhsBatch := []
  rhsBatch := []
  wf := dot_S200000x384_S384x64_S200000x64_1_0_0_1_n_n_wf
def gather_S308000x64_S3600000x1_S3600000x64_1_0_n_n_0_1_164 : GatherDims S308000x64 S3600000x1 S3600000x64 where
  offsetDims := [1]
  collapsedSliceDims := [0]
  operandBatchingDims := []
  startIndicesBatchingDims := []
  startIndexMap := [0]
  indexVectorDim := 1
  sliceSizes := ![1, 64]
  wf := gather_S308000x64_S3600000x1_S3600000x64_1_0_n_n_0_1_164_wf
def scatter_S308000x64_S3600000x1_S3600000x64_1_0_0_1 : ScatterDims S308000x64 S3600000x1 S3600000x64 where
  updateWindowDims := [1]
  insertedWindowDims := [0]
  scatterDimsToOperandDims := [0]
  indexVectorDim := 1
  wf := scatter_S308000x64_S3600000x1_S3600000x64_1_0_0_1_wf
def scatter_S308000_S3600000x1_S3600000_n_0_0_1 : ScatterDims S308000 S3600000x1 S3600000 where
  updateWindowDims := []
  insertedWindowDims := [0]
  scatterDimsToOperandDims := [0]
  indexVectorDim := 1
  wf := scatter_S308000_S3600000x1_S3600000_n_0_0_1_wf
def dot_S308000x64_S64x64_S308000x64_1_0_0_1_n_n : DotDims S308000x64 S64x64 S308000x64 where
  lhsContracting := [1]
  rhsContracting := [0]
  lhsNonContracting := [0]
  rhsNonContracting := [1]
  lhsBatch := []
  rhsBatch := []
  wf := dot_S308000x64_S64x64_S308000x64_1_0_0_1_n_n_wf
def dot_S308000x64_S64x32_S308000x32_1_0_0_1_n_n : DotDims S308000x64 S64x32 S308000x32 where
  lhsContracting := [1]
  rhsContracting := [0]
  lhsNonContracting := [0]
  rhsNonContracting := [1]
  lhsBatch := []
  rhsBatch := []
  wf := dot_S308000x64_S64x32_S308000x32_1_0_0_1_n_n_wf

class Facts : Prop extends Facts₀ where

variable [Facts]
-- ==== Proof.KI.Data.lean ====
/-
  The three pallas regions' proof data, stated at the buffer contents `V` a region is entered from.
  Region 0 (the projection): windows 0,1,2 read X (5000-row blocks), W and b (whole); window 3 is the output block,
  left at relu(X_blk · W + b).  Regions 1 and 2 (the two SAGE combines): windows 0,1 read the aggregate and the
  features (6160-row blocks), windows 2,3,4 read W_l, b_l, W_r (whole); window 5 is the output block, left at
  (A_blk · W_l + b_l) + X_blk · W_r, with a relu in region 1 only.
-/
import proofs.«176091_j8658654069109_1_alg».proof.Proof.Gen.KernelIdeal.Launch
import proofs.«176091_j8658654069109_1_alg».proof.Proof.Gen.KernelIdeal.Skeleton
import proofs.«176091_j8658654069109_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

-- the TensorCore's buffer contents when a region is entered
variable (V : (c : Dev nD) → (b : Ref sig .tc) → Buf (Elt F) ((c : Thread nD τ).loc b))

/-! ## Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x384 := Rect.unit (s := S5000x384) ![0, 0] S5000x384.size inb_S5000x384_S5000x384_0_0
abbrev r0_1 : Rect S384x64 := Rect.unit (s := S384x64) ![0, 0] S384x64.size inb_S384x64_S384x64_0_0
abbrev r0_2 : Rect S64 := Rect.unit (s := S64) ![0] S64.size inb_S64_S64_0
abbrev r0_3 : Rect S5000x64 := Rect.unit (s := S5000x64) ![0, 0] S5000x64.size inb_S5000x64_S5000x64_0_0

/-- The output block after the body: its one store over the whole block. -/
def out0_3 (x0 : Vec F S5000x384 .f32) (x1 : Vec F S384x64 .f32) (x2 : Vec F S64 .f32) : Vec F S5000x64 .f32 :=
  View.canon [⟨r0_3, k0_pay1 (View.ld x0 r0_0) (View.ld x1 r0_1) (View.ld x2 r0_2)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## Region 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S6160x64 := Rect.unit (s := S6160x64) ![0, 0] S6160x64.size inb_S6160x64_S6160x64_0_0
abbrev r1_2 : Rect S64x64 := Rect.unit (s := S64x64) ![0, 0] S64x64.size inb_S64x64_S64x64_0_0
abbrev r1_3 : Rect S64 := Rect.unit (s := S64) ![0] S64.size inb_S64_S64_0

/-- The output block after the body. The payload's arguments are the loads in the body's order: the aggregate block,
    the feature block, W_l, W_r, b_l (windows 0, 1, 2, 4, 3). -/
def out1_5 (x0 x1 : Vec F S6160x64 .f32) (x2 : Vec F S64x64 .f32) (x3 : Vec F S64 .f32) (x4 : Vec F S64x64 .f32) : Vec F S6160x64 .f32 :=
  View.canon [⟨r1_0, k1_pay1 (View.ld x0 r1_0) (View.ld x1 r1_0) (View.ld x2 r1_2) (View.ld x4 r1_2) (View.ld x3 r1_3)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-! ## Region 2 -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_2 : Rect S64x32 := Rect.unit (s := S64x32) ![0, 0] S64x32.size inb_S64x32_S64x32_0_0
abbrev r2_3 : Rect S32 := Rect.unit (s := S32) ![0] S32.size inb_S32_S32_0
abbrev r2_5 : Rect S6160x32 := Rect.unit (s := S6160x32) ![0, 0] S6160x32.size inb_S6160x32_S6160x32_0_0

def out2_5 (x0 x1 : Vec F S6160x64 .f32) (x2 : Vec F S64x32 .f32) (x3 : Vec F S32 .f32) (x4 : Vec F S64x32 .f32) : Vec F S6160x32 .f32 :=
  View.canon [⟨r2_5, k2_pay1 (View.ld x0 r1_0) (View.ld x1 r1_0) (View.ld x2 r2_2) (View.ld x4 r2_2) (View.ld x3 r2_3)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

end Cert.KernelIdeal.Fr

end
-- ==== Proof.KI.Body0.lean ====
/-
  Region 0, the projection, on one core: what the body finds in its three input windows' buffers (a 5000-row block of X,
  all of W, all of b), the body's triple (it leaves the output buffer at relu(X_blk · W + b), the payload of its one
  store), and from these the obligation the pipeline asks of the body at every grid point.
-/
import proofs.«176091_j8658654069109_1_alg».proof.Proof.Gen.KernelIdeal.Launch
import proofs.«176091_j8658654069109_1_alg».proof.Proof.Gen.KernelIdeal.Skeleton
import proofs.«176091_j8658654069109_1_alg».proof.Proof.Gen.KernelIdeal.Points
import proofs.«176091_j8658654069109_1_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body finds in each input window's buffer -/

/-- Input window 0's current buffer holds its block at every point, whether it was fetched there or earlier:
    the window is uncut and never idle, and where it is not fetched its block index has not moved. Stated for any
    proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, whether it was fetched there or earlier:
    the window is uncut and never idle, and where it is not fetched its block index has not moved. Stated for any
    proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, whether it was fetched there or earlier:
    the window is uncut and never idle, and where it is not fetched its block index has not moved. Stated for any
    proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body's one store covers the output block -/

theorem cover0_3 (p0 : Vec F S5000x64 .f32) (y : S5000x64.Idx) :
    ∃ pc ∈ ([⟨r0_3, p0⟩] : List (View.Piece (Elt F) S5000x64 .f32)), y ∈ pc.1.set :=
  View.cover_of_tiled [⟨r0_3, p0⟩] S5000x64.size (by rfl) y

/-! ## The body's triple -/

set_option maxHeartbeats 1000000 in
/-- The body on whole staging memrefs — the inputs' at contents `x_w`, the output's at anything — runs to the
    continuation with the inputs' as they were and the output's at `out0_3` of the inputs: the printed function
    is its skeleton of loads and one store, and the store covers the block. -/
theorem sound_kernel0 (c : Dev nD) (E : Set ℕ) (i : grid0.Coords) (arg0 : Memref sig .tc .vmem S5000x384 .f32) (harg0 : arg0.IsWhole) (arg1 : Memref sig .tc .vmem S384x64 .f32) (harg1 : arg1.IsWhole) (arg2 : Memref sig .tc .vmem S64 .f32) (harg2 : arg2.IsWhole) (arg3 : Memref sig .tc .vmem S5000x64 .f32) (harg3 : arg3.IsWhole)
    (x0 : Vec F S5000x384 .f32) (x1 : Vec F S384x64 .f32) (x2 : Vec F S64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__proj_kernel i arg0 harg0 arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Body1.lean ====
/-
  Region 1, the first SAGE combine, on one core: what the body finds in its five input windows' buffers (6160-row blocks
  of the aggregate and of the features; all of W_l, b_l, W_r), the body's triple (it leaves the output buffer at
  relu((A_blk · W_l + b_l) + X_blk · W_r), the payload of its one store), and from these the obligation the pipeline
  asks of the body at every grid point.
-/
import proofs.«176091_j8658654069109_1_alg».proof.Proof.Gen.KernelIdeal.Launch
import proofs.«176091_j8658654069109_1_alg».proof.Proof.Gen.KernelIdeal.Skeleton
import proofs.«176091_j8658654069109_1_alg».proof.Proof.Gen.KernelIdeal.Points
import proofs.«176091_j8658654069109_1_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body finds in each input window's buffer -/

/-- Input window 0's current buffer holds its block at every point, whether it was fetched there or earlier:
    the window is uncut and never idle, and where it is not fetched its block index has not moved. Stated for any
    proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, whether it was fetched there or earlier:
    the window is uncut and never idle, and where it is not fetched its block index has not moved. Stated for any
    proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, whether it was fetched there or earlier:
    the window is uncut and never idle, and where it is not fetched its block index has not moved. Stated for any
    proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, whether it was fetched there or earlier:
    the window is uncut and never idle, and where it is not fetched its block index has not moved. Stated for any
    proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, whether it was fetched there or earlier:
    the window is uncut and never idle, and where it is not fetched its block index has not moved. Stated for any
    proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body's one store covers the output block -/

theorem cover1_5 (p0 : Vec F S6160x64 .f32) (y : S6160x64.Idx) :
    ∃ pc ∈ ([⟨r1_0, p0⟩] : List (View.Piece (Elt F) S6160x64 .f32)), y ∈ pc.1.set :=
  View.cover_of_tiled [⟨r1_0, p0⟩] S6160x64.size (by rfl) y

/-! ## The body's triple -/

set_option maxHeartbeats 1000000 in
/-- The body on whole staging memrefs — the inputs' at contents `x_w`, the output's at anything — runs to the
    continuation with the inputs' as they were and the output's at `out1_5` of the inputs: the printed function
    is its skeleton of loads and one store, and the store covers the block. -/
theorem sound_kernel1 (c : Dev nD) (E : Set ℕ) (i : grid1.Coords) (arg0 : Memref sig .tc .vmem S6160x64 .f32) (harg0 : arg0.IsWhole) (arg1 : Memref sig .tc .vmem S6160x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S6160x64 .f32) (harg5 : arg5.IsWhole)
    (x0 : Vec F S6160x64 .f32) (x1 : Vec F S6160x64 .f32) (x2 : Vec F S64x64 .f32) (x3 : Vec F S64 .f32) (x4 : Vec F S64x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out1_5 x0 x1 x2 x3 x4)) -∗ K ⟨⟩))
      ⊢ wp frame (wpE (defs₀ (F := F)) Variants.none c none) E (cc1__sage_kernel i arg0 harg0 arg1 harg1 arg2 harg2 arg3 harg3 arg4 harg4 arg5 harg5) K := by
  simp only [cc1__sage_kernel_eq_skeleton]; unfold cc1__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Body2.lean ====
/-
  Region 2, the second SAGE combine, on one core: what the body finds in its five input windows' buffers (6160-row blocks
  of the aggregate and of the features; all of W_l, b_l, W_r), the body's triple (it leaves the output buffer at
  (A_blk · W_l + b_l) + X_blk · W_r, the payload of its one store), and from these the obligation the pipeline asks of
  the body at every grid point.
-/
import proofs.«176091_j8658654069109_1_alg».proof.Proof.Gen.KernelIdeal.Launch
import proofs.«176091_j8658654069109_1_alg».proof.Proof.Gen.KernelIdeal.Skeleton
import proofs.«176091_j8658654069109_1_alg».proof.Proof.Gen.KernelIdeal.Points
import proofs.«176091_j8658654069109_1_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body finds in each input window's buffer -/

/-- Input window 0's current buffer holds its block at every point, whether it was fetched there or earlier:
    the window is uncut and never idle, and where it is not fetched its block index has not moved. Stated for any
    proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, whether it was fetched there or earlier:
    the window is uncut and never idle, and where it is not fetched its block index has not moved. Stated for any
    proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds its block at every point, whether it was fetched there or earlier:
    the window is uncut and never idle, and where it is not fetched its block index has not moved. Stated for any
    proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current buffer holds its block at every point, whether it was fetched there or earlier:
    the window is uncut and never idle, and where it is not fetched its block index has not moved. Stated for any
    proof data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current buffer holds its block at every point, whether it was fetched there or earlier:
    the window is uncut and never idle, and where it is not fetched its block index has not moved. Stated for any
    proof data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body's one store covers the output block -/

theorem cover2_5 (p0 : Vec F S6160x32 .f32) (y : S6160x32.Idx) :
    ∃ pc ∈ ([⟨r2_5, p0⟩] : List (View.Piece (Elt F) S6160x32 .f32)), y ∈ pc.1.set :=
  View.cover_of_tiled [⟨r2_5, p0⟩] S6160x32.size (by rfl) y

/-! ## The body's triple -/

set_option maxHeartbeats 1000000 in
/-- The body on whole staging memrefs — the inputs' at contents `x_w`, the output's at anything — runs to the
    continuation with the inputs' as they were and the output's at `out2_5` of the inputs: the printed function
    is its skeleton of loads and one store, and the store covers the block. -/
theorem sound_kernel2 (c : Dev nD) (E : Set ℕ) (i : grid2.Coords) (arg0 : Memref sig .tc .vmem S6160x64 .f32) (harg0 : arg0.IsWhole) (arg1 : Memref sig .tc .vmem S6160x64 .f32) (harg1 : arg1.IsWhole) (arg2 : Memref sig .tc .vmem S64x32 .f32) (harg2 : arg2.IsWhole) (arg3 : Memref sig .tc .vmem S32 .f32) (harg3 : arg3.IsWhole) (arg4 : Memref sig .tc .vmem S64x32 .f32) (harg4 : arg4.IsWhole) (arg5 : Memref sig .tc .vmem S6160x32 .f32) (harg5 : arg5.IsWhole)
    (x0 : Vec F S6160x64 .f32) (x1 : Vec F S6160x64 .f32) (x2 : Vec F S64x32 .f32) (x3 : Vec F S32 .f32) (x4 : Vec F S64x32 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4)) -∗ K ⟨⟩))
      ⊢ wp frame (wpE (defs₀ (F := F)) Variants.none c none) E (cc2__sage_kernel i arg0 harg0 arg1 harg1 arg2 harg2 arg3 harg3 arg4 harg4 arg5 harg5) K := by
  simp only [cc2__sage_kernel_eq_skeleton]; unfold cc2__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Fold.lean ====
/-
  The buffer contents at each boundary of @main, folded from the launch memory: a host stretch applies its
  operations; a region leaves each of its windows' arrays at what its write-backs make of it (an input's array
  as entered, the output's array with every point's block written back) and every other buffer as entered.
  W0 is the launch (region 0's entry), W1 region 0's exit, W2 after the first host stretch (region 1's entry),
  W3 region 1's exit, W4 after the second host stretch (region 2's entry), W5 region 2's exit.
-/
import proofs.«176091_j8658654069109_1_alg».proof.Proof.KI.Data
import proofs.«176091_j8658654069109_1_alg».proof.Proof.Gen.KernelIdeal.Launch
import proofs.«176091_j8658654069109_1_alg».proof.Proof.Gen.KernelIdeal.Skeleton
import proofs.«176091_j8658654069109_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At region 0's exit. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the first host stretch (region 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- At region 1's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second host stretch (region 2's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- At region 2's exit. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

end Cert.KernelIdeal.Fr

end
-- ==== Proof.KI.Run.lean ====
/-
  The run of @main on the TensorCores as five segments — region 0 (the projection), the first host stretch (the
  concatenation, the edge index arithmetic, the gather, the scatter-add and the division that make the mean
  aggregate), region 1 (the first SAGE combine), the second host stretch (the same aggregation over region 1's
  output), region 2 (the second SAGE combine) — over the thread state "every unscoped buffer at the boundary's
  contents, the generator register at some state, nothing owed". The result: every weakly fair execution
  terminates and leaves every unscoped buffer at the last boundary's contents W5; and, read back through the
  fold, every argument array as launched (no host operation writes one, and a region only reads one).
-/
import proofs.«176091_j8658654069109_1_alg».proof.Proof.Gen.KernelIdeal.Launch
import proofs.«176091_j8658654069109_1_alg».proof.Proof.Gen.KernelIdeal.Skeleton
import proofs.«176091_j8658654069109_1_alg».proof.Proof.Gen.KernelIdeal.Points
import proofs.«176091_j8658654069109_1_alg».proof.Proof.KI.Body0
import proofs.«176091_j8658654069109_1_alg».proof.Proof.KI.Body1
import proofs.«176091_j8658654069109_1_alg».proof.Proof.KI.Body2
import proofs.«176091_j8658654069109_1_alg».proof.Proof.KI.Fold
import proofs.«176091_j8658654069109_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched

A host stretch leaves a buffer none of its operations writes; a region leaves a buffer that is no window's array,
and an input window's array too (its write-backs are none). -/

theorem W2_of (c : Dev nD) (r : Ref sig .tc) (h : r ∉ hostOps1_W) :
    W2 m ρ c (Proc.devRef .tc r) = W1 m ρ c (Proc.devRef .tc r) :=
  StableHlo.after_of_writes_sub hostOps1 _ hostOps1_writes h
theorem W4_of (c : Dev nD) (r : Ref sig .tc) (h : r ∉ hostOps2_W) :
    W4 m ρ c (Proc.devRef .tc r) = W3 m ρ c (Proc.devRef .tc r) :=
  StableHlo.after_of_writes_sub hostOps2 _ hostOps2_writes h

/-- An input window's array leaves region 0 as it entered. -/
theorem W1_in (c : Dev nD) (w : Fin cfg0.W) (hin : (cfg0.win w).isOut = false) :
    W1 m ρ c (Proc.devRef .tc (Pipeline.arrRef spec0 w)) = W0 m ρ c (Proc.devRef .tc (Pipeline.arrRef spec0 w)) :=
  (W1_arr m ρ c w).trans (((dat0 (V0 m ρ) c).arrAt_in w hin _).trans (A_eq0 (V0 m ρ) c w))
/-- An input window's array leaves region 1 as it entered. -/
theorem W3_in (c : Dev nD) (w : Fin cfg1.W) (hin : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hin _).trans (A_eq1 (V2 m ρ) c w))
/-- An input window's array leaves region 2 as it entered. -/
theorem W5_in (c : Dev nD) (w : Fin cfg2.W) (hin : (cfg2.win w).isOut = false) :
    W5 m ρ c (Proc.devRef .tc (Pipeline.arrRef spec2 w)) = W4 m ρ c (Proc.devRef .tc (Pipeline.arrRef spec2 w)) :=
  (W5_arr m ρ c w).trans (((dat2 (V4 m ρ) c).arrAt_in w hin _).trans (A_eq2 (V4 m ρ) c w))

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := W4_of m ρ c main_arg0 (by decide)
    _ = W2 m ρ c (Proc.devRef .tc main_arg0) := W3_of_ne m ρ c main_arg0 (by decide)
    _ = W1 m ρ c (Proc.devRef .tc main_arg0) := W2_of m ρ c main_arg0 (by decide)
    _ = W0 m ρ c (Proc.devRef .tc main_arg0) := W1_in m ρ c 0 rfl
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := W4_of m ρ c main_arg1 (by decide)
    _ = W2 m ρ c (Proc.devRef .tc main_arg1) := W3_of_ne m ρ c main_arg1 (by decide)
    _ = W1 m ρ c (Proc.devRef .tc main_arg1) := W2_of m ρ c main_arg1 (by decide)
    _ = W0 m ρ c (Proc.devRef .tc main_arg1) := W1_of_ne m ρ c main_arg1 (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := W4_of m ρ c main_arg2 (by decide)
    _ = W2 m ρ c (Proc.devRef .tc main_arg2) := W3_of_ne m ρ c main_arg2 (by decide)
    _ = W1 m ρ c (Proc.devRef .tc main_arg2) := W2_of m ρ c main_arg2 (by decide)
    _ = W0 m ρ c (Proc.devRef .tc main_arg2) := W1_of_ne m ρ c main_arg2 (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := W4_of m ρ c main_arg3 (by decide)
    _ = W2 m ρ c (Proc.devRef .tc main_arg3) := W3_of_ne m ρ c main_arg3 (by decide)
    _ = W1 m ρ c (Proc.devRef .tc main_arg3) := W2_of m ρ c main_arg3 (by decide)
    _ = W0 m ρ c (Proc.devRef .tc main_arg3) := W1_of_ne m ρ c main_arg3 (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := W4_of m ρ c main_arg4 (by decide)
    _ = W2 m ρ c (Proc.devRef .tc main_arg4) := W3_of_ne m ρ c main_arg4 (by decide)
    _ = W1 m ρ c (Proc.devRef .tc main_arg4) := W2_of m ρ c main_arg4 (by decide)
    _ = W0 m ρ c (Proc.devRef .tc main_arg4) := W1_of_ne m ρ c main_arg4 (by decide)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := W4_of m ρ c main_arg5 (by decide)
    _ = W2 m ρ c (Proc.devRef .tc main_arg5) := W3_of_ne m ρ c main_arg5 (by decide)
    _ = W1 m ρ c (Proc.devRef .tc main_arg5) := W2_of m ρ c main_arg5 (by decide)
    _ = W0 m ρ c (Proc.devRef .tc main_arg5) := W1_in m ρ c 1 rfl
    _ = m ((c : Thread nD τ).loc main_arg5) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := W5_of_ne m ρ c main_arg6 (by decide)
    _ = W3 m ρ c (Proc.devRef .tc main_arg6) := W4_of m ρ c main_arg6 (by decide)
    _ = W2 m ρ c (Proc.devRef .tc main_arg6) := W3_of_ne m ρ c main_arg6 (by decide)
    _ = W1 m ρ c (Proc.devRef .tc main_arg6) := W2_of m ρ c main_arg6 (by decide)
    _ = W0 m ρ c (Proc.devRef .tc main_arg6) := W1_in m ρ c 2 rfl
    _ = m ((c : Thread nD τ).loc main_arg6) := rfl
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := W5_of_ne m ρ c main_arg7 (by decide)
    _ = W3 m ρ c (Proc.devRef .tc main_arg7) := W4_of m ρ c main_arg7 (by decide)
    _ = W2 m ρ c (Proc.devRef .tc main_arg7) := W3_in m ρ c 2 rfl
    _ = W1 m ρ c (Proc.devRef .tc main_arg7) := W2_of m ρ c main_arg7 (by decide)
    _ = W0 m ρ c (Proc.devRef .tc main_arg7) := W1_of_ne m ρ c main_arg7 (by decide)
    _ = m ((c : Thread nD τ).loc main_arg7) := rfl
theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := W5_of_ne m ρ c main_arg8 (by decide)
    _ = W3 m ρ c (Proc.devRef .tc main_arg8) := W4_of m ρ c main_arg8 (by decide)
    _ = W2 m ρ c (Proc.devRef .tc main_arg8) := W3_in m ρ c 3 rfl
    _ = W1 m ρ c (Proc.devRef .tc main_arg8) := W2_of m ρ c main_arg8 (by decide)
    _ = W0 m ρ c (Proc.devRef .tc main_arg8) := W1_of_ne m ρ c main_arg8 (by decide)
    _ = m ((c : Thread nD τ).loc main_arg8) := rfl
theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := W5_of_ne m ρ c main_arg9 (by decide)
    _ = W3 m ρ c (Proc.devRef .tc main_arg9) := W4_of m ρ c main_arg9 (by decide)
    _ = W2 m ρ c (Proc.devRef .tc main_arg9) := W3_in m ρ c 4 rfl
    _ = W1 m ρ c (Proc.devRef .tc main_arg9) := W2_of m ρ c main_arg9 (by decide)
    _ = W0 m ρ c (Proc.devRef .tc main_arg9) := W1_of_ne m ρ c main_arg9 (by decide)
    _ = m ((c : Thread nD τ).loc main_arg9) := rfl
theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := W5_in m ρ c 2 rfl
    _ = W3 m ρ c (Proc.devRef .tc main_arg10) := W4_of m ρ c main_arg10 (by decide)
    _ = W2 m ρ c (Proc.devRef .tc main_arg10) := W3_of_ne m ρ c main_arg10 (by decide)
    _ = W1 m ρ c (Proc.devRef .tc main_arg10) := W2_of m ρ c main_arg10 (by decide)
    _ = W0 m ρ c (Proc.devRef .tc main_arg10) := W1_of_ne m ρ c main_arg10 (by decide)
    _ = m ((c : Thread nD τ).loc main_arg10) := rfl
theorem W5_main_arg11 (c : Dev nD) : W5 m ρ c (Proc.devRef .tc main_arg11) = m ((c : Thread nD τ).loc main_arg11) :=
  calc W5 m ρ c (Proc.devRef .tc main_arg11)
    _ = W4 m ρ c (Proc.devRef .tc main_arg11) := W5_in m ρ c 3 rfl
    _ = W3 m ρ c (Proc.devRef .tc main_arg11) := W4_of m ρ c main_arg11 (by decide)
    _ = W2 m ρ c (Proc.devRef .tc main_arg11) := W3_of_ne m ρ c main_arg11 (by decide)
    _ = W1 m ρ c (Proc.devRef .tc main_arg11) := W2_of m ρ c main_arg11 (by decide)
    _ = W0 m ρ c (Proc.devRef .tc main_arg11) := W1_of_ne m ρ c main_arg11 (by decide)
    _ = m ((c : Thread nD τ).loc main_arg11) := rfl
theorem W5_main_arg12 (c : Dev nD) : W5 m ρ c (Proc.devRef .tc main_arg12) = m ((c : Thread nD τ).loc main_arg12) :=
  calc W5 m ρ c (Proc.devRef .tc main_arg12)
    _ = W4 m ρ c (Proc.devRef .tc main_arg12) := W5_in m ρ c 4 rfl
    _ = W3 m ρ c (Proc.devRef .tc main_arg12) := W4_of m ρ c main_arg12 (by decide)
    _ = W2 m ρ c (Proc.devRef .tc main_arg12) := W3_of_ne m ρ c main_arg12 (by decide)
    _ = W1 m ρ c (Proc.devRef .tc main_arg12) := W2_of m ρ c main_arg12 (by decide)
    _ = W0 m ρ c (Proc.devRef .tc main_arg12) := W1_of_ne m ρ c main_arg12 (by decide)
    _ = m ((c : Thread nD τ).loc main_arg12) := rfl
theorem W5_main_arg13 (c : Dev nD) : W5 m ρ c (Proc.devRef .tc main_arg13) = m ((c : Thread nD τ).loc main_arg13) :=
  calc W5 m ρ c (Proc.devRef .tc main_arg13)
    _ = W4 m ρ c (Proc.devRef .tc main_arg13) := W5_of_ne m ρ c main_arg13 (by decide)
    _ = W3 m ρ c (Proc.devRef .tc main_arg13) := W4_of m ρ c main_arg13 (by decide)
    _ = W2 m ρ c (Proc.devRef .tc main_arg13) := W3_of_ne m ρ c main_arg13 (by decide)
    _ = W1 m ρ c (Proc.devRef .tc main_arg13) := W2_of m ρ c main_arg13 (by decide)
    _ = W0 m ρ c (Proc.devRef .tc main_arg13) := W1_of_ne m ρ c main_arg13 (by decide)
    _ = m ((c : Thread nD τ).loc main_arg13) := rfl
theorem W5_main_arg14 (c : Dev nD) : W5 m ρ c (Proc.devRef .tc main_arg14) = m ((c : Thread nD τ).loc main_arg14) :=
  calc W5 m ρ c (Proc.devRef .tc main_arg14)
    _ = W4 m ρ c (Proc.devRef .tc main_arg14) := W5_of_ne m ρ c main_arg14 (by decide)
    _ = W3 m ρ c (Proc.devRef .tc main_arg14) := W4_of m ρ c main_arg14 (by decide)
    _ = W2 m ρ c (Proc.devRef .tc main_arg14) := W3_of_ne m ρ c main_arg14 (by decide)
    _ = W1 m ρ c (Proc.devRef .tc main_arg14) := W2_of m ρ c main_arg14 (by decide)
    _ = W0 m ρ c (Proc.devRef .tc main_arg14) := W1_of_ne m ρ c main_arg14 (by decide)
    _ = m ((c : Thread nD τ).loc main_arg14) := rfl
theorem W5_main_arg15 (c : Dev nD) : W5 m ρ c (Proc.devRef .tc main_arg15) = m ((c : Thread nD τ).loc main_arg15) :=
  calc W5 m ρ c (Proc.devRef .tc main_arg15)
    _ = W4 m ρ c (Proc.devRef .tc main_arg15) := W5_of_ne m ρ c main_arg15 (by decide)
    _ = W3 m ρ c (Proc.devRef .tc main_arg15) := W4_of m ρ c main_arg15 (by decide)
    _ = W2 m ρ c (Proc.devRef .tc main_arg15) := W3_of_ne m ρ c main_arg15 (by decide)
    _ = W1 m ρ c (Proc.devRef .tc main_arg15) := W2_of m ρ c main_arg15 (by decide)
    _ = W0 m ρ c (Proc.devRef .tc main_arg15) := W1_of_ne m ρ c main_arg15 (by decide)
    _ = m ((c : Thread nD τ).loc main_arg15) := rfl
theorem W5_main_arg16 (c : Dev nD) : W5 m ρ c (Proc.devRef .tc main_arg16) = m ((c : Thread nD τ).loc main_arg16) :=
  calc W5 m ρ c (Proc.devRef .tc main_arg16)
    _ = W4 m ρ c (Proc.devRef .tc main_arg16) := W5_of_ne m ρ c main_arg16 (by decide)
    _ = W3 m ρ c (Proc.devRef .tc main_arg16) := W4_of m ρ c main_arg16 (by decide)
    _ = W2 m ρ c (Proc.devRef .tc main_arg16) := W3_of_ne m ρ c main_arg16 (by decide)
    _ = W1 m ρ c (Proc.devRef .tc main_arg16) := W2_of m ρ c main_arg16 (by decide)
    _ = W0 m ρ c (Proc.devRef .tc main_arg16) := W1_of_ne m ρ c main_arg16 (by decide)
    _ = m ((c : Thread nD τ).loc main_arg16) := rfl
theorem W5_main_arg17 (c : Dev nD) : W5 m ρ c (Proc.devRef .tc main_arg17) = m ((c : Thread nD τ).loc main_arg17) :=
  calc W5 m ρ c (Proc.devRef .tc main_arg17)
    _ = W4 m ρ c (Proc.devRef .tc main_arg17) := W5_of_ne m ρ c main_arg17 (by decide)
    _ = W3 m ρ c (Proc.devRef .tc main_arg17) := W4_of m ρ c main_arg17 (by decide)
    _ = W2 m ρ c (Proc.devRef .tc main_arg17) := W3_of_ne m ρ c main_arg17 (by decide)
    _ = W1 m ρ c (Proc.devRef .tc main_arg17) := W2_of m ρ c main_arg17 (by decide)
    _ = W0 m ρ c (Proc.devRef .tc main_arg17) := W1_of_ne m ρ c main_arg17 (by decide)
    _ = m ((c : Thread nD τ).loc main_arg17) := rfl
theorem W5_main_arg18 (c : Dev nD) : W5 m ρ c (Proc.devRef .tc main_arg18) = m ((c : Thread nD τ).loc main_arg18) :=
  calc W5 m ρ c (Proc.devRef .tc main_arg18)
    _ = W4 m ρ c (Proc.devRef .tc main_arg18) := W5_of_ne m ρ c main_arg18 (by decide)
    _ = W3 m ρ c (Proc.devRef .tc main_arg18) := W4_of m ρ c main_arg18 (by decide)
    _ = W2 m ρ c (Proc.devRef .tc main_arg18) := W3_of_ne m ρ c main_arg18 (by decide)
    _ = W1 m ρ c (Proc.devRef .tc main_arg18) := W2_of m ρ c main_arg18 (by decide)
    _ = W0 m ρ c (Proc.devRef .tc main_arg18) := W1_of_ne m ρ c main_arg18 (by decide)
    _ = m ((c : Thread nD τ).loc main_arg18) := rfl
theorem W5_main_arg19 (c : Dev nD) : W5 m ρ c (Proc.devRef .tc main_arg19) = m ((c : Thread nD τ).loc main_arg19) :=
  calc W5 m ρ c (Proc.devRef .tc main_arg19)
    _ = W4 m ρ c (Proc.devRef .tc main_arg19) := W5_of_ne m ρ c main_arg19 (by decide)
    _ = W3 m ρ c (Proc.devRef .tc main_arg19) := W4_of m ρ c main_arg19 (by decide)
    _ = W2 m ρ c (Proc.devRef .tc main_arg19) := W3_of_ne m ρ c main_arg19 (by decide)
    _ = W1 m ρ c (Proc.devRef .tc main_arg19) := W2_of m ρ c main_arg19 (by decide)
    _ = W0 m ρ c (Proc.devRef .tc main_arg19) := W1_of_ne m ρ c main_arg19 (by decide)
    _ = m ((c : Thread nD τ).loc main_arg19) := rfl
theorem W5_main_arg20 (c : Dev nD) : W5 m ρ c (Proc.devRef .tc main_arg20) = m ((c : Thread nD τ).loc main_arg20) :=
  calc W5 m ρ c (Proc.devRef .tc main_arg20)
    _ = W4 m ρ c (Proc.devRef .tc main_arg20) := W5_of_ne m ρ c main_arg20 (by decide)
    _ = W3 m ρ c (Proc.devRef .tc main_arg20) := W4_of m ρ c main_arg20 (by decide)
    _ = W2 m ρ c (Proc.devRef .tc main_arg20) := W3_of_ne m ρ c main_arg20 (by decide)
    _ = W1 m ρ c (Proc.devRef .tc main_arg20) := W2_of m ρ c main_arg20 (by decide)
    _ = W0 m ρ c (Proc.devRef .tc main_arg20) := W1_of_ne m ρ c main_arg20 (by decide)
    _ = m ((c : Thread nD τ).loc main_arg20) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves
    those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The regions as segments

Each region's arrays are split out of the unscoped buffers at its entry and put back at its exit contents; the
generator register goes into the class invariant and comes out; nothing is owed; the kernels have no semaphore of
their own. -/

-- a library lemma stated over a pinned configuration unifies with the printed one only when unification may unfold
-- plain definitions in a metavariable's type
set_option backward.isDefEq.respectTransparency.types false in
/-- Region 0: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may unfold
-- plain definitions in a metavariable's type
set_option backward.isDefEq.respectTransparency.types false in
/-- Region 1: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may unfold
-- plain definitions in a metavariable's type
set_option backward.isDefEq.respectTransparency.types false in
/-- Region 2: entered from every unscoped buffer at `W4`, left at `W5`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's five segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ) ]
/-- @main is the run of the segments: it is the chain of its items, and the segments' run is the chain of their
    programs, which are those items. -/
theorem main_run (c : Dev nD) : main (F := F) c = Pipeline.Seg.run (segs m ρ) := (main_chain c).trans (by chain_rfl)

-- the library theorem's implicit arguments are found by unifying its conclusion with this one, which takes unfolding plain
-- definitions in a metavariable's type
set_option backward.isDefEq.respectTransparency.types false in
/-- At the compiled mesh, from any memory with zero counters, every weakly fair execution of @main on the TensorCores
    terminates, nothing faulting, and every final state has every unscoped buffer at the last boundary's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h => h)

/-- The frame: every weakly fair execution of @main terminates, and every final state has each argument array as
    launched — the run's last contents read at the arguments, each walked back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c),
     (h c _ (mem_uc main_arg12 (by decide))).trans (W5_main_arg12 m ρ c),
     (h c _ (mem_uc main_arg13 (by decide))).trans (W5_main_arg13 m ρ c),
     (h c _ (mem_uc main_arg14 (by decide))).trans (W5_main_arg14 m ρ c),
     (h c _ (mem_uc main_arg15 (by decide))).trans (W5_main_arg15 m ρ c),
     (h c _ (mem_uc main_arg16 (by decide))).trans (W5_main_arg16 m ρ c),
     (h c _ (mem_uc main_arg17 (by decide))).trans (W5_main_arg17 m ρ c),
     (h c _ (mem_uc main_arg18 (by decide))).trans (W5_main_arg18 m ρ c),
     (h c _ (mem_uc main_arg19 (by decide))).trans (W5_main_arg19 m ρ c),
     (h c _ (mem_uc main_arg20 (by decide))).trans (W5_main_arg20 m ρ c)⟩) (run_all m ρ)

end Cert.KernelIdeal.Fr

end
-- ==== Proof.K.Data.lean ====
/-
  The three pallas regions' proof data, stated at the buffer contents `V` a region is entered from.
  Region 0 (the projection): windows 0,1,2 read X (5000-row blocks), W and b (whole); window 3 is the output block,
  left at relu(X_blk · W + b).  Regions 1 and 2 (the two SAGE combines): windows 0,1 read the aggregate and the
  features (6160-row blocks), windows 2,3,4 read W_l, b_l, W_r (whole); window 5 is the output block, left at
  (A_blk · W_l + b_l) + X_blk · W_r, with a relu in region 1 only.
-/
import proofs.«176091_j8658654069109_1_alg».proof.Proof.Gen.Kernel.Launch
import proofs.«176091_j8658654069109_1_alg».proof.Proof.Gen.Kernel.Skeleton
import proofs.«176091_j8658654069109_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

-- the TensorCore's buffer contents when a region is entered
variable (V : (c : Dev nD) → (b : Ref sig .tc) → Buf (Elt F) ((c : Thread nD τ).loc b))

/-! ## Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x384 := Rect.unit (s := S5000x384) ![0, 0] S5000x384.size inb_S5000x384_S5000x384_0_0
abbrev r0_1 : Rect S384x64 := Rect.unit (s := S384x64) ![0, 0] S384x64.size inb_S384x64_S384x64_0_0
abbrev r0_2 : Rect S64 := Rect.unit (s := S64) ![0] S64.size inb_S64_S64_0
abbrev r0_3 : Rect S5000x64 := Rect.unit (s := S5000x64) ![0, 0] S5000x64.size inb_S5000x64_S5000x64_0_0

/-- The output block after the body: its one store over the whole block. -/
def out0_3 (x0 : Vec F S5000x384 .f32) (x1 : Vec F S384x64 .f32) (x2 : Vec F S64 .f32) : Vec F S5000x64 .f32 :=
  View.canon [⟨r0_3, k0_pay1 (View.ld x0 r0_0) (View.ld x1 r0_1) (View.ld x2 r0_2)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## Region 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S6160x64 := Rect.unit (s := S6160x64) ![0, 0] S6160x64.size inb_S6160x64_S6160x64_0_0
abbrev r1_2 : Rect S64x64 := Rect.unit (s := S64x64) ![0, 0] S64x64.size inb_S64x64_S64x64_0_0
abbrev r1_3 : Rect S64 := Rect.unit (s := S64) ![0] S64.size inb_S64_S64_0

/-- The output block after the body. The payload's arguments are the loads in the body's order: the aggregate block,
    the feature block, W_l, W_r, b_l (windows 0, 1, 2, 4, 3). -/
def out1_5 (x0 x1 : Vec F S6160x64 .f32) (x2 : Vec F S64x64 .f32) (x3 : Vec F S64 .f32) (x4 : Vec F S64x64 .f32) : Vec F S6160x64 .f32 :=
  View.canon [⟨r1_0, k1_pay1 (View.ld x0 r1_0) (View.ld x1 r1_0) (View.ld x2 r1_2) (View.ld x4 r1_2) (View.ld x3 r1_3)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-! ## Region 2 -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_2 : Rect S64x32 := Rect.unit (s := S64x32) ![0, 0] S64x32.size inb_S64x32_S64x32_0_0
abbrev r2_3 : Rect S32 := Rect.unit (s := S32) ![0] S32.size inb_S32_S32_0
abbrev r2_5 : Rect S6160x32 := Rect.unit (s := S6160x32) ![0, 0] S6160x32.size inb_S6160x32_S6160x32_0_0

def out2_5 (x0 x1 : Vec F S6160x64 .f32) (x2 : Vec F S64x32 .f32) (x3 : Vec F S32 .f32) (x4 : Vec F S64x32 .f32) : Vec F S6160x32 .f32 :=
  View.canon [⟨r2_5, k2_pay1 (View.ld x0 r1_0) (View.ld x1 r1_0) (View.ld x2 r2_2) (View.ld x4 r2_2) (View.ld x3 r2_3)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

end Cert.Kernel.Fr

end
-- ==== Proof.K.Body0.lean ====
/-
  Region 0, the projection, on one core: what the body finds in its three input windows' buffers (a 5000-row block of X,
  all of W, all of b), the body's triple (it leaves the output buffer at relu(X_blk · W + b), the payload of its one
  store), and from these the obligation the pipeline asks of the body at every grid point.
-/
import proofs.«176091_j8658654069109_1_alg».proof.Proof.Gen.Kernel.Launch
import proofs.«176091_j8658654069109_1_alg».proof.Proof.Gen.Kernel.Skeleton
import proofs.«176091_j8658654069109_1_alg».proof.Proof.Gen.Kernel.Points
import proofs.«176091_j8658654069109_1_alg».proof.Proof.K.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body finds in each input window's buffer -/

/-- Input window 0's current buffer holds its block at every point, whether it was fetched there or earlier:
    the window is uncut and never idle, and where it is not fetched its block index has not moved. Stated for any
    proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, whether it was fetched there or earlier:
    the window is uncut and never idle, and where it is not fetched its block index has not moved. Stated for any
    proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, whether it was fetched there or earlier:
    the window is uncut and never idle, and where it is not fetched its block index has not moved. Stated for any
    proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body's one store covers the output block -/

theorem cover0_3 (p0 : Vec F S5000x64 .f32) (y : S5000x64.Idx) :
    ∃ pc ∈ ([⟨r0_3, p0⟩] : List (View.Piece (Elt F) S5000x64 .f32)), y ∈ pc.1.set :=
  View.cover_of_tiled [⟨r0_3, p0⟩] S5000x64.size (by rfl) y

/-! ## The body's triple -/

set_option maxHeartbeats 1000000 in
/-- The body on whole staging memrefs — the inputs' at contents `x_w`, the output's at anything — runs to the
    continuation with the inputs' as they were and the output's at `out0_3` of the inputs: the printed function
    is its skeleton of loads and one store, and the store covers the block. -/
theorem sound_kernel0 (c : Dev nD) (E : Set ℕ) (i : grid0.Coords) (arg0 : Memref sig .tc .vmem S5000x384 .f32) (harg0 : arg0.IsWhole) (arg1 : Memref sig .tc .vmem S384x64 .f32) (harg1 : arg1.IsWhole) (arg2 : Memref sig .tc .vmem S64 .f32) (harg2 : arg2.IsWhole) (arg3 : Memref sig .tc .vmem S5000x64 .f32) (harg3 : arg3.IsWhole)
    (x0 : Vec F S5000x384 .f32) (x1 : Vec F S384x64 .f32) (x2 : Vec F S64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__proj_kernel i arg0 harg0 arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Body1.lean ====
/-
  Region 1, the first SAGE combine, on one core: what the body finds in its five input windows' buffers (6160-row blocks
  of the aggregate and of the features; all of W_l, b_l, W_r), the body's triple (it leaves the output buffer at
  relu((A_blk · W_l + b_l) + X_blk · W_r), the payload of its one store), and from these the obligation the pipeline
  asks of the body at every grid point.
-/
import proofs.«176091_j8658654069109_1_alg».proof.Proof.Gen.Kernel.Launch
import proofs.«176091_j8658654069109_1_alg».proof.Proof.Gen.Kernel.Skeleton
import proofs.«176091_j8658654069109_1_alg».proof.Proof.Gen.Kernel.Points
import proofs.«176091_j8658654069109_1_alg».proof.Proof.K.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body finds in each input window's buffer -/

/-- Input window 0's current buffer holds its block at every point, whether it was fetched there or earlier:
    the window is uncut and never idle, and where it is not fetched its block index has not moved. Stated for any
    proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, whether it was fetched there or earlier:
    the window is uncut and never idle, and where it is not fetched its block index has not moved. Stated for any
    proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, whether it was fetched there or earlier:
    the window is uncut and never idle, and where it is not fetched its block index has not moved. Stated for any
    proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, whether it was fetched there or earlier:
    the window is uncut and never idle, and where it is not fetched its block index has not moved. Stated for any
    proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, whether it was fetched there or earlier:
    the window is uncut and never idle, and where it is not fetched its block index has not moved. Stated for any
    proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body's one store covers the output block -/

theorem cover1_5 (p0 : Vec F S6160x64 .f32) (y : S6160x64.Idx) :
    ∃ pc ∈ ([⟨r1_0, p0⟩] : List (View.Piece (Elt F) S6160x64 .f32)), y ∈ pc.1.set :=
  View.cover_of_tiled [⟨r1_0, p0⟩] S6160x64.size (by rfl) y

/-! ## The body's triple -/

set_option maxHeartbeats 1000000 in
/-- The body on whole staging memrefs — the inputs' at contents `x_w`, the output's at anything — runs to the
    continuation with the inputs' as they were and the output's at `out1_5` of the inputs: the printed function
    is its skeleton of loads and one store, and the store covers the block. -/
theorem sound_kernel1 (c : Dev nD) (E : Set ℕ) (i : grid1.Coords) (arg0 : Memref sig .tc .vmem S6160x64 .f32) (harg0 : arg0.IsWhole) (arg1 : Memref sig .tc .vmem S6160x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S64x64 .f32) (harg4 : arg4.IsWhole) (arg5 : Memref sig .tc .vmem S6160x64 .f32) (harg5 : arg5.IsWhole)
    (x0 : Vec F S6160x64 .f32) (x1 : Vec F S6160x64 .f32) (x2 : Vec F S64x64 .f32) (x3 : Vec F S64 .f32) (x4 : Vec F S64x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out1_5 x0 x1 x2 x3 x4)) -∗ K ⟨⟩))
      ⊢ wp frame (wpE (defs₀ (F := F)) Variants.none c none) E (cc1__sage_kernel i arg0 harg0 arg1 harg1 arg2 harg2 arg3 harg3 arg4 harg4 arg5 harg5) K := by
  simp only [cc1__sage_kernel_eq_skeleton]; unfold cc1__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Body2.lean ====
/-
  Region 2, the second SAGE combine, on one core: what the body finds in its five input windows' buffers (6160-row blocks
  of the aggregate and of the features; all of W_l, b_l, W_r), the body's triple (it leaves the output buffer at
  (A_blk · W_l + b_l) + X_blk · W_r, the payload of its one store), and from these the obligation the pipeline asks of
  the body at every grid point.
-/
import proofs.«176091_j8658654069109_1_alg».proof.Proof.Gen.Kernel.Launch
import proofs.«176091_j8658654069109_1_alg».proof.Proof.Gen.Kernel.Skeleton
import proofs.«176091_j8658654069109_1_alg».proof.Proof.Gen.Kernel.Points
import proofs.«176091_j8658654069109_1_alg».proof.Proof.K.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body finds in each input window's buffer -/

/-- Input window 0's current buffer holds its block at every point, whether it was fetched there or earlier:
    the window is uncut and never idle, and where it is not fetched its block index has not moved. Stated for any
    proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, whether it was fetched there or earlier:
    the window is uncut and never idle, and where it is not fetched its block index has not moved. Stated for any
    proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds its block at every point, whether it was fetched there or earlier:
    the window is uncut and never idle, and where it is not fetched its block index has not moved. Stated for any
    proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current buffer holds its block at every point, whether it was fetched there or earlier:
    the window is uncut and never idle, and where it is not fetched its block index has not moved. Stated for any
    proof data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current buffer holds its block at every point, whether it was fetched there or earlier:
    the window is uncut and never idle, and where it is not fetched its block index has not moved. Stated for any
    proof data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body's one store covers the output block -/

theorem cover2_5 (p0 : Vec F S6160x32 .f32) (y : S6160x32.Idx) :
    ∃ pc ∈ ([⟨r2_5, p0⟩] : List (View.Piece (Elt F) S6160x32 .f32)), y ∈ pc.1.set :=
  View.cover_of_tiled [⟨r2_5, p0⟩] S6160x32.size (by rfl) y

/-! ## The body's triple -/

set_option maxHeartbeats 1000000 in
/-- The body on whole staging memrefs — the inputs' at contents `x_w`, the output's at anything — runs to the
    continuation with the inputs' as they were and the output's at `out2_5` of the inputs: the printed function
    is its skeleton of loads and one store, and the store covers the block. -/
theorem sound_kernel2 (c : Dev nD) (E : Set ℕ) (i : grid2.Coords) (arg0 : Memref sig .tc .vmem S6160x64 .f32) (harg0 : arg0.IsWhole) (arg1 : Memref sig .tc .vmem S6160x64 .f32) (harg1 : arg1.IsWhole) (arg2 : Memref sig .tc .vmem S64x32 .f32) (harg2 : arg2.IsWhole) (arg3 : Memref sig .tc .vmem S32 .f32) (harg3 : arg3.IsWhole) (arg4 : Memref sig .tc .vmem S64x32 .f32) (harg4 : arg4.IsWhole) (arg5 : Memref sig .tc .vmem S6160x32 .f32) (harg5 : arg5.IsWhole)
    (x0 : Vec F S6160x64 .f32) (x1 : Vec F S6160x64 .f32) (x2 : Vec F S64x32 .f32) (x3 : Vec F S32 .f32) (x4 : Vec F S64x32 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4)) -∗ K ⟨⟩))
      ⊢ wp frame (wpE (defs₀ (F := F)) Variants.none c none) E (cc2__sage_kernel i arg0 harg0 arg1 harg1 arg2 harg2 arg3 harg3 arg4 harg4 arg5 harg5) K := by
  simp only [cc2__sage_kernel_eq_skeleton]; unfold cc2__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Fold.lean ====
/-
  The buffer contents at each boundary of @main, folded from the launch memory: a host stretch applies its
  operations; a region leaves each of its windows' arrays at what its write-backs make of it (an input's array
  as entered, the output's array with every point's block written back) and every other buffer as entered.
  W0 is the launch (region 0's entry), W1 region 0's exit, W2 after the first host stretch (region 1's entry),
  W3 region 1's exit, W4 after the second host stretch (region 2's entry), W5 region 2's exit.
-/
import proofs.«176091_j8658654069109_1_alg».proof.Proof.K.Data
import proofs.«176091_j8658654069109_1_alg».proof.Proof.Gen.Kernel.Launch
import proofs.«176091_j8658654069109_1_alg».proof.Proof.Gen.Kernel.Skeleton
import proofs.«176091_j8658654069109_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At region 0's exit. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the first host stretch (region 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- At region 1's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second host stretch (region 2's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- At region 2's exit. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

end Cert.Kernel.Fr

end
-- ==== Proof.K.Run.lean ====
/-
  The run of @main on the TensorCores as five segments — region 0 (the projection), the first host stretch (the
  concatenation, the edge index arithmetic, the gather, the scatter-add and the division that make the mean
  aggregate), region 1 (the first SAGE combine), the second host stretch (the same aggregation over region 1's
  output), region 2 (the second SAGE combine) — over the thread state "every unscoped buffer at the boundary's
  contents, the generator register at some state, nothing owed". The result: every weakly fair execution
  terminates and leaves every unscoped buffer at the last boundary's contents W5; and, read back through the
  fold, every argument array as launched (no host operation writes one, and a region only reads one).
-/
import proofs.«176091_j8658654069109_1_alg».proof.Proof.Gen.Kernel.Launch
import proofs.«176091_j8658654069109_1_alg».proof.Proof.Gen.Kernel.Skeleton
import proofs.«176091_j8658654069109_1_alg».proof.Proof.Gen.Kernel.Points
import proofs.«176091_j8658654069109_1_alg».proof.Proof.K.Body0
import proofs.«176091_j8658654069109_1_alg».proof.Proof.K.Body1
import proofs.«176091_j8658654069109_1_alg».proof.Proof.K.Body2
import proofs.«176091_j8658654069109_1_alg».proof.Proof.K.Fold
import proofs.«176091_j8658654069109_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched

A host stretch leaves a buffer none of its operations writes; a region leaves a buffer that is no window's array,
and an input window's array too (its write-backs are none). -/

theorem W2_of (c : Dev nD) (r : Ref sig .tc) (h : r ∉ hostOps1_W) :
    W2 m ρ c (Proc.devRef .tc r) = W1 m ρ c (Proc.devRef .tc r) :=
  StableHlo.after_of_writes_sub hostOps1 _ hostOps1_writes h
theorem W4_of (c : Dev nD) (r : Ref sig .tc) (h : r ∉ hostOps2_W) :
    W4 m ρ c (Proc.devRef .tc r) = W3 m ρ c (Proc.devRef .tc r) :=
  StableHlo.after_of_writes_sub hostOps2 _ hostOps2_writes h

/-- An input window's array leaves region 0 as it entered. -/
theorem W1_in (c : Dev nD) (w : Fin cfg0.W) (hin : (cfg0.win w).isOut = false) :
    W1 m ρ c (Proc.devRef .tc (Pipeline.arrRef spec0 w)) = W0 m ρ c (Proc.devRef .tc (Pipeline.arrRef spec0 w)) :=
  (W1_arr m ρ c w).trans (((dat0 (V0 m ρ) c).arrAt_in w hin _).trans (A_eq0 (V0 m ρ) c w))
/-- An input window's array leaves region 1 as it entered. -/
theorem W3_in (c : Dev nD) (w : Fin cfg1.W) (hin : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hin _).trans (A_eq1 (V2 m ρ) c w))
/-- An input window's array leaves region 2 as it entered. -/
theorem W5_in (c : Dev nD) (w : Fin cfg2.W) (hin : (cfg2.win w).isOut = false) :
    W5 m ρ c (Proc.devRef .tc (Pipeline.arrRef spec2 w)) = W4 m ρ c (Proc.devRef .tc (Pipeline.arrRef spec2 w)) :=
  (W5_arr m ρ c w).trans (((dat2 (V4 m ρ) c).arrAt_in w hin _).trans (A_eq2 (V4 m ρ) c w))

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := W4_of m ρ c main_arg0 (by decide)
    _ = W2 m ρ c (Proc.devRef .tc main_arg0) := W3_of_ne m ρ c main_arg0 (by decide)
    _ = W1 m ρ c (Proc.devRef .tc main_arg0) := W2_of m ρ c main_arg0 (by decide)
    _ = W0 m ρ c (Proc.devRef .tc main_arg0) := W1_in m ρ c 0 rfl
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := W4_of m ρ c main_arg1 (by decide)
    _ = W2 m ρ c (Proc.devRef .tc main_arg1) := W3_of_ne m ρ c main_arg1 (by decide)
    _ = W1 m ρ c (Proc.devRef .tc main_arg1) := W2_of m ρ c main_arg1 (by decide)
    _ = W0 m ρ c (Proc.devRef .tc main_arg1) := W1_of_ne m ρ c main_arg1 (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := W4_of m ρ c main_arg2 (by decide)
    _ = W2 m ρ c (Proc.devRef .tc main_arg2) := W3_of_ne m ρ c main_arg2 (by decide)
    _ = W1 m ρ c (Proc.devRef .tc main_arg2) := W2_of m ρ c main_arg2 (by decide)
    _ = W0 m ρ c (Proc.devRef .tc main_arg2) := W1_of_ne m ρ c main_arg2 (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := W4_of m ρ c main_arg3 (by decide)
    _ = W2 m ρ c (Proc.devRef .tc main_arg3) := W3_of_ne m ρ c main_arg3 (by decide)
    _ = W1 m ρ c (Proc.devRef .tc main_arg3) := W2_of m ρ c main_arg3 (by decide)
    _ = W0 m ρ c (Proc.devRef .tc main_arg3) := W1_of_ne m ρ c main_arg3 (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := W4_of m ρ c main_arg4 (by decide)
    _ = W2 m ρ c (Proc.devRef .tc main_arg4) := W3_of_ne m ρ c main_arg4 (by decide)
    _ = W1 m ρ c (Proc.devRef .tc main_arg4) := W2_of m ρ c main_arg4 (by decide)
    _ = W0 m ρ c (Proc.devRef .tc main_arg4) := W1_of_ne m ρ c main_arg4 (by decide)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := W4_of m ρ c main_arg5 (by decide)
    _ = W2 m ρ c (Proc.devRef .tc main_arg5) := W3_of_ne m ρ c main_arg5 (by decide)
    _ = W1 m ρ c (Proc.devRef .tc main_arg5) := W2_of m ρ c main_arg5 (by decide)
    _ = W0 m ρ c (Proc.devRef .tc main_arg5) := W1_in m ρ c 1 rfl
    _ = m ((c : Thread nD τ).loc main_arg5) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := W5_of_ne m ρ c main_arg6 (by decide)
    _ = W3 m ρ c (Proc.devRef .tc main_arg6) := W4_of m ρ c main_arg6 (by decide)
    _ = W2 m ρ c (Proc.devRef .tc main_arg6) := W3_of_ne m ρ c main_arg6 (by decide)
    _ = W1 m ρ c (Proc.devRef .tc main_arg6) := W2_of m ρ c main_arg6 (by decide)
    _ = W0 m ρ c (Proc.devRef .tc main_arg6) := W1_in m ρ c 2 rfl
    _ = m ((c : Thread nD τ).loc main_arg6) := rfl
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := W5_of_ne m ρ c main_arg7 (by decide)
    _ = W3 m ρ c (Proc.devRef .tc main_arg7) := W4_of m ρ c main_arg7 (by decide)
    _ = W2 m ρ c (Proc.devRef .tc main_arg7) := W3_in m ρ c 2 rfl
    _ = W1 m ρ c (Proc.devRef .tc main_arg7) := W2_of m ρ c main_arg7 (by decide)
    _ = W0 m ρ c (Proc.devRef .tc main_arg7) := W1_of_ne m ρ c main_arg7 (by decide)
    _ = m ((c : Thread nD τ).loc main_arg7) := rfl
theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := W5_of_ne m ρ c main_arg8 (by decide)
    _ = W3 m ρ c (Proc.devRef .tc main_arg8) := W4_of m ρ c main_arg8 (by decide)
    _ = W2 m ρ c (Proc.devRef .tc main_arg8) := W3_in m ρ c 3 rfl
    _ = W1 m ρ c (Proc.devRef .tc main_arg8) := W2_of m ρ c main_arg8 (by decide)
    _ = W0 m ρ c (Proc.devRef .tc main_arg8) := W1_of_ne m ρ c main_arg8 (by decide)
    _ = m ((c : Thread nD τ).loc main_arg8) := rfl
theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := W5_of_ne m ρ c main_arg9 (by decide)
    _ = W3 m ρ c (Proc.devRef .tc main_arg9) := W4_of m ρ c main_arg9 (by decide)
    _ = W2 m ρ c (Proc.devRef .tc main_arg9) := W3_in m ρ c 4 rfl
    _ = W1 m ρ c (Proc.devRef .tc main_arg9) := W2_of m ρ c main_arg9 (by decide)
    _ = W0 m ρ c (Proc.devRef .tc main_arg9) := W1_of_ne m ρ c main_arg9 (by decide)
    _ = m ((c : Thread nD τ).loc main_arg9) := rfl
theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := W5_in m ρ c 2 rfl
    _ = W3 m ρ c (Proc.devRef .tc main_arg10) := W4_of m ρ c main_arg10 (by decide)
    _ = W2 m ρ c (Proc.devRef .tc main_arg10) := W3_of_ne m ρ c main_arg10 (by decide)
    _ = W1 m ρ c (Proc.devRef .tc main_arg10) := W2_of m ρ c main_arg10 (by decide)
    _ = W0 m ρ c (Proc.devRef .tc main_arg10) := W1_of_ne m ρ c main_arg10 (by decide)
    _ = m ((c : Thread nD τ).loc main_arg10) := rfl
theorem W5_main_arg11 (c : Dev nD) : W5 m ρ c (Proc.devRef .tc main_arg11) = m ((c : Thread nD τ).loc main_arg11) :=
  calc W5 m ρ c (Proc.devRef .tc main_arg11)
    _ = W4 m ρ c (Proc.devRef .tc main_arg11) := W5_in m ρ c 3 rfl
    _ = W3 m ρ c (Proc.devRef .tc main_arg11) := W4_of m ρ c main_arg11 (by decide)
    _ = W2 m ρ c (Proc.devRef .tc main_arg11) := W3_of_ne m ρ c main_arg11 (by decide)
    _ = W1 m ρ c (Proc.devRef .tc main_arg11) := W2_of m ρ c main_arg11 (by decide)
    _ = W0 m ρ c (Proc.devRef .tc main_arg11) := W1_of_ne m ρ c main_arg11 (by decide)
    _ = m ((c : Thread nD τ).loc main_arg11) := rfl
theorem W5_main_arg12 (c : Dev nD) : W5 m ρ c (Proc.devRef .tc main_arg12) = m ((c : Thread nD τ).loc main_arg12) :=
  calc W5 m ρ c (Proc.devRef .tc main_arg12)
    _ = W4 m ρ c (Proc.devRef .tc main_arg12) := W5_in m ρ c 4 rfl
    _ = W3 m ρ c (Proc.devRef .tc main_arg12) := W4_of m ρ c main_arg12 (by decide)
    _ = W2 m ρ c (Proc.devRef .tc main_arg12) := W3_of_ne m ρ c main_arg12 (by decide)
    _ = W1 m ρ c (Proc.devRef .tc main_arg12) := W2_of m ρ c main_arg12 (by decide)
    _ = W0 m ρ c (Proc.devRef .tc main_arg12) := W1_of_ne m ρ c main_arg12 (by decide)
    _ = m ((c : Thread nD τ).loc main_arg12) := rfl
theorem W5_main_arg13 (c : Dev nD) : W5 m ρ c (Proc.devRef .tc main_arg13) = m ((c : Thread nD τ).loc main_arg13) :=
  calc W5 m ρ c (Proc.devRef .tc main_arg13)
    _ = W4 m ρ c (Proc.devRef .tc main_arg13) := W5_of_ne m ρ c main_arg13 (by decide)
    _ = W3 m ρ c (Proc.devRef .tc main_arg13) := W4_of m ρ c main_arg13 (by decide)
    _ = W2 m ρ c (Proc.devRef .tc main_arg13) := W3_of_ne m ρ c main_arg13 (by decide)
    _ = W1 m ρ c (Proc.devRef .tc main_arg13) := W2_of m ρ c main_arg13 (by decide)
    _ = W0 m ρ c (Proc.devRef .tc main_arg13) := W1_of_ne m ρ c main_arg13 (by decide)
    _ = m ((c : Thread nD τ).loc main_arg13) := rfl
theorem W5_main_arg14 (c : Dev nD) : W5 m ρ c (Proc.devRef .tc main_arg14) = m ((c : Thread nD τ).loc main_arg14) :=
  calc W5 m ρ c (Proc.devRef .tc main_arg14)
    _ = W4 m ρ c (Proc.devRef .tc main_arg14) := W5_of_ne m ρ c main_arg14 (by decide)
    _ = W3 m ρ c (Proc.devRef .tc main_arg14) := W4_of m ρ c main_arg14 (by decide)
    _ = W2 m ρ c (Proc.devRef .tc main_arg14) := W3_of_ne m ρ c main_arg14 (by decide)
    _ = W1 m ρ c (Proc.devRef .tc main_arg14) := W2_of m ρ c main_arg14 (by decide)
    _ = W0 m ρ c (Proc.devRef .tc main_arg14) := W1_of_ne m ρ c main_arg14 (by decide)
    _ = m ((c : Thread nD τ).loc main_arg14) := rfl
theorem W5_main_arg15 (c : Dev nD) : W5 m ρ c (Proc.devRef .tc main_arg15) = m ((c : Thread nD τ).loc main_arg15) :=
  calc W5 m ρ c (Proc.devRef .tc main_arg15)
    _ = W4 m ρ c (Proc.devRef .tc main_arg15) := W5_of_ne m ρ c main_arg15 (by decide)
    _ = W3 m ρ c (Proc.devRef .tc main_arg15) := W4_of m ρ c main_arg15 (by decide)
    _ = W2 m ρ c (Proc.devRef .tc main_arg15) := W3_of_ne m ρ c main_arg15 (by decide)
    _ = W1 m ρ c (Proc.devRef .tc main_arg15) := W2_of m ρ c main_arg15 (by decide)
    _ = W0 m ρ c (Proc.devRef .tc main_arg15) := W1_of_ne m ρ c main_arg15 (by decide)
    _ = m ((c : Thread nD τ).loc main_arg15) := rfl
theorem W5_main_arg16 (c : Dev nD) : W5 m ρ c (Proc.devRef .tc main_arg16) = m ((c : Thread nD τ).loc main_arg16) :=
  calc W5 m ρ c (Proc.devRef .tc main_arg16)
    _ = W4 m ρ c (Proc.devRef .tc main_arg16) := W5_of_ne m ρ c main_arg16 (by decide)
    _ = W3 m ρ c (Proc.devRef .tc main_arg16) := W4_of m ρ c main_arg16 (by decide)
    _ = W2 m ρ c (Proc.devRef .tc main_arg16) := W3_of_ne m ρ c main_arg16 (by decide)
    _ = W1 m ρ c (Proc.devRef .tc main_arg16) := W2_of m ρ c main_arg16 (by decide)
    _ = W0 m ρ c (Proc.devRef .tc main_arg16) := W1_of_ne m ρ c main_arg16 (by decide)
    _ = m ((c : Thread nD τ).loc main_arg16) := rfl
theorem W5_main_arg17 (c : Dev nD) : W5 m ρ c (Proc.devRef .tc main_arg17) = m ((c : Thread nD τ).loc main_arg17) :=
  calc W5 m ρ c (Proc.devRef .tc main_arg17)
    _ = W4 m ρ c (Proc.devRef .tc main_arg17) := W5_of_ne m ρ c main_arg17 (by decide)
    _ = W3 m ρ c (Proc.devRef .tc main_arg17) := W4_of m ρ c main_arg17 (by decide)
    _ = W2 m ρ c (Proc.devRef .tc main_arg17) := W3_of_ne m ρ c main_arg17 (by decide)
    _ = W1 m ρ c (Proc.devRef .tc main_arg17) := W2_of m ρ c main_arg17 (by decide)
    _ = W0 m ρ c (Proc.devRef .tc main_arg17) := W1_of_ne m ρ c main_arg17 (by decide)
    _ = m ((c : Thread nD τ).loc main_arg17) := rfl
theorem W5_main_arg18 (c : Dev nD) : W5 m ρ c (Proc.devRef .tc main_arg18) = m ((c : Thread nD τ).loc main_arg18) :=
  calc W5 m ρ c (Proc.devRef .tc main_arg18)
    _ = W4 m ρ c (Proc.devRef .tc main_arg18) := W5_of_ne m ρ c main_arg18 (by decide)
    _ = W3 m ρ c (Proc.devRef .tc main_arg18) := W4_of m ρ c main_arg18 (by decide)
    _ = W2 m ρ c (Proc.devRef .tc main_arg18) := W3_of_ne m ρ c main_arg18 (by decide)
    _ = W1 m ρ c (Proc.devRef .tc main_arg18) := W2_of m ρ c main_arg18 (by decide)
    _ = W0 m ρ c (Proc.devRef .tc main_arg18) := W1_of_ne m ρ c main_arg18 (by decide)
    _ = m ((c : Thread nD τ).loc main_arg18) := rfl
theorem W5_main_arg19 (c : Dev nD) : W5 m ρ c (Proc.devRef .tc main_arg19) = m ((c : Thread nD τ).loc main_arg19) :=
  calc W5 m ρ c (Proc.devRef .tc main_arg19)
    _ = W4 m ρ c (Proc.devRef .tc main_arg19) := W5_of_ne m ρ c main_arg19 (by decide)
    _ = W3 m ρ c (Proc.devRef .tc main_arg19) := W4_of m ρ c main_arg19 (by decide)
    _ = W2 m ρ c (Proc.devRef .tc main_arg19) := W3_of_ne m ρ c main_arg19 (by decide)
    _ = W1 m ρ c (Proc.devRef .tc main_arg19) := W2_of m ρ c main_arg19 (by decide)
    _ = W0 m ρ c (Proc.devRef .tc main_arg19) := W1_of_ne m ρ c main_arg19 (by decide)
    _ = m ((c : Thread nD τ).loc main_arg19) := rfl
theorem W5_main_arg20 (c : Dev nD) : W5 m ρ c (Proc.devRef .tc main_arg20) = m ((c : Thread nD τ).loc main_arg20) :=
  calc W5 m ρ c (Proc.devRef .tc main_arg20)
    _ = W4 m ρ c (Proc.devRef .tc main_arg20) := W5_of_ne m ρ c main_arg20 (by decide)
    _ = W3 m ρ c (Proc.devRef .tc main_arg20) := W4_of m ρ c main_arg20 (by decide)
    _ = W2 m ρ c (Proc.devRef .tc main_arg20) := W3_of_ne m ρ c main_arg20 (by decide)
    _ = W1 m ρ c (Proc.devRef .tc main_arg20) := W2_of m ρ c main_arg20 (by decide)
    _ = W0 m ρ c (Proc.devRef .tc main_arg20) := W1_of_ne m ρ c main_arg20 (by decide)
    _ = m ((c : Thread nD τ).loc main_arg20) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves
    those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The regions as segments

Each region's arrays are split out of the unscoped buffers at its entry and put back at its exit contents; the
generator register goes into the class invariant and comes out; nothing is owed; the kernels have no semaphore of
their own. -/

-- a library lemma stated over a pinned configuration unifies with the printed one only when unification may unfold
-- plain definitions in a metavariable's type
set_option backward.isDefEq.respectTransparency.types false in
/-- Region 0: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may unfold
-- plain definitions in a metavariable's type
set_option backward.isDefEq.respectTransparency.types false in
/-- Region 1: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may unfold
-- plain definitions in a metavariable's type
set_option backward.isDefEq.respectTransparency.types false in
/-- Region 2: entered from every unscoped buffer at `W4`, left at `W5`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's five segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ) ]
/-- @main is the run of the segments: it is the chain of its items, and the segments' run is the chain of their
    programs, which are those items. -/
theorem main_run (c : Dev nD) : main (F := F) c = Pipeline.Seg.run (segs m ρ) := (main_chain c).trans (by chain_rfl)

-- the library theorem's implicit arguments are found by unifying its conclusion with this one, which takes unfolding plain
-- definitions in a metavariable's type
set_option backward.isDefEq.respectTransparency.types false in
/-- At the compiled mesh, from any memory with zero counters, every weakly fair execution of @main on the TensorCores
    terminates, nothing faulting, and every final state has every unscoped buffer at the last boundary's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h => h)

/-- The frame: every weakly fair execution of @main terminates, and every final state has each argument array as
    launched — the run's last contents read at the arguments, each walked back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c),
     (h c _ (mem_uc main_arg12 (by decide))).trans (W5_main_arg12 m ρ c),
     (h c _ (mem_uc main_arg13 (by decide))).trans (W5_main_arg13 m ρ c),
     (h c _ (mem_uc main_arg14 (by decide))).trans (W5_main_arg14 m ρ c),
     (h c _ (mem_uc main_arg15 (by decide))).trans (W5_main_arg15 m ρ c),
     (h c _ (mem_uc main_arg16 (by decide))).trans (W5_main_arg16 m ρ c),
     (h c _ (mem_uc main_arg17 (by decide))).trans (W5_main_arg17 m ρ c),
     (h c _ (mem_uc main_arg18 (by decide))).trans (W5_main_arg18 m ρ c),
     (h c _ (mem_uc main_arg19 (by decide))).trans (W5_main_arg19 m ρ c),
     (h c _ (mem_uc main_arg20 (by decide))).trans (W5_main_arg20 m ρ c)⟩) (run_all m ρ)

end Cert.Kernel.Fr

end
-- ==== Proof.Spec.lean ====
/-
  The three dense stages of the network as functions of whole arrays, entry by entry, on the extended reals.
  A projection: each row of X (384 features) times W (384 × 64), plus the bias b, then the maximum with zero.
  A combine: each row of the neighbourhood aggregate A times W_l, plus the bias b_l, plus the same row of the
  node features X times W_r — grouped ((A·W_l + b_l) + X·W_r) —, with the maximum with zero in the hidden layer
  and without it in the last layer (32 output columns).
-/
import Idealize.ShloMosaic.PureOps.Ideal
import Idealize.ShloMosaic.Lib.ValueIdx
import Idealize.ShloMosaic.PureOps.Ideal.Laws

noncomputable section

open scoped BigOperators

namespace Cert.Spec

open Idealize.ShloMosaic Idealize.ShloMosaic.ValueIdx

/-- The projection stage: entry (r, c) is max (∑ₖ X[r,k]·W[k,c] + b[c]) 0, the zero kept as the f32 zero word. -/
def projG (X : FVec Ideal ⟨2, ![200000, 384]⟩ .f32) (W : FVec Ideal ⟨2, ![384, 64]⟩ .f32) (b : FVec Ideal ⟨1, ![64]⟩ .f32) :
    FVec Ideal ⟨2, ![200000, 64]⟩ .f32 :=
  fun i => max ((∑ k : Fin 384, X (ix2 (i 0) k) * W (ix2 k (i 1))) + b (ix1 (i 1))) (Ideal.ofBits .f32 0x00000000#32)

/-- The hidden combine stage: entry (r, c) is max ((∑ₖ A[r,k]·W_l[k,c] + b_l[c]) + ∑ₖ X[r,k]·W_r[k,c]) 0. -/
def sageReluG (A X : FVec Ideal ⟨2, ![308000, 64]⟩ .f32) (Wl : FVec Ideal ⟨2, ![64, 64]⟩ .f32) (bl : FVec Ideal ⟨1, ![64]⟩ .f32)
    (Wr : FVec Ideal ⟨2, ![64, 64]⟩ .f32) : FVec Ideal ⟨2, ![308000, 64]⟩ .f32 :=
  fun i => max (((∑ k : Fin 64, A (ix2 (i 0) k) * Wl (ix2 k (i 1))) + bl (ix1 (i 1)))
    + ∑ k : Fin 64, X (ix2 (i 0) k) * Wr (ix2 k (i 1))) (Ideal.ofBits .f32 0x00000000#32)

/-- The last combine stage: entry (r, c) is (∑ₖ A[r,k]·W_l[k,c] + b_l[c]) + ∑ₖ X[r,k]·W_r[k,c], 32 columns. -/
def sageG (A X : FVec Ideal ⟨2, ![308000, 64]⟩ .f32) (Wl : FVec Ideal ⟨2, ![64, 32]⟩ .f32) (bl : FVec Ideal ⟨1, ![32]⟩ .f32)
    (Wr : FVec Ideal ⟨2, ![64, 32]⟩ .f32) : FVec Ideal ⟨2, ![308000, 32]⟩ .f32 :=
  fun i => ((∑ k : Fin 64, A (ix2 (i 0) k) * Wl (ix2 k (i 1))) + bl (ix1 (i 1)))
    + ∑ k : Fin 64, X (ix2 (i 0) k) * Wr (ix2 k (i 1))

end Cert.Spec

end
-- ==== Proof.KI.Val0.lean ====
/-
  Region 0 (the projection) read as ONE function of whole arrays.
  The body's stored block at row p, column q is max (∑ₖ X_blk[p,k]·W[k,q] + b[q]) 0 over the 384 input features;
  the block of point t holds rows 5000·t … 5000·t + 4999 of X, the weights and the bias are whole; so what point t
  writes back is block t of the whole-array function, and the 40 blocks tile the 200000 rows (row r lies in block
  r / 5000).
-/
import proofs.«176091_j8658654069109_1_alg».proof.Proof.KI.Data
import proofs.«176091_j8658654069109_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr

/-! ## The body's arithmetic at one entry of the block -/

theorem mm0_lhs0 (i : S5000x64.Idx) (q : dot_S5000x384_S384x64_S5000x64_1_0_0_1_n_n.contr.Idx) : (dot_S5000x384_S384x64_S5000x64_1_0_0_1_n_n.lhsIdx i q 0).val = (i 0).val := by
  unfold DotDims.lhsIdx
  rw [dif_neg (show ¬(0 : Fin S5000x384.rank) ∈ dot_S5000x384_S384x64_S5000x64_1_0_0_1_n_n.lhsBatch by decide), dif_pos (show (0 : Fin S5000x384.rank) ∈ dot_S5000x384_S384x64_S5000x64_1_0_0_1_n_n.lhsNonContracting by decide)]
  rfl
theorem mm0_rhs1 (i : S5000x64.Idx) (q : dot_S5000x384_S384x64_S5000x64_1_0_0_1_n_n.contr.Idx) : (dot_S5000x384_S384x64_S5000x64_1_0_0_1_n_n.rhsIdx i q 1).val = (i 1).val := by
  unfold DotDims.rhsIdx
  rw [dif_neg (show ¬(1 : Fin S384x64.rank) ∈ dot_S5000x384_S384x64_S5000x64_1_0_0_1_n_n.rhsBatch by decide), dif_pos (show (1 : Fin S384x64.rank) ∈ dot_S5000x384_S384x64_S5000x64_1_0_0_1_n_n.rhsNonContracting by decide)]
  rfl

/-- A [5000,384] × [384,64] product into the zero accumulator, at (p, q): the sum over the 384 contracted entries. -/
theorem mm0_apply (l : FVec Ideal S5000x384 .bf16) (r : FVec Ideal S384x64 .bf16) (p : Fin 5000) (q : Fin 64) :
    matmul dot_S5000x384_S384x64_S5000x64_1_0_0_1_n_n none l r (constant (F := Ideal) S5000x64 .f32 0x00000000#32) (ix2 p q)
      = ∑ k : Fin 384, l (ix2 p k) * r (ix2 k q) := by
  show FloatOps.matmul dot_S5000x384_S384x64_S5000x64_1_0_0_1_n_n none l r (constant (F := Ideal) S5000x64 .f32 0x00000000#32) (ix2 p q) = _
  rw [Ideal.matmul_constant_zero_apply, ← Equiv.sum_comp (contrEquiv1 dot_S5000x384_S384x64_S5000x64_1_0_0_1_n_n 384 rfl rfl).symm]
  refine Finset.sum_congr rfl fun k _ => ?_
  have hk := contrEquiv1_symm_val dot_S5000x384_S384x64_S5000x64_1_0_0_1_n_n 384 rfl rfl k
  have el : dot_S5000x384_S384x64_S5000x64_1_0_0_1_n_n.lhsIdx (ix2 p q) ((contrEquiv1 dot_S5000x384_S384x64_S5000x64_1_0_0_1_n_n 384 rfl rfl).symm k) = ix2 p k := funext fun a => Fin.ext (by
    match a with
    | ⟨0, _⟩ => exact mm0_lhs0 _ _
    | ⟨1, _⟩ => exact (dot_S5000x384_S384x64_S5000x64_1_0_0_1_n_n.lhsIdx_val_of_single rfl _ _).trans hk)
  have er : dot_S5000x384_S384x64_S5000x64_1_0_0_1_n_n.rhsIdx (ix2 p q) ((contrEquiv1 dot_S5000x384_S384x64_S5000x64_1_0_0_1_n_n 384 rfl rfl).symm k) = ix2 k q := funext fun a => Fin.ext (by
    match a with
    | ⟨0, _⟩ => exact (dot_S5000x384_S384x64_S5000x64_1_0_0_1_n_n.rhsIdx_val_of_single rfl _ _).trans hk
    | ⟨1, _⟩ => exact mm0_rhs1 _ _)
  rw [el, er]

/-- The stored block of region 0 at (p, q), from the three loaded blocks. -/
theorem pay0_apply (v0 : Vec Ideal S5000x384 .f32) (v2 : Vec Ideal S384x64 .f32) (v5 : Vec Ideal S64 .f32)
    (p : Fin 5000) (q : Fin 64) :
    k0_pay1 (F := Ideal) v0 v2 v5 (ix2 p q)
      = max ((∑ k : Fin 384, v0 (ix2 p k) * v2 (ix2 k q)) + v5 (ix1 q)) (Ideal.ofBits .f32 0x00000000#32) := by
  unfold k0_pay1
  simp only [maximumf_apply, addf_apply, broadcast_apply, mm0_apply, truncf_apply, shapeCast_self,
    broadcastTo_1b_ab_apply, shapeCast_a_1a_apply]
  rfl

/-! ## The blocks of point t, read off the whole arrays -/

theorem zero0_2 : (![0, 0] : Fin 2 → Nat) = fun _ => 0 := funext fun a => by fin_cases a <;> rfl
theorem zero0_1 : (![0] : Fin 1 → Nat) = fun _ => 0 := funext fun a => by fin_cases a <;> rfl

/-- The printed index maps over the grid: the input rows and the output are at block (t, 0), the weights and the
    bias at block 0. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

section Reads
variable {F : FTy → Type} [FloatOps F]
variable (V : (c : Dev nD) → (b : Ref sig .tc) → Buf (Elt F) ((c : Thread nD τ).loc b))

/-- The input's block at point t is rows 5000·t … of the input array. -/
theorem read0_0 (c : Dev nD) (t : Fin cfg0.N) (x : S5000x384.Idx) (i : S200000x384.Idx)
    (h0 : (i 0).val = t.val * 5000 + (x 0).val) (h1 : (i 1).val = (x 1).val) :
    (iblk0 V c 0 t : Vec F S5000x384 .f32) x = (V c main_arg0 : S200000x384.Idx → Elt F .f32) i := by
  obtain ⟨e0, e1, -⟩ := idx_facts0 t
  unfold iblk0
  rw [View.read_apply]
  show V c main_arg0 _ = V c main_arg0 i
  refine congrArg _ (funext fun a => Fin.ext ?_)
  match a with
  | ⟨0, _⟩ => show win0_0.index t (0 : Fin 2) * 5000 + 1 * (x 0).val = (i 0).val; omega
  | ⟨1, _⟩ => show win0_0.index t (1 : Fin 2) * 384 + 1 * (x 1).val = (i 1).val; omega

/-- The weights' block is the whole array at every point. -/
theorem read0_1 (c : Dev nD) (t : Fin cfg0.N) (x i : S384x64.Idx)
    (h0 : (i 0).val = (x 0).val) (h1 : (i 1).val = (x 1).val) :
    (iblk0 V c 1 t : Vec F S384x64 .f32) x = (V c main_arg5 : S384x64.Idx → Elt F .f32) i := by
  obtain ⟨-, -, e0, e1, -⟩ := idx_facts0 t
  unfold iblk0
  rw [View.read_apply]
  show V c main_arg5 _ = V c main_arg5 i
  refine congrArg _ (funext fun a => Fin.ext ?_)
  match a with
  | ⟨0, _⟩ => show win0_1.index t (0 : Fin 2) * 384 + 1 * (x 0).val = (i 0).val; omega
  | ⟨1, _⟩ => show win0_1.index t (1 : Fin 2) * 64 + 1 * (x 1).val = (i 1).val; omega

/-- The bias's block is the whole array at every point. -/
theorem read0_2 (c : Dev nD) (t : Fin cfg0.N) (x i : S64.Idx) (h0 : (i 0).val = (x 0).val) :
    (iblk0 V c 2 t : Vec F S64 .f32) x = (V c main_arg6 : S64.Idx → Elt F .f32) i := by
  obtain ⟨-, -, -, -, e0, -⟩ := idx_facts0 t
  unfold iblk0
  rw [View.read_apply]
  show V c main_arg6 _ = V c main_arg6 i
  refine congrArg _ (funext fun a => Fin.ext ?_)
  match a with
  | ⟨0, _⟩ => show win0_2.index t (0 : Fin 1) * 64 + 1 * (x 0).val = (i 0).val; omega

end Reads

/-! ## One entry of the stored block is the whole-array function at the entry's place in the array -/

/-- If the three loaded blocks read the whole arrays at row `i 0` (the input) and column `i 1` (the weights and the
    bias), the stored block at `j` is the projection at `i`. -/
theorem proj_point (X : FVec Ideal ⟨2, ![200000, 384]⟩ .f32) (W : FVec Ideal ⟨2, ![384, 64]⟩ .f32) (b : FVec Ideal ⟨1, ![64]⟩ .f32)
    (v0 : Vec Ideal S5000x384 .f32) (v2 : Vec Ideal S384x64 .f32) (v5 : Vec Ideal S64 .f32)
    (j : S5000x64.Idx) (i : S200000x64.Idx)
    (h0 : ∀ k : Fin 384, v0 (ix2 (j 0) k) = X (ix2 (i 0) k))
    (h2 : ∀ k : Fin 384, v2 (ix2 k (j 1)) = W (ix2 k (i 1)))
    (h5 : v5 (ix1 (j 1)) = b (ix1 (i 1))) :
    k0_pay1 (F := Ideal) v0 v2 v5 j = Cert.Spec.projG X W b i := by
  obtain ⟨p, q, rfl⟩ : ∃ (p : Fin 5000) (q : Fin 64), j = ix2 p q := ⟨j 0, j 1, eq_ix2 j⟩
  have h0' : ∀ k : Fin 384, v0 (ix2 p k) = X (ix2 (i 0) k) := h0
  have h2' : ∀ k : Fin 384, v2 (ix2 k q) = W (ix2 k (i 1)) := h2
  have h5' : v5 (ix1 q) = b (ix1 (i 1)) := h5
  rw [pay0_apply]
  unfold Cert.Spec.projG
  have e1 : (∑ k : Fin 384, v0 (ix2 p k) * v2 (ix2 k q)) = ∑ k : Fin 384, X (ix2 (i 0) k) * W (ix2 k (i 1)) :=
    Finset.sum_congr rfl fun k _ => by rw [h0' k, h2' k]
  rw [e1, h5']

/-! ## What point t writes back, the cover, and the array after the region -/

section Array
variable (V : (c : Dev nD) → (b : Ref sig .tc) → Buf (Elt Ideal) ((c : Thread nD τ).loc b))

/-- What point t writes back is block t of the projection of the three arrays as the region finds them. -/
theorem flushed0_eq (c : Dev nD) (t : Fin cfg0.N) :
    (dat0 (F := Ideal) V c).flushed 3 t = ((cfg0.win 3).blk t).view.read (Elt Ideal)
      (Cert.Spec.projG (V c main_arg0) (V c main_arg5) (V c main_arg6)) := by
  show (cfg0.win 3).cut (grid0.coords t) ((dat0 V c).after 3 t) = _
  rw [after0_3]
  unfold out0_3
  rw [View.canon_unit_zero zero0_2]
  simp only [View.ld_unit_zero (S := S5000x384) zero0_2, View.ld_unit_zero (S := S384x64) zero0_2, View.ld_unit_zero (S := S64) zero0_1]
  obtain ⟨-, -, -, -, -, e0, e1⟩ := idx_facts0 t
  funext j
  rw [View.read_apply]
  refine proj_point (V c main_arg0) (V c main_arg5) (V c main_arg6)
    (iblk0 V c 0 t) (iblk0 V c 1 t) (iblk0 V c 2 t)
    ((cfg0.win 3).xinj (grid0.coords t) j) (((cfg0.win 3).blk t).view.emb j) ?_ ?_ ?_
  · intro k
    refine read0_0 V c t _ _ ?_ rfl
    show win0_3.index t (0 : Fin 2) * 5000 + 1 * (j 0).val = t.val * 5000 + (j 0).val
    omega
  · intro k
    refine read0_1 V c t _ _ rfl ?_
    show win0_3.index t (1 : Fin 2) * 64 + 1 * (j 1).val = (j 1).val
    omega
  · refine read0_2 V c t _ _ ?_
    show win0_3.index t (1 : Fin 2) * 64 + 1 * (j 1).val = (j 1).val
    omega

/-- Row r of the array lies in the block of point r / 5000. -/
theorem cover0 (i : S200000x64.Idx) :
    ∃ t : Fin cfg0.N, (cfg0.win 3).flush t = true ∧ i ∈ ((cfg0.win 3).blk t).view.set := by
  have hi0 : (i 0).val < 200000 := (i 0).isLt
  have hi1 : (i 1).val < 64 := (i 1).isLt
  have hN : grid0.N = 40 := N_0
  let t : Fin cfg0.N := ⟨(i 0).val / 5000, by show (i 0).val / 5000 < grid0.N; omega⟩
  have ht : t.val = (i 0).val / 5000 := rfl
  obtain ⟨-, -, -, -, -, e0, e1⟩ := idx_facts0 t
  refine ⟨t, flush0_3 t, ?_⟩
  show i ∈ ((View.whole main_v0).slice (win0_3.rect t)).set
  rw [View.set_slice_whole, Rect.mem_set_unit]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- THE ARRAY AFTER REGION 0: the projection of the input features, the weights and the bias. -/
theorem proj_value (c : Dev nD) :
    (dat0 (F := Ideal) V c).arrAt 3 cfg0.N
      = Cert.Spec.projG (V c main_arg0) (V c main_arg5) (V c main_arg6) :=
  (dat0 (F := Ideal) V c).arrAt_eq_of_cover 3 _ (fun t _ => flushed0_eq V c t) cover0

end Array

end Cert.KernelIdeal.Val

end
-- ==== Proof.KI.Val1.lean ====
/-
  Region 1 (the hidden SAGE combine) read as ONE function of whole arrays.
  The body's stored block at row p, column q is max ((∑ₖ A_blk[p,k]·W_l[k,q] + b_l[q]) + ∑ₖ X_blk[p,k]·W_r[k,q]) 0;
  the block of point t holds rows 6160·t … 6160·t + 6159 of the aggregate and of the features, the weights and the
  bias are whole; so what point t writes back is block t of the whole-array function, and the 50 blocks tile the
  308000 rows (row r lies in block r / 6160).
-/
import proofs.«176091_j8658654069109_1_alg».proof.Proof.KI.Data
import proofs.«176091_j8658654069109_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr

/-! ## The body's arithmetic at one entry of the block -/

theorem mm1_lhs0 (i : S6160x64.Idx) (q : dot_S6160x64_S64x64_S6160x64_1_0_0_1_n_n.contr.Idx) : (dot_S6160x64_S64x64_S6160x64_1_0_0_1_n_n.lhsIdx i q 0).val = (i 0).val := by
  unfold DotDims.lhsIdx
  rw [dif_neg (show ¬(0 : Fin S6160x64.rank) ∈ dot_S6160x64_S64x64_S6160x64_1_0_0_1_n_n.lhsBatch by decide), dif_pos (show (0 : Fin S6160x64.rank) ∈ dot_S6160x64_S64x64_S6160x64_1_0_0_1_n_n.lhsNonContracting by decide)]
  rfl
theorem mm1_rhs1 (i : S6160x64.Idx) (q : dot_S6160x64_S64x64_S6160x64_1_0_0_1_n_n.contr.Idx) : (dot_S6160x64_S64x64_S6160x64_1_0_0_1_n_n.rhsIdx i q 1).val = (i 1).val := by
  unfold DotDims.rhsIdx
  rw [dif_neg (show ¬(1 : Fin S64x64.rank) ∈ dot_S6160x64_S64x64_S6160x64_1_0_0_1_n_n.rhsBatch by decide), dif_pos (show (1 : Fin S64x64.rank) ∈ dot_S6160x64_S64x64_S6160x64_1_0_0_1_n_n.rhsNonContracting by decide)]
  rfl

/-- A [6160,64] × [64,64] product into the zero accumulator, at (p, q): the sum over the 64 contracted entries. -/
theorem mm1_apply (l : FVec Ideal S6160x64 .bf16) (r : FVec Ideal S64x64 .bf16) (p : Fin 6160) (q : Fin 64) :
    matmul dot_S6160x64_S64x64_S6160x64_1_0_0_1_n_n none l r (constant (F := Ideal) S6160x64 .f32 0x00000000#32) (ix2 p q)
      = ∑ k : Fin 64, l (ix2 p k) * r (ix2 k q) := by
  show FloatOps.matmul dot_S6160x64_S64x64_S6160x64_1_0_0_1_n_n none l r (constant (F := Ideal) S6160x64 .f32 0x00000000#32) (ix2 p q) = _
  rw [Ideal.matmul_constant_zero_apply, ← Equiv.sum_comp (contrEquiv1 dot_S6160x64_S64x64_S6160x64_1_0_0_1_n_n 64 rfl rfl).symm]
  refine Finset.sum_congr rfl fun k _ => ?_
  have hk := contrEquiv1_symm_val dot_S6160x64_S64x64_S6160x64_1_0_0_1_n_n 64 rfl rfl k
  have el : dot_S6160x64_S64x64_S6160x64_1_0_0_1_n_n.lhsIdx (ix2 p q) ((contrEquiv1 dot_S6160x64_S64x64_S6160x64_1_0_0_1_n_n 64 rfl rfl).symm k) = ix2 p k := funext fun a => Fin.ext (by
    match a with
    | ⟨0, _⟩ => exact mm1_lhs0 _ _
    | ⟨1, _⟩ => exact (dot_S6160x64_S64x64_S6160x64_1_0_0_1_n_n.lhsIdx_val_of_single rfl _ _).trans hk)
  have er : dot_S6160x64_S64x64_S6160x64_1_0_0_1_n_n.rhsIdx (ix2 p q) ((contrEquiv1 dot_S6160x64_S64x64_S6160x64_1_0_0_1_n_n 64 rfl rfl).symm k) = ix2 k q := funext fun a => Fin.ext (by
    match a with
    | ⟨0, _⟩ => exact (dot_S6160x64_S64x64_S6160x64_1_0_0_1_n_n.rhsIdx_val_of_single rfl _ _).trans hk
    | ⟨1, _⟩ => exact mm1_rhs1 _ _)
  rw [el, er]

/-- The stored block of region 1 at (p, q), from the five loaded blocks. -/
theorem pay1_apply (v0 v3 : Vec Ideal S6160x64 .f32) (v6 v8 : Vec Ideal S64x64 .f32) (v11 : Vec Ideal S64 .f32)
    (p : Fin 6160) (q : Fin 64) :
    k1_pay1 (F := Ideal) v0 v3 v6 v8 v11 (ix2 p q)
      = max (((∑ k : Fin 64, v0 (ix2 p k) * v6 (ix2 k q)) + v11 (ix1 q)) + ∑ k : Fin 64, v3 (ix2 p k) * v8 (ix2 k q))
          (Ideal.ofBits .f32 0x00000000#32) := by
  unfold k1_pay1
  simp only [maximumf_apply, addf_apply, broadcast_apply, mm1_apply, truncf_apply, shapeCast_self,
    broadcastTo_1b_ab_apply, shapeCast_a_1a_apply]
  rfl

/-! ## The blocks of point t, read off the whole arrays -/

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the two row-blocked inputs and the output are at block (t, 0), the
    weights and the bias at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

section Reads
variable {F : FTy → Type} [FloatOps F]
variable (V : (c : Dev nD) → (b : Ref sig .tc) → Buf (Elt F) ((c : Thread nD τ).loc b))

/-- The aggregate's block at point t is rows 6160·t … of the aggregate array. -/
theorem read1_0 (c : Dev nD) (t : Fin cfg1.N) (x : S6160x64.Idx) (i : S308000x64.Idx)
    (h0 : (i 0).val = t.val * 6160 + (x 0).val) (h1 : (i 1).val = (x 1).val) :
    (iblk1 V c 0 t : Vec F S6160x64 .f32) x = (V c main_v30 : S308000x64.Idx → Elt F .f32) i := by
  obtain ⟨e0, e1, -⟩ := idx_facts1 t
  unfold iblk1
  rw [View.read_apply]
  show V c main_v30 _ = V c main_v30 i
  refine congrArg _ (funext fun a => Fin.ext ?_)
  match a with
  | ⟨0, _⟩ => show win1_0.index t (0 : Fin 2) * 6160 + 1 * (x 0).val = (i 0).val; omega
  | ⟨1, _⟩ => show win1_0.index t (1 : Fin 2) * 64 + 1 * (x 1).val = (i 1).val; omega

/-- The features' block at point t is rows 6160·t … of the feature array. -/
theorem read1_1 (c : Dev nD) (t : Fin cfg1.N) (x : S6160x64.Idx) (i : S308000x64.Idx)
    (h0 : (i 0).val = t.val * 6160 + (x 0).val) (h1 : (i 1).val = (x 1).val) :
    (iblk1 V c 1 t : Vec F S6160x64 .f32) x = (V c main_v1 : S308000x64.Idx → Elt F .f32) i := by
  obtain ⟨-, -, e0, e1, -⟩ := idx_facts1 t
  unfold iblk1
  rw [View.read_apply]
  show V c main_v1 _ = V c main_v1 i
  refine congrArg _ (funext fun a => Fin.ext ?_)
  match a with
  | ⟨0, _⟩ => show win1_1.index t (0 : Fin 2) * 6160 + 1 * (x 0).val = (i 0).val; omega
  | ⟨1, _⟩ => show win1_1.index t (1 : Fin 2) * 64 + 1 * (x 1).val = (i 1).val; omega

/-- The left weights' block is the whole array at every point. -/
theorem read1_2 (c : Dev nD) (t : Fin cfg1.N) (x i : S64x64.Idx)
    (h0 : (i 0).val = (x 0).val) (h1 : (i 1).val = (x 1).val) :
    (iblk1 V c 2 t : Vec F S64x64 .f32) x = (V c main_arg7 : S64x64.Idx → Elt F .f32) i := by
  obtain ⟨-, -, -, -, e0, e1, -⟩ := idx_facts1 t
  unfold iblk1
  rw [View.read_apply]
  show V c main_arg7 _ = V c main_arg7 i
  refine congrArg _ (funext fun a => Fin.ext ?_)
  match a with
  | ⟨0, _⟩ => show win1_2.index t (0 : Fin 2) * 64 + 1 * (x 0).val = (i 0).val; omega
  | ⟨1, _⟩ => show win1_2.index t (1 : Fin 2) * 64 + 1 * (x 1).val = (i 1).val; omega

/-- The bias's block is the whole array at every point. -/
theorem read1_3 (c : Dev nD) (t : Fin cfg1.N) (x i : S64.Idx) (h0 : (i 0).val = (x 0).val) :
    (iblk1 V c 3 t : Vec F S64 .f32) x = (V c main_arg8 : S64.Idx → Elt F .f32) i := by
  obtain ⟨-, -, -, -, -, -, e0, -⟩ := idx_facts1 t
  unfold iblk1
  rw [View.read_apply]
  show V c main_arg8 _ = V c main_arg8 i
  refine congrArg _ (funext fun a => Fin.ext ?_)
  match a with
  | ⟨0, _⟩ => show win1_3.index t (0 : Fin 1) * 64 + 1 * (x 0).val = (i 0).val; omega

/-- The right weights' block is the whole array at every point. -/
theorem read1_4 (c : Dev nD) (t : Fin cfg1.N) (x i : S64x64.Idx)
    (h0 : (i 0).val = (x 0).val) (h1 : (i 1).val = (x 1).val) :
    (iblk1 V c 4 t : Vec F S64x64 .f32) x = (V c main_arg9 : S64x64.Idx → Elt F .f32) i := by
  obtain ⟨-, -, -, -, -, -, -, e0, e1, -⟩ := idx_facts1 t
  unfold iblk1
  rw [View.read_apply]
  show V c main_arg9 _ = V c main_arg9 i
  refine congrArg _ (funext fun a => Fin.ext ?_)
  match a with
  | ⟨0, _⟩ => show win1_4.index t (0 : Fin 2) * 64 + 1 * (x 0).val = (i 0).val; omega
  | ⟨1, _⟩ => show win1_4.index t (1 : Fin 2) * 64 + 1 * (x 1).val = (i 1).val; omega

end Reads

/-! ## One entry of the stored block is the whole-array function at the entry's place in the array -/

/-- If the five loaded blocks read the whole arrays at row `i 0` (the blocked two) and column `i 1` (the weights and
    the bias), the stored block at `j` is the hidden combine at `i`. -/
theorem sage1_point (A X : FVec Ideal ⟨2, ![308000, 64]⟩ .f32) (Wl : FVec Ideal ⟨2, ![64, 64]⟩ .f32)
    (bl : FVec Ideal ⟨1, ![64]⟩ .f32) (Wr : FVec Ideal ⟨2, ![64, 64]⟩ .f32)
    (v0 v3 : Vec Ideal S6160x64 .f32) (v6 v8 : Vec Ideal S64x64 .f32) (v11 : Vec Ideal S64 .f32)
    (j : S6160x64.Idx) (i : S308000x64.Idx)
    (h0 : ∀ k : Fin 64, v0 (ix2 (j 0) k) = A (ix2 (i 0) k))
    (h3 : ∀ k : Fin 64, v3 (ix2 (j 0) k) = X (ix2 (i 0) k))
    (h6 : ∀ k : Fin 64, v6 (ix2 k (j 1)) = Wl (ix2 k (i 1)))
    (h8 : ∀ k : Fin 64, v8 (ix2 k (j 1)) = Wr (ix2 k (i 1)))
    (h11 : v11 (ix1 (j 1)) = bl (ix1 (i 1))) :
    k1_pay1 (F := Ideal) v0 v3 v6 v8 v11 j = Cert.Spec.sageReluG A X Wl bl Wr i := by
  obtain ⟨p, q, rfl⟩ : ∃ (p : Fin 6160) (q : Fin 64), j = ix2 p q := ⟨j 0, j 1, eq_ix2 j⟩
  have h0' : ∀ k : Fin 64, v0 (ix2 p k) = A (ix2 (i 0) k) := h0
  have h3' : ∀ k : Fin 64, v3 (ix2 p k) = X (ix2 (i 0) k) := h3
  have h6' : ∀ k : Fin 64, v6 (ix2 k q) = Wl (ix2 k (i 1)) := h6
  have h8' : ∀ k : Fin 64, v8 (ix2 k q) = Wr (ix2 k (i 1)) := h8
  have h11' : v11 (ix1 q) = bl (ix1 (i 1)) := h11
  rw [pay1_apply]
  unfold Cert.Spec.sageReluG
  have e1 : (∑ k : Fin 64, v0 (ix2 p k) * v6 (ix2 k q)) = ∑ k : Fin 64, A (ix2 (i 0) k) * Wl (ix2 k (i 1)) :=
    Finset.sum_congr rfl fun k _ => by rw [h0' k, h6' k]
  have e2 : (∑ k : Fin 64, v3 (ix2 p k) * v8 (ix2 k q)) = ∑ k : Fin 64, X (ix2 (i 0) k) * Wr (ix2 k (i 1)) :=
    Finset.sum_congr rfl fun k _ => by rw [h3' k, h8' k]
  rw [e1, e2, h11']

/-! ## What point t writes back, the cover, and the array after the region -/

section Array
variable (V : (c : Dev nD) → (b : Ref sig .tc) → Buf (Elt Ideal) ((c : Thread nD τ).loc b))

/-- What point t writes back is block t of the hidden combine of the five arrays as the region finds them. -/
theorem flushed1_eq (c : Dev nD) (t : Fin cfg1.N) :
    (dat1 (F := Ideal) V c).flushed 5 t = ((cfg1.win 5).blk t).view.read (Elt Ideal)
      (Cert.Spec.sageReluG (V c main_v30) (V c main_v1) (V c main_arg7) (V c main_arg8) (V c main_arg9)) := by
  show (cfg1.win 5).cut (grid1.coords t) ((dat1 V c).after 5 t) = _
  rw [after1_5]
  unfold out1_5
  rw [View.canon_unit_zero hz2]
  simp only [View.ld_unit_zero (S := S6160x64) hz2, View.ld_unit_zero (S := S64x64) hz2, View.ld_unit_zero (S := S64) hz1]
  obtain ⟨-, -, -, -, -, -, -, -, -, e0, e1⟩ := idx_facts1 t
  funext j
  rw [View.read_apply]
  refine sage1_point (V c main_v30) (V c main_v1) (V c main_arg7) (V c main_arg8) (V c main_arg9)
    (iblk1 V c 0 t) (iblk1 V c 1 t) (iblk1 V c 2 t) (iblk1 V c 4 t) (iblk1 V c 3 t)
    ((cfg1.win 5).xinj (grid1.coords t) j) (((cfg1.win 5).blk t).view.emb j) ?_ ?_ ?_ ?_ ?_
  · intro k
    refine read1_0 V c t _ _ ?_ rfl
    show win1_5.index t (0 : Fin 2) * 6160 + 1 * (j 0).val = t.val * 6160 + (j 0).val
    omega
  · intro k
    refine read1_1 V c t _ _ ?_ rfl
    show win1_5.index t (0 : Fin 2) * 6160 + 1 * (j 0).val = t.val * 6160 + (j 0).val
    omega
  · intro k
    refine read1_2 V c t _ _ rfl ?_
    show win1_5.index t (1 : Fin 2) * 64 + 1 * (j 1).val = (j 1).val
    omega
  · intro k
    refine read1_4 V c t _ _ rfl ?_
    show win1_5.index t (1 : Fin 2) * 64 + 1 * (j 1).val = (j 1).val
    omega
  · refine read1_3 V c t _ _ ?_
    show win1_5.index t (1 : Fin 2) * 64 + 1 * (j 1).val = (j 1).val
    omega

/-- Row r of the array lies in the block of point r / 6160. -/
theorem cover1 (i : S308000x64.Idx) :
    ∃ t : Fin cfg1.N, (cfg1.win 5).flush t = true ∧ i ∈ ((cfg1.win 5).blk t).view.set := by
  have hi0 : (i 0).val < 308000 := (i 0).isLt
  have hi1 : (i 1).val < 64 := (i 1).isLt
  have hN : grid1.N = 50 := N_1
  let t : Fin cfg1.N := ⟨(i 0).val / 6160, by show (i 0).val / 6160 < grid1.N; omega⟩
  have ht : t.val = (i 0).val / 6160 := rfl
  obtain ⟨-, -, -, -, -, -, -, -, -, e0, e1⟩ := idx_facts1 t
  refine ⟨t, flush1_5 t, ?_⟩
  show i ∈ ((View.whole main_v31).slice (win1_5.rect t)).set
  rw [View.set_slice_whole, Rect.mem_set_unit]
  intro a
  match a with
  | ⟨0, _⟩ => show win1_5.index t (0 : Fin 2) * 6160 ≤ (i 0).val ∧ (i 0).val < win1_5.index t (0 : Fin 2) * 6160 + 6160; omega
  | ⟨1, _⟩ => show win1_5.index t (1 : Fin 2) * 64 ≤ (i 1).val ∧ (i 1).val < win1_5.index t (1 : Fin 2) * 64 + 64; omega

/-- THE ARRAY AFTER REGION 1: the hidden combine of the aggregate, the features, the two weight matrices and the bias. -/
theorem sage1_value (c : Dev nD) :
    (dat1 (F := Ideal) V c).arrAt 5 cfg1.N
      = Cert.Spec.sageReluG (V c main_v30) (V c main_v1) (V c main_arg7) (V c main_arg8) (V c main_arg9) :=
  (dat1 (F := Ideal) V c).arrAt_eq_of_cover 5 _ (fun t _ => flushed1_eq V c t) cover1

end Array

end Cert.KernelIdeal.Val

end
-- ==== Proof.KI.Val2.lean ====
/-
  Region 2 (the last SAGE combine) read as ONE function of whole arrays.
  The body's stored block at row p, column q is (∑ₖ A_blk[p,k]·W_l[k,q] + b_l[q]) + ∑ₖ X_blk[p,k]·W_r[k,q];
  the block of point t holds rows 6160·t … 6160·t + 6159 of the aggregate and of the features, the weights and the
  bias are whole; so what point t writes back is block t of the whole-array function, and the 50 blocks tile the
  308000 rows (row r lies in block r / 6160).
-/
import proofs.«176091_j8658654069109_1_alg».proof.Proof.KI.Data
import proofs.«176091_j8658654069109_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr

/-! ## The body's arithmetic at one entry of the block -/

theorem mm2_lhs0 (i : S6160x32.Idx) (q : dot_S6160x64_S64x32_S6160x32_1_0_0_1_n_n.contr.Idx) : (dot_S6160x64_S64x32_S6160x32_1_0_0_1_n_n.lhsIdx i q 0).val = (i 0).val := by
  unfold DotDims.lhsIdx
  rw [dif_neg (show ¬(0 : Fin S6160x64.rank) ∈ dot_S6160x64_S64x32_S6160x32_1_0_0_1_n_n.lhsBatch by decide), dif_pos (show (0 : Fin S6160x64.rank) ∈ dot_S6160x64_S64x32_S6160x32_1_0_0_1_n_n.lhsNonContracting by decide)]
  rfl
theorem mm2_rhs1 (i : S6160x32.Idx) (q : dot_S6160x64_S64x32_S6160x32_1_0_0_1_n_n.contr.Idx) : (dot_S6160x64_S64x32_S6160x32_1_0_0_1_n_n.rhsIdx i q 1).val = (i 1).val := by
  unfold DotDims.rhsIdx
  rw [dif_neg (show ¬(1 : Fin S64x32.rank) ∈ dot_S6160x64_S64x32_S6160x32_1_0_0_1_n_n.rhsBatch by decide), dif_pos (show (1 : Fin S64x32.rank) ∈ dot_S6160x64_S64x32_S6160x32_1_0_0_1_n_n.rhsNonContracting by decide)]
  rfl

/-- A [6160,64] × [64,32] product into the zero accumulator, at (p, q): the sum over the 64 contracted entries. -/
theorem mm2_apply (l : FVec Ideal S6160x64 .bf16) (r : FVec Ideal S64x32 .bf16) (p : Fin 6160) (q : Fin 32) :
    matmul dot_S6160x64_S64x32_S6160x32_1_0_0_1_n_n none l r (constant (F := Ideal) S6160x32 .f32 0x00000000#32) (ix2 p q)
      = ∑ k : Fin 64, l (ix2 p k) * r (ix2 k q) := by
  show FloatOps.matmul dot_S6160x64_S64x32_S6160x32_1_0_0_1_n_n none l r (constant (F := Ideal) S6160x32 .f32 0x00000000#32) (ix2 p q) = _
  rw [Ideal.matmul_constant_zero_apply, ← Equiv.sum_comp (contrEquiv1 dot_S6160x64_S64x32_S6160x32_1_0_0_1_n_n 64 rfl rfl).symm]
  refine Finset.sum_congr rfl fun k _ => ?_
  have hk := contrEquiv1_symm_val dot_S6160x64_S64x32_S6160x32_1_0_0_1_n_n 64 rfl rfl k
  have el : dot_S6160x64_S64x32_S6160x32_1_0_0_1_n_n.lhsIdx (ix2 p q) ((contrEquiv1 dot_S6160x64_S64x32_S6160x32_1_0_0_1_n_n 64 rfl rfl).symm k) = ix2 p k := funext fun a => Fin.ext (by
    match a with
    | ⟨0, _⟩ => exact mm2_lhs0 _ _
    | ⟨1, _⟩ => exact (dot_S6160x64_S64x32_S6160x32_1_0_0_1_n_n.lhsIdx_val_of_single rfl _ _).trans hk)
  have er : dot_S6160x64_S64x32_S6160x32_1_0_0_1_n_n.rhsIdx (ix2 p q) ((contrEquiv1 dot_S6160x64_S64x32_S6160x32_1_0_0_1_n_n 64 rfl rfl).symm k) = ix2 k q := funext fun a => Fin.ext (by
    match a with
    | ⟨0, _⟩ => exact (dot_S6160x64_S64x32_S6160x32_1_0_0_1_n_n.rhsIdx_val_of_single rfl _ _).trans hk
    | ⟨1, _⟩ => exact mm2_rhs1 _ _)
  rw [el, er]

/-- The stored block of region 2 at (p, q), from the five loaded blocks. -/
theorem pay2_apply (v0 v3 : Vec Ideal S6160x64 .f32) (v6 v8 : Vec Ideal S64x32 .f32) (v11 : Vec Ideal S32 .f32)
    (p : Fin 6160) (q : Fin 32) :
    k2_pay1 (F := Ideal) v0 v3 v6 v8 v11 (ix2 p q)
      = ((∑ k : Fin 64, v0 (ix2 p k) * v6 (ix2 k q)) + v11 (ix1 q)) + ∑ k : Fin 64, v3 (ix2 p k) * v8 (ix2 k q) := by
  unfold k2_pay1
  simp only [maximumf_apply, addf_apply, broadcast_apply, mm2_apply, truncf_apply, shapeCast_self,
    broadcastTo_1b_ab_apply, shapeCast_a_1a_apply]

/-! ## The blocks of point t, read off the whole arrays -/

theorem zero2_2 : (![0, 0] : Fin 2 → Nat) = fun _ => 0 := funext fun a => by fin_cases a <;> rfl
theorem zero2_1 : (![0] : Fin 1 → Nat) = fun _ => 0 := funext fun a => by fin_cases a <;> rfl

/-- The printed index maps over the grid: the two row-blocked inputs and the output are at block (t, 0), the
    weights and the bias at block 0. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

section Reads
variable {F : FTy → Type} [FloatOps F]
variable (V : (c : Dev nD) → (b : Ref sig .tc) → Buf (Elt F) ((c : Thread nD τ).loc b))

/-- The aggregate's block at point t is rows 6160·t … of the aggregate array. -/
theorem read2_0 (c : Dev nD) (t : Fin cfg2.N) (x : S6160x64.Idx) (i : S308000x64.Idx)
    (h0 : (i 0).val = t.val * 6160 + (x 0).val) (h1 : (i 1).val = (x 1).val) :
    (iblk2 V c 0 t : Vec F S6160x64 .f32) x = (V c main_v50 : S308000x64.Idx → Elt F .f32) i := by
  obtain ⟨e0, e1, -⟩ := idx_facts2 t
  unfold iblk2
  rw [View.read_apply]
  show V c main_v50 _ = V c main_v50 i
  refine congrArg _ (funext fun a => Fin.ext ?_)
  match a with
  | ⟨0, _⟩ => show win2_0.index t (0 : Fin 2) * 6160 + 1 * (x 0).val = (i 0).val; omega
  | ⟨1, _⟩ => show win2_0.index t (1 : Fin 2) * 64 + 1 * (x 1).val = (i 1).val; omega

/-- The features' block at point t is rows 6160·t … of the feature array. -/
theorem read2_1 (c : Dev nD) (t : Fin cfg2.N) (x : S6160x64.Idx) (i : S308000x64.Idx)
    (h0 : (i 0).val = t.val * 6160 + (x 0).val) (h1 : (i 1).val = (x 1).val) :
    (iblk2 V c 1 t : Vec F S6160x64 .f32) x = (V c main_v31 : S308000x64.Idx → Elt F .f32) i := by
  obtain ⟨-, -, e0, e1, -⟩ := idx_facts2 t
  unfold iblk2
  rw [View.read_apply]
  show V c main_v31 _ = V c main_v31 i
  refine congrArg _ (funext fun a => Fin.ext ?_)
  match a with
  | ⟨0, _⟩ => show win2_1.index t (0 : Fin 2) * 6160 + 1 * (x 0).val = (i 0).val; omega
  | ⟨1, _⟩ => show win2_1.index t (1 : Fin 2) * 64 + 1 * (x 1).val = (i 1).val; omega

/-- The left weights' block is the whole array at every point. -/
theorem read2_2 (c : Dev nD) (t : Fin cfg2.N) (x i : S64x32.Idx)
    (h0 : (i 0).val = (x 0).val) (h1 : (i 1).val = (x 1).val) :
    (iblk2 V c 2 t : Vec F S64x32 .f32) x = (V c main_arg10 : S64x32.Idx → Elt F .f32) i := by
  obtain ⟨-, -, -, -, e0, e1, -⟩ := idx_facts2 t
  unfold iblk2
  rw [View.read_apply]
  show V c main_arg10 _ = V c main_arg10 i
  refine congrArg _ (funext fun a => Fin.ext ?_)
  match a with
  | ⟨0, _⟩ => show win2_2.index t (0 : Fin 2) * 64 + 1 * (x 0).val = (i 0).val; omega
  | ⟨1, _⟩ => show win2_2.index t (1 : Fin 2) * 32 + 1 * (x 1).val = (i 1).val; omega

/-- The bias's block is the whole array at every point. -/
theorem read2_3 (c : Dev nD) (t : Fin cfg2.N) (x i : S32.Idx) (h0 : (i 0).val = (x 0).val) :
    (iblk2 V c 3 t : Vec F S32 .f32) x = (V c main_arg11 : S32.Idx → Elt F .f32) i := by
  obtain ⟨-, -, -, -, -, -, e0, -⟩ := idx_facts2 t
  unfold iblk2
  rw [View.read_apply]
  show V c main_arg11 _ = V c main_arg11 i
  refine congrArg _ (funext fun a => Fin.ext ?_)
  match a with
  | ⟨0, _⟩ => show win2_3.index t (0 : Fin 1) * 32 + 1 * (x 0).val = (i 0).val; omega

/-- The right weights' block is the whole array at every point. -/
theorem read2_4 (c : Dev nD) (t : Fin cfg2.N) (x i : S64x32.Idx)
    (h0 : (i 0).val = (x 0).val) (h1 : (i 1).val = (x 1).val) :
    (iblk2 V c 4 t : Vec F S64x32 .f32) x = (V c main_arg12 : S64x32.Idx → Elt F .f32) i := by
  obtain ⟨-, -, -, -, -, -, -, e0, e1, -⟩ := idx_facts2 t
  unfold iblk2
  rw [View.read_apply]
  show V c main_arg12 _ = V c main_arg12 i
  refine congrArg _ (funext fun a => Fin.ext ?_)
  match a with
  | ⟨0, _⟩ => show win2_4.index t (0 : Fin 2) * 64 + 1 * (x 0).val = (i 0).val; omega
  | ⟨1, _⟩ => show win2_4.index t (1 : Fin 2) * 32 + 1 * (x 1).val = (i 1).val; omega

end Reads

/-! ## One entry of the stored block is the whole-array function at the entry's place in the array -/

/-- If the five loaded blocks read the whole arrays at row `i 0` (the blocked two) and column `i 1` (the weights and
    the bias), the stored block at `j` is the combine at `i`. -/
theorem sage2_point (A X : FVec Ideal ⟨2, ![308000, 64]⟩ .f32) (Wl : FVec Ideal ⟨2, ![64, 32]⟩ .f32)
    (bl : FVec Ideal ⟨1, ![32]⟩ .f32) (Wr : FVec Ideal ⟨2, ![64, 32]⟩ .f32)
    (v0 v3 : Vec Ideal S6160x64 .f32) (v6 v8 : Vec Ideal S64x32 .f32) (v11 : Vec Ideal S32 .f32)
    (j : S6160x32.Idx) (i : S308000x32.Idx)
    (h0 : ∀ k : Fin 64, v0 (ix2 (j 0) k) = A (ix2 (i 0) k))
    (h3 : ∀ k : Fin 64, v3 (ix2 (j 0) k) = X (ix2 (i 0) k))
    (h6 : ∀ k : Fin 64, v6 (ix2 k (j 1)) = Wl (ix2 k (i 1)))
    (h8 : ∀ k : Fin 64, v8 (ix2 k (j 1)) = Wr (ix2 k (i 1)))
    (h11 : v11 (ix1 (j 1)) = bl (ix1 (i 1))) :
    k2_pay1 (F := Ideal) v0 v3 v6 v8 v11 j = Cert.Spec.sageG A X Wl bl Wr i := by
  obtain ⟨p, q, rfl⟩ : ∃ (p : Fin 6160) (q : Fin 32), j = ix2 p q := ⟨j 0, j 1, eq_ix2 j⟩
  have h0' : ∀ k : Fin 64, v0 (ix2 p k) = A (ix2 (i 0) k) := h0
  have h3' : ∀ k : Fin 64, v3 (ix2 p k) = X (ix2 (i 0) k) := h3
  have h6' : ∀ k : Fin 64, v6 (ix2 k q) = Wl (ix2 k (i 1)) := h6
  have h8' : ∀ k : Fin 64, v8 (ix2 k q) = Wr (ix2 k (i 1)) := h8
  have h11' : v11 (ix1 q) = bl (ix1 (i 1)) := h11
  rw [pay2_apply]
  unfold Cert.Spec.sageG
  have e1 : (∑ k : Fin 64, v0 (ix2 p k) * v6 (ix2 k q)) = ∑ k : Fin 64, A (ix2 (i 0) k) * Wl (ix2 k (i 1)) :=
    Finset.sum_congr rfl fun k _ => by rw [h0' k, h6' k]
  have e2 : (∑ k : Fin 64, v3 (ix2 p k) * v8 (ix2 k q)) = ∑ k : Fin 64, X (ix2 (i 0) k) * Wr (ix2 k (i 1)) :=
    Finset.sum_congr rfl fun k _ => by rw [h3' k, h8' k]
  rw [e1, e2, h11']

/-! ## What point t writes back, the cover, and the array after the region -/

section Array
variable (V : (c : Dev nD) → (b : Ref sig .tc) → Buf (Elt Ideal) ((c : Thread nD τ).loc b))

/-- What point t writes back is block t of the combine of the five arrays as the region finds them. -/
theorem flushed2_eq (c : Dev nD) (t : Fin cfg2.N) :
    (dat2 (F := Ideal) V c).flushed 5 t = ((cfg2.win 5).blk t).view.read (Elt Ideal)
      (Cert.Spec.sageG (V c main_v50) (V c main_v31) (V c main_arg10) (V c main_arg11) (V c main_arg12)) := by
  show (cfg2.win 5).cut (grid2.coords t) ((dat2 V c).after 5 t) = _
  rw [after2_5]
  unfold out2_5
  rw [View.canon_unit_zero zero2_2]
  simp only [View.ld_unit_zero (S := S6160x64) zero2_2, View.ld_unit_zero (S := S64x32) zero2_2, View.ld_unit_zero (S := S32) zero2_1]
  obtain ⟨-, -, -, -, -, -, -, -, -, e0, e1⟩ := idx_facts2 t
  funext j
  rw [View.read_apply]
  refine sage2_point (V c main_v50) (V c main_v31) (V c main_arg10) (V c main_arg11) (V c main_arg12)
    (iblk2 V c 0 t) (iblk2 V c 1 t) (iblk2 V c 2 t) (iblk2 V c 4 t) (iblk2 V c 3 t)
    ((cfg2.win 5).xinj (grid2.coords t) j) (((cfg2.win 5).blk t).view.emb j) ?_ ?_ ?_ ?_ ?_
  · intro k
    refine read2_0 V c t _ _ ?_ rfl
    show win2_5.index t (0 : Fin 2) * 6160 + 1 * (j 0).val = t.val * 6160 + (j 0).val
    omega
  · intro k
    refine read2_1 V c t _ _ ?_ rfl
    show win2_5.index t (0 : Fin 2) * 6160 + 1 * (j 0).val = t.val * 6160 + (j 0).val
    omega
  · intro k
    refine read2_2 V c t _ _ rfl ?_
    show win2_5.index t (1 : Fin 2) * 32 + 1 * (j 1).val = (j 1).val
    omega
  · intro k
    refine read2_4 V c t _ _ rfl ?_
    show win2_5.index t (1 : Fin 2) * 32 + 1 * (j 1).val = (j 1).val
    omega
  · refine read2_3 V c t _ _ ?_
    show win2_5.index t (1 : Fin 2) * 32 + 1 * (j 1).val = (j 1).val
    omega

/-- Row r of the array lies in the block of point r / 6160. -/
theorem cover2 (i : S308000x32.Idx) :
    ∃ t : Fin cfg2.N, (cfg2.win 5).flush t = true ∧ i ∈ ((cfg2.win 5).blk t).view.set := by
  have hi0 : (i 0).val < 308000 := (i 0).isLt
  have hi1 : (i 1).val < 32 := (i 1).isLt
  have hN : grid2.N = 50 := N_2
  let t : Fin cfg2.N := ⟨(i 0).val / 6160, by show (i 0).val / 6160 < grid2.N; omega⟩
  have ht : t.val = (i 0).val / 6160 := rfl
  obtain ⟨-, -, -, -, -, -, -, -, -, e0, e1⟩ := idx_facts2 t
  refine ⟨t, flush2_5 t, ?_⟩
  show i ∈ ((View.whole main_v51).slice (win2_5.rect t)).set
  rw [View.set_slice_whole, Rect.mem_set_unit]
  intro a
  match a with
  | ⟨0, _⟩ => show win2_5.index t (0 : Fin 2) * 6160 ≤ (i 0).val ∧ (i 0).val < win2_5.index t (0 : Fin 2) * 6160 + 6160; omega
  | ⟨1, _⟩ => show win2_5.index t (1 : Fin 2) * 32 ≤ (i 1).val ∧ (i 1).val < win2_5.index t (1 : Fin 2) * 32 + 32; omega

/-- THE ARRAY AFTER REGION 2: the combine of the aggregate, the features, the two weight matrices and the bias. -/
theorem sage2_value (c : Dev nD) :
    (dat2 (F := Ideal) V c).arrAt 5 cfg2.N
      = Cert.Spec.sageG (V c main_v50) (V c main_v31) (V c main_arg10) (V c main_arg11) (V c main_arg12) :=
  (dat2 (F := Ideal) V c).arrAt_eq_of_cover 5 _ (fun t _ => flushed2_eq V c t) cover2

end Array

end Cert.KernelIdeal.Val

end
-- ==== Proof.Bridge.HostFns.lean ====
/-
  The host-side functions the kernel's program and the reference share, named once: the node-feature table (the
  projected product rows on top of the four embedding tables), the two directed edge lists (every edge type in both
  directions, node ids offset into the joint table), and the mean aggregation of source features over incoming
  edges (a gather along the source list, a scatter-add along the target list, divided by the in-degree clamped
  below at one). Both programs apply exactly these operations, so they are carried as opaque functions.
-/
import proofs.«176091_j8658654069109_1_alg».proof.KernelIdeal

noncomputable section

namespace Cert.Bridge

open Idealize.ShloMosaic Cert.KernelIdeal

variable {F : FTy → Type} [FloatOps F] [Cert.KernelIdeal.Facts]
open Cert.KernelIdeal.Facts₀ Cert.KernelIdeal.Facts

/-- The joint node-feature table: projected products, then users, brands, categories, shops. -/
def nodes (h : (⟨S200000x64, .f32⟩ : BufTy).Contents (Elt F)) (x1 : (⟨S100000x64, .f32⟩ : BufTy).Contents (Elt F)) (x2 : (⟨S5000x64, .f32⟩ : BufTy).Contents (Elt F)) (x3 : (⟨S2000x64, .f32⟩ : BufTy).Contents (Elt F)) (x4 : (⟨S1000x64, .f32⟩ : BufTy).Contents (Elt F)) : (⟨S308000x64, .f32⟩ : BufTy).Contents (Elt F) :=
  concatenate S308000x64 0 [⟨S200000x64, h⟩, ⟨S100000x64, x1⟩, ⟨S5000x64, x2⟩, ⟨S2000x64, x3⟩, ⟨S1000x64, x4⟩] concatenates_S200000x64_S100000x64_S5000x64_S2000x64_S1000x64_S308000x64_d0

/-- Brand, category, shop and user ids moved to their offsets in the joint table. -/
def brandIds (x14 : (⟨S200000, .i32⟩ : BufTy).Contents (Elt F)) : (⟨S200000, .i32⟩ : BufTy).Contents (Elt F) := addi x14 (broadcastInDim S200000 ![] bcast_S_S200000 (constantI S_ 32 300000#32))
def catIds (x16 : (⟨S200000, .i32⟩ : BufTy).Contents (Elt F)) : (⟨S200000, .i32⟩ : BufTy).Contents (Elt F) := addi x16 (broadcastInDim S200000 ![] bcast_S_S200000 (constantI S_ 32 305000#32))
def shopIds (x18 : (⟨S400000, .i32⟩ : BufTy).Contents (Elt F)) : (⟨S400000, .i32⟩ : BufTy).Contents (Elt F) := addi x18 (broadcastInDim S400000 ![] bcast_S_S400000 (constantI S_ 32 307000#32))
def userIds (x19 : (⟨S1000000, .i32⟩ : BufTy).Contents (Elt F)) : (⟨S1000000, .i32⟩ : BufTy).Contents (Elt F) := addi x19 (broadcastInDim S1000000 ![] bcast_S_S1000000 (constantI S_ 32 200000#32))

/-- Source ends of all directed edges. -/
def edgeSrc (x13 x14 x15 x16 : (⟨S200000, .i32⟩ : BufTy).Contents (Elt F)) (x17 x18 : (⟨S400000, .i32⟩ : BufTy).Contents (Elt F)) (x19 x20 : (⟨S1000000, .i32⟩ : BufTy).Contents (Elt F)) : (⟨S3600000, .i32⟩ : BufTy).Contents (Elt F) :=
  concatenate S3600000 0 [⟨S200000, x13⟩, ⟨S200000, brandIds x14⟩, ⟨S200000, x15⟩, ⟨S200000, catIds x16⟩, ⟨S400000, x17⟩, ⟨S400000, shopIds x18⟩, ⟨S1000000, userIds x19⟩, ⟨S1000000, x20⟩] concatenates_S200000_S200000_S200000_S200000_S400000_S400000_S1000000_S1000000_S3600000_d0

/-- Target ends of all directed edges. -/
def edgeDst (x13 x14 x15 x16 : (⟨S200000, .i32⟩ : BufTy).Contents (Elt F)) (x17 x18 : (⟨S400000, .i32⟩ : BufTy).Contents (Elt F)) (x19 x20 : (⟨S1000000, .i32⟩ : BufTy).Contents (Elt F)) : (⟨S3600000, .i32⟩ : BufTy).Contents (Elt F) :=
  concatenate S3600000 0 [⟨S200000, brandIds x14⟩, ⟨S200000, x13⟩, ⟨S200000, catIds x16⟩, ⟨S200000, x15⟩, ⟨S400000, shopIds x18⟩, ⟨S400000, x17⟩, ⟨S1000000, x20⟩, ⟨S1000000, userIds x19⟩] concatenates_S200000_S200000_S200000_S200000_S400000_S400000_S1000000_S1000000_S3600000_d0

/-- The gathered source rows: negative ids wrap by the table's height first. -/
def srcRows (x : (⟨S308000x64, .f32⟩ : BufTy).Contents (Elt F)) (src : (⟨S3600000, .i32⟩ : BufTy).Contents (Elt F)) : (⟨S3600000x64, .f32⟩ : BufTy).Contents (Elt F) :=
  Host.gather gather_S308000x64_S3600000x1_S3600000x64_1_0_n_n_0_1_164 x
    (broadcastInDim S3600000x1 ![0] bcast_S3600000_S3600000x1_0
      (select (cmpi .slt src (broadcastInDim S3600000 ![] bcast_S_S3600000 (constantI S_ 32 0#32)))
        (addi src (broadcastInDim S3600000 ![] bcast_S_S3600000 (constantI S_ 32 308000#32))) src))

/-- Every node's in-degree, clamped below at one, as a column broadcast over the 64 features. -/
def degree (dst : (⟨S3600000, .i32⟩ : BufTy).Contents (Elt F)) : (⟨S308000x64, .f32⟩ : BufTy).Contents (Elt F) :=
  broadcastInDim S308000x64 ![0, 1] bcast_S308000x1_S308000x64_0_1
    (broadcastInDim S308000x1 ![0] bcast_S308000_S308000x1_0
      (maximumf
        (Host.scatterAdd scatter_S308000_S3600000x1_S3600000_n_0_0_1 (broadcastInDim S308000 ![] bcast_S_S308000 (constant S_ .f32 0x00000000#32))
          (broadcastInDim S3600000x1 ![0] bcast_S3600000_S3600000x1_0 dst)
          (broadcastInDim S3600000 ![] bcast_S_S3600000 (constant S_ .f32 0x3F800000#32)))
        (broadcastInDim S308000 ![] bcast_S_S308000 (constant S_ .f32 0x3F800000#32))))

/-- Mean of the source features over each node's incoming edges. -/
def meanAgg (x : (⟨S308000x64, .f32⟩ : BufTy).Contents (Elt F)) (src dst : (⟨S3600000, .i32⟩ : BufTy).Contents (Elt F)) : (⟨S308000x64, .f32⟩ : BufTy).Contents (Elt F) :=
  Host.divf
    (Host.scatterAdd scatter_S308000x64_S3600000x1_S3600000x64_1_0_0_1 (broadcastInDim S308000x64 ![] bcast_S_S308000x64 (constant S_ .f32 0x00000000#32))
      (broadcastInDim S3600000x1 ![0] bcast_S3600000_S3600000x1_0 dst) (srcRows x src))
    (degree dst)

end Cert.Bridge

end
-- ==== Proof.Bridge.KerHost.lean ====
/-
  The kernel program's two host stretches, read back: after the first, the node table, the edge lists and the
  first mean aggregation are the shared host functions of what the stretch found; after the second, the second
  mean aggregation is that function of the first layer's output and the same edge lists.
-/
import proofs.«176091_j8658654069109_1_alg».proof.Proof.Gen.KernelIdeal.Launch
import proofs.«176091_j8658654069109_1_alg».proof.Proof.Bridge.HostFns
import Idealize.ShloMosaic.Lib.StableHlo.Run

noncomputable section

namespace Cert.Bridge

open Idealize.ShloMosaic Idealize.ShloMosaic.TcCoe Idealize.ShloMosaic.StableHlo Cert.KernelIdeal Cert.KernelIdeal.Gen

variable {F : FTy → Type} [FloatOps F] [Cert.KernelIdeal.Facts]
variable (W : Valuation τ sig (Elt F))

theorem ker_nodes : after hostOps1 W (Proc.devRef .tc main_v1)
    = nodes (W main_v0) (W main_arg1) (W main_arg2) (W main_arg3) (W main_arg4) := by
  after_results_simp <;> rfl

theorem ker_src : after hostOps1 W (Proc.devRef .tc main_v10)
    = edgeSrc (W main_arg13) (W main_arg14) (W main_arg15) (W main_arg16) (W main_arg17) (W main_arg18) (W main_arg19) (W main_arg20) := by
  after_results_simp <;> rfl

theorem ker_dst : after hostOps1 W (Proc.devRef .tc main_v11)
    = edgeDst (W main_arg13) (W main_arg14) (W main_arg15) (W main_arg16) (W main_arg17) (W main_arg18) (W main_arg19) (W main_arg20) := by
  after_results_simp <;> rfl

theorem ker_agg1 : after hostOps1 W (Proc.devRef .tc main_v30)
    = meanAgg (nodes (W main_v0) (W main_arg1) (W main_arg2) (W main_arg3) (W main_arg4))
        (edgeSrc (W main_arg13) (W main_arg14) (W main_arg15) (W main_arg16) (W main_arg17) (W main_arg18) (W main_arg19) (W main_arg20)) (edgeDst (W main_arg13) (W main_arg14) (W main_arg15) (W main_arg16) (W main_arg17) (W main_arg18) (W main_arg19) (W main_arg20)) := by
  after_results_simp <;> rfl

theorem ker_agg2 : after hostOps2 W (Proc.devRef .tc main_v50)
    = meanAgg (W main_v31) (W main_v10) (W main_v11) := by
  after_results_simp <;> rfl

end Cert.Bridge

end
-- ==== Proof.Bridge.Final.lean ====
/-
  The whole network as ONE function of the argument arrays on the extended reals: the node table over the projected
  products, the first layer (mean aggregation, combine, maximum with zero) and the second layer (mean aggregation of the
  first layer's output, combine). The kernel program's result and the reference's are both this function.
-/
import proofs.«176091_j8658654069109_1_alg».proof.Proof.Spec
import proofs.«176091_j8658654069109_1_alg».proof.Proof.Bridge.HostFns

noncomputable section

namespace Cert.Bridge

open Idealize.ShloMosaic Cert.KernelIdeal

variable [Cert.KernelIdeal.Facts]

/-- The node-feature table the first layer sees. -/
def feats (a0 : (⟨S200000x384, .f32⟩ : BufTy).Contents (Elt Ideal)) (a1 : (⟨S100000x64, .f32⟩ : BufTy).Contents (Elt Ideal)) (a2 : (⟨S5000x64, .f32⟩ : BufTy).Contents (Elt Ideal)) (a3 : (⟨S2000x64, .f32⟩ : BufTy).Contents (Elt Ideal)) (a4 : (⟨S1000x64, .f32⟩ : BufTy).Contents (Elt Ideal)) (a5 : (⟨S384x64, .f32⟩ : BufTy).Contents (Elt Ideal)) (a6 : (⟨S64, .f32⟩ : BufTy).Contents (Elt Ideal)) : (⟨S308000x64, .f32⟩ : BufTy).Contents (Elt Ideal) :=
  nodes (Cert.Spec.projG a0 a5 a6) a1 a2 a3 a4

/-- The first layer's output. -/
def layer1 (a0 : (⟨S200000x384, .f32⟩ : BufTy).Contents (Elt Ideal)) (a1 : (⟨S100000x64, .f32⟩ : BufTy).Contents (Elt Ideal)) (a2 : (⟨S5000x64, .f32⟩ : BufTy).Contents (Elt Ideal)) (a3 : (⟨S2000x64, .f32⟩ : BufTy).Contents (Elt Ideal)) (a4 : (⟨S1000x64, .f32⟩ : BufTy).Contents (Elt Ideal)) (a5 : (⟨S384x64, .f32⟩ : BufTy).Contents (Elt Ideal)) (a6 : (⟨S64, .f32⟩ : BufTy).Contents (Elt Ideal)) (a7 : (⟨S64x64, .f32⟩ : BufTy).Contents (Elt Ideal)) (a8 : (⟨S64, .f32⟩ : BufTy).Contents (Elt Ideal)) (a9 : (⟨S64x64, .f32⟩ : BufTy).Contents (Elt Ideal)) (a13 a14 a15 a16 : (⟨S200000, .i32⟩ : BufTy).Contents (Elt Ideal)) (a17 a18 : (⟨S400000, .i32⟩ : BufTy).Contents (Elt Ideal)) (a19 a20 : (⟨S1000000, .i32⟩ : BufTy).Contents (Elt Ideal)) : (⟨S308000x64, .f32⟩ : BufTy).Contents (Elt Ideal) :=
  Cert.Spec.sageReluG (meanAgg (feats a0 a1 a2 a3 a4 a5 a6) (edgeSrc a13 a14 a15 a16 a17 a18 a19 a20) (edgeDst a13 a14 a15 a16 a17 a18 a19 a20)) (feats a0 a1 a2 a3 a4 a5 a6) a7 a8 a9

/-- The network's result. -/
def net (a0 : (⟨S200000x384, .f32⟩ : BufTy).Contents (Elt Ideal)) (a1 : (⟨S100000x64, .f32⟩ : BufTy).Contents (Elt Ideal)) (a2 : (⟨S5000x64, .f32⟩ : BufTy).Contents (Elt Ideal)) (a3 : (⟨S2000x64, .f32⟩ : BufTy).Contents (Elt Ideal)) (a4 : (⟨S1000x64, .f32⟩ : BufTy).Contents (Elt Ideal)) (a5 : (⟨S384x64, .f32⟩ : BufTy).Contents (Elt Ideal)) (a6 : (⟨S64, .f32⟩ : BufTy).Contents (Elt Ideal)) (a7 : (⟨S64x64, .f32⟩ : BufTy).Contents (Elt Ideal)) (a8 : (⟨S64, .f32⟩ : BufTy).Contents (Elt Ideal)) (a9 : (⟨S64x64, .f32⟩ : BufTy).Contents (Elt Ideal)) (a10 : (⟨S64x32, .f32⟩ : BufTy).Contents (Elt Ideal)) (a11 : (⟨S32, .f32⟩ : BufTy).Contents (Elt Ideal)) (a12 : (⟨S64x32, .f32⟩ : BufTy).Contents (Elt Ideal)) (a13 a14 a15 a16 : (⟨S200000, .i32⟩ : BufTy).Contents (Elt Ideal)) (a17 a18 : (⟨S400000, .i32⟩ : BufTy).Contents (Elt Ideal)) (a19 a20 : (⟨S1000000, .i32⟩ : BufTy).Contents (Elt Ideal)) : (⟨S308000x32, .f32⟩ : BufTy).Contents (Elt Ideal) :=
  Cert.Spec.sageG (meanAgg (layer1 a0 a1 a2 a3 a4 a5 a6 a7 a8 a9 a13 a14 a15 a16 a17 a18 a19 a20) (edgeSrc a13 a14 a15 a16 a17 a18 a19 a20) (edgeDst a13 a14 a15 a16 a17 a18 a19 a20))
    (layer1 a0 a1 a2 a3 a4 a5 a6 a7 a8 a9 a13 a14 a15 a16 a17 a18 a19 a20) a10 a11 a12

end Cert.Bridge

end
-- ==== Proof.Bridge.KerNet.lean ====
/-
  The kernel program's result array is the network function of the launched arguments: region 0's output is the
  projection, the first host stretch makes the node table, the edge lists and the first mean aggregation of them,
  region 1's output is the first layer, the second host stretch aggregates it, region 2's output is the result.
  Arguments and edge lists pass every boundary unchanged: no host operation writes them and no region's output
  window is one of them.
-/
import proofs.«176091_j8658654069109_1_alg».proof.Proof.KI.Val0
import proofs.«176091_j8658654069109_1_alg».proof.Proof.KI.Val1
import proofs.«176091_j8658654069109_1_alg».proof.Proof.KI.Val2
import proofs.«176091_j8658654069109_1_alg».proof.Proof.KI.Fold
import proofs.«176091_j8658654069109_1_alg».proof.Proof.Gen.KernelIdeal.Regions
import proofs.«176091_j8658654069109_1_alg».proof.Proof.Bridge.KerHost
import proofs.«176091_j8658654069109_1_alg».proof.Proof.Bridge.Final

noncomputable section

namespace Cert.Bridge

open Idealize.ShloMosaic Idealize.ShloMosaic.TcCoe Idealize.ShloMosaic.StableHlo Idealize.SL.Sem
open Idealize.ShloMosaic.Pipeline (Dat)
open Cert.KernelIdeal Cert.KernelIdeal.Gen Cert.KernelIdeal.Fr

variable [Cert.KernelIdeal.Facts]
variable (m : (ℓ : Loc nD τ sig) → Buf (Elt Ideal) ℓ) (ρ : Dev nD → PrngReg) (c : Dev nD)

open Cert.KernelIdeal.Val

/-- A buffer no window of region 0 stages is, at region 0's exit, as launched. -/
theorem W1_keep (b : Ref sig .tc) (h0 : ∀ w, Pipeline.arrRef spec0 w ≠ b) :
    W1 m ρ c b = m ((c : Thread nD τ).loc b) :=
  (W1_of_ne m ρ c b h0).trans rfl

/-- … and still so after the first host stretch, if that stretch does not write it, -/
theorem W2_keep (b : Ref sig .tc) (h0 : ∀ w, Pipeline.arrRef spec0 w ≠ b) (h1 : b ∉ hostOps1_W) :
    W2 m ρ c b = m ((c : Thread nD τ).loc b) :=
  (StableHlo.after_of_writes_sub hostOps1 _ hostOps1_writes h1).trans (W1_keep m ρ c b h0)

/-- … at region 1's exit, if no window of region 1 stages it, -/
theorem W3_keep (b : Ref sig .tc) (h0 : ∀ w, Pipeline.arrRef spec0 w ≠ b) (h1 : b ∉ hostOps1_W)
    (h2 : ∀ w, Pipeline.arrRef spec1 w ≠ b) : W3 m ρ c b = m ((c : Thread nD τ).loc b) :=
  (W3_of_ne m ρ c b h2).trans (W2_keep m ρ c b h0 h1)

/-- … and after the second host stretch, if that does not write it. -/
theorem W4_keep (b : Ref sig .tc) (h0 : ∀ w, Pipeline.arrRef spec0 w ≠ b) (h1 : b ∉ hostOps1_W)
    (h2 : ∀ w, Pipeline.arrRef spec1 w ≠ b) (h3 : b ∉ hostOps2_W) : W4 m ρ c b = m ((c : Thread nD τ).loc b) :=
  (StableHlo.after_of_writes_sub hostOps2 _ hostOps2_writes h3).trans (W3_keep m ρ c b h0 h1 h2)

/-- Region 0 leaves the projection of the launched product features in its output array. -/
theorem W1_proj : W1 m ρ c main_v0 = Cert.Spec.projG (m ((c : Thread nD τ).loc main_arg0)) (m ((c : Thread nD τ).loc main_arg5)) (m ((c : Thread nD τ).loc main_arg6)) :=
  (W1_arr m ρ c 3).trans (proj_value (V0 m ρ) c)

/-- The node table region 1 is entered with. -/
theorem W2_feats : W2 m ρ c main_v1 = feats (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold feats
  rw [← W1_proj m ρ c, ← W1_keep m ρ c main_arg1 (by decide), ← W1_keep m ρ c main_arg2 (by decide),
    ← W1_keep m ρ c main_arg3 (by decide), ← W1_keep m ρ c main_arg4 (by decide)]
  exact ker_nodes (W1 m ρ c)

/-- The edge lists, at every later boundary. -/
theorem W2_src : W2 m ρ c main_v10 = edgeSrc (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  rw [← W1_keep m ρ c main_arg13 (by decide), ← W1_keep m ρ c main_arg14 (by decide), ← W1_keep m ρ c main_arg15 (by decide),
    ← W1_keep m ρ c main_arg16 (by decide), ← W1_keep m ρ c main_arg17 (by decide), ← W1_keep m ρ c main_arg18 (by decide),
    ← W1_keep m ρ c main_arg19 (by decide), ← W1_keep m ρ c main_arg20 (by decide)]
  exact ker_src (W1 m ρ c)
theorem W2_dst : W2 m ρ c main_v11 = edgeDst (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  rw [← W1_keep m ρ c main_arg13 (by decide), ← W1_keep m ρ c main_arg14 (by decide), ← W1_keep m ρ c main_arg15 (by decide),
    ← W1_keep m ρ c main_arg16 (by decide), ← W1_keep m ρ c main_arg17 (by decide), ← W1_keep m ρ c main_arg18 (by decide),
    ← W1_keep m ρ c main_arg19 (by decide), ← W1_keep m ρ c main_arg20 (by decide)]
  exact ker_dst (W1 m ρ c)

/-- The first mean aggregation region 1 is entered with. -/
theorem W2_agg : W2 m ρ c main_v30
    = meanAgg (feats (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (edgeSrc (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)))
        (edgeDst (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) := by
  unfold feats
  rw [← W1_proj m ρ c, ← W1_keep m ρ c main_arg1 (by decide), ← W1_keep m ρ c main_arg2 (by decide),
    ← W1_keep m ρ c main_arg3 (by decide), ← W1_keep m ρ c main_arg4 (by decide),
    ← W1_keep m ρ c main_arg13 (by decide), ← W1_keep m ρ c main_arg14 (by decide), ← W1_keep m ρ c main_arg15 (by decide),
    ← W1_keep m ρ c main_arg16 (by decide), ← W1_keep m ρ c main_arg17 (by decide), ← W1_keep m ρ c main_arg18 (by decide),
    ← W1_keep m ρ c main_arg19 (by decide), ← W1_keep m ρ c main_arg20 (by decide)]
  exact ker_agg1 (W1 m ρ c)

/-- Region 1 leaves the first layer's output in its output array. -/
theorem W3_layer1 : W3 m ρ c main_v31 = layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  unfold layer1
  rw [← W2_agg m ρ c, ← W2_feats m ρ c, ← W2_keep m ρ c main_arg7 (by decide) (by decide),
    ← W2_keep m ρ c main_arg8 (by decide) (by decide), ← W2_keep m ρ c main_arg9 (by decide) (by decide)]
  exact (W3_arr m ρ c 5).trans (sage1_value (V2 m ρ) c)

/-- The network's result, in region 2's output array at the end. -/
theorem ker_net : W5 m ρ c main_v51 = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  unfold net
  rw [← W3_layer1 m ρ c, ← W2_src m ρ c, ← W2_dst m ρ c,
    ← W3_of_ne m ρ c main_v10 (by decide), ← W3_of_ne m ρ c main_v11 (by decide),
    ← ker_agg2 (W3 m ρ c),
    ← (StableHlo.after_of_writes_sub hostOps2 (W3 m ρ c) hostOps2_writes (by decide) : W4 m ρ c main_v31 = W3 m ρ c main_v31),
    ← W4_keep m ρ c main_arg10 (by decide) (by decide) (by decide) (by decide),
    ← W4_keep m ρ c main_arg11 (by decide) (by decide) (by decide) (by decide),
    ← W4_keep m ρ c main_arg12 (by decide) (by decide) (by decide) (by decide)]
  exact (W5_arr m ρ c 5).trans (sage2_value (V4 m ρ) c)

end Cert.Bridge

end
-- ==== Proof.RefStages.lean ====
/-
  The reference's three dense stages are the same whole-array functions: its projection is a dot product with W plus
  the bias row, then the maximum with the zero splat; each SAGE layer is (aggregate · W_l + b_l) + features · W_r, with
  the maximum with zero in the hidden layer. Read entry by entry, each stage is the specification's formula with the
  same grouping of the two sums, so no law of the extended reals is used.
-/
import proofs.«176091_j8658654069109_1_alg».proof.Proof.Gen.ReferenceIdeal.Read
import proofs.«176091_j8658654069109_1_alg».proof.Proof.Spec

noncomputable section

open scoped BigOperators

namespace Cert.RefStages

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

/-- The projection stage of the reference is the specification's projection. -/
theorem proj_stage (x0 : (⟨S200000x384, .f32⟩ : BufTy).Contents (Elt Ideal)) (x5 : (⟨S384x64, .f32⟩ : BufTy).Contents (Elt Ideal)) (x6 : (⟨S64, .f32⟩ : BufTy).Contents (Elt Ideal)) :
    val_main_v4 (F := Ideal) x0 x5 x6 = Cert.Spec.projG x0 x5 x6 := by
  funext i
  rw [val_main_v4_apply, val_main_v3_apply, val_main_v0_apply, val_main_v2_apply, val_main_v1_apply,
    val_main_call0_v0_apply, val_main_call0_cst_apply]
  unfold Cert.Spec.projG
  have el : ∀ k : Fin 384, lidx_main_v0 i k = ix2 (i 0) k := fun k => funext fun a => Fin.ext (by
    match a with | ⟨0, _⟩ => rfl | ⟨1, _⟩ => rfl)
  have er : ∀ k : Fin 384, ridx_main_v0 i k = ix2 k (i 1) := fun k => funext fun a => Fin.ext (by
    match a with | ⟨0, _⟩ => rfl | ⟨1, _⟩ => rfl)
  have eb : idx_main_v1 (idx_main_v2 i) = ix1 (i 1) := funext fun a => Fin.ext (by
    match a with | ⟨0, _⟩ => rfl)
  simp only [el, er, eb, Ideal.maximumf_def, Ideal.addf_def, Ideal.ofBits_def]
  rfl

/-- The hidden SAGE stage of the reference is the specification's hidden combine of its aggregate and its features. -/
theorem sage1_stage (x0 : (⟨S200000x384, .f32⟩ : BufTy).Contents (Elt Ideal)) (x1 : (⟨S100000x64, .f32⟩ : BufTy).Contents (Elt Ideal)) (x2 : (⟨S5000x64, .f32⟩ : BufTy).Contents (Elt Ideal)) (x3 : (⟨S2000x64, .f32⟩ : BufTy).Contents (Elt Ideal)) (x4 : (⟨S1000x64, .f32⟩ : BufTy).Contents (Elt Ideal))
    (x5 : (⟨S384x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal))
    (x13 x14 x15 x16 : (⟨S200000, .i32⟩ : BufTy).Contents (Elt Ideal)) (x17 x18 : (⟨S400000, .i32⟩ : BufTy).Contents (Elt Ideal)) (x19 x20 : (⟨S1000000, .i32⟩ : BufTy).Contents (Elt Ideal)) :
    val_main_v41 (F := Ideal) x0 x1 x2 x3 x4 x5 x6 x7 x8 x9 x13 x14 x15 x16 x17 x18 x19 x20
      = Cert.Spec.sageReluG (val_main_v34 (F := Ideal) x0 x1 x2 x3 x4 x5 x6 x13 x14 x15 x16 x17 x18 x19 x20) (val_main_v5 (F := Ideal) x0 x1 x2 x3 x4 x5 x6) x7 x8 x9 := by
  funext i
  rw [val_main_v41_apply, val_main_v40_apply, val_main_v38_apply, val_main_v35_apply, val_main_v37_apply, val_main_v36_apply,
    val_main_v39_apply, val_main_call1_v0_apply, val_main_call1_cst_apply]
  generalize val_main_v34 (F := Ideal) x0 x1 x2 x3 x4 x5 x6 x13 x14 x15 x16 x17 x18 x19 x20 = A
  generalize val_main_v5 (F := Ideal) x0 x1 x2 x3 x4 x5 x6 = X
  unfold Cert.Spec.sageReluG
  have el : ∀ k : Fin 64, lidx_main_v35 i k = ix2 (i 0) k := fun k => funext fun a => Fin.ext (by
    match a with | ⟨0, _⟩ => rfl | ⟨1, _⟩ => rfl)
  have er : ∀ k : Fin 64, ridx_main_v35 i k = ix2 k (i 1) := fun k => funext fun a => Fin.ext (by
    match a with | ⟨0, _⟩ => rfl | ⟨1, _⟩ => rfl)
  have el' : ∀ k : Fin 64, lidx_main_v39 i k = ix2 (i 0) k := fun k => funext fun a => Fin.ext (by
    match a with | ⟨0, _⟩ => rfl | ⟨1, _⟩ => rfl)
  have er' : ∀ k : Fin 64, ridx_main_v39 i k = ix2 k (i 1) := fun k => funext fun a => Fin.ext (by
    match a with | ⟨0, _⟩ => rfl | ⟨1, _⟩ => rfl)
  have eb : idx_main_v36 (idx_main_v37 i) = ix1 (i 1) := funext fun a => Fin.ext (by
    match a with | ⟨0, _⟩ => rfl)
  simp only [el, er, el', er', eb, Ideal.maximumf_def, Ideal.addf_def, Ideal.ofBits_def]
  rfl

/-- The last SAGE stage of the reference is the specification's last combine of its aggregate and the hidden layer. -/
theorem sage2_stage (x0 : (⟨S200000x384, .f32⟩ : BufTy).Contents (Elt Ideal)) (x1 : (⟨S100000x64, .f32⟩ : BufTy).Contents (Elt Ideal)) (x2 : (⟨S5000x64, .f32⟩ : BufTy).Contents (Elt Ideal)) (x3 : (⟨S2000x64, .f32⟩ : BufTy).Contents (Elt Ideal)) (x4 : (⟨S1000x64, .f32⟩ : BufTy).Contents (Elt Ideal))
    (x5 : (⟨S384x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal))
    (x10 : (⟨S64x32, .f32⟩ : BufTy).Contents (Elt Ideal)) (x11 : (⟨S32, .f32⟩ : BufTy).Contents (Elt Ideal)) (x12 : (⟨S64x32, .f32⟩ : BufTy).Contents (Elt Ideal))
    (x13 x14 x15 x16 : (⟨S200000, .i32⟩ : BufTy).Contents (Elt Ideal)) (x17 x18 : (⟨S400000, .i32⟩ : BufTy).Contents (Elt Ideal)) (x19 x20 : (⟨S1000000, .i32⟩ : BufTy).Contents (Elt Ideal)) :
    val_main_v66 (F := Ideal) x0 x1 x2 x3 x4 x5 x6 x7 x8 x9 x10 x11 x12 x13 x14 x15 x16 x17 x18 x19 x20
      = Cert.Spec.sageG (val_main_v60 (F := Ideal) x0 x1 x2 x3 x4 x5 x6 x7 x8 x9 x13 x14 x15 x16 x17 x18 x19 x20) (val_main_v41 (F := Ideal) x0 x1 x2 x3 x4 x5 x6 x7 x8 x9 x13 x14 x15 x16 x17 x18 x19 x20) x10 x11 x12 := by
  funext i
  rw [val_main_v66_apply, val_main_v64_apply, val_main_v61_apply, val_main_v63_apply, val_main_v62_apply, val_main_v65_apply]
  generalize val_main_v60 (F := Ideal) x0 x1 x2 x3 x4 x5 x6 x7 x8 x9 x13 x14 x15 x16 x17 x18 x19 x20 = A
  generalize val_main_v41 (F := Ideal) x0 x1 x2 x3 x4 x5 x6 x7 x8 x9 x13 x14 x15 x16 x17 x18 x19 x20 = X
  unfold Cert.Spec.sageG
  have el : ∀ k : Fin 64, lidx_main_v61 i k = ix2 (i 0) k := fun k => funext fun a => Fin.ext (by
    match a with | ⟨0, _⟩ => rfl | ⟨1, _⟩ => rfl)
  have er : ∀ k : Fin 64, ridx_main_v61 i k = ix2 k (i 1) := fun k => funext fun a => Fin.ext (by
    match a with | ⟨0, _⟩ => rfl | ⟨1, _⟩ => rfl)
  have el' : ∀ k : Fin 64, lidx_main_v65 i k = ix2 (i 0) k := fun k => funext fun a => Fin.ext (by
    match a with | ⟨0, _⟩ => rfl | ⟨1, _⟩ => rfl)
  have er' : ∀ k : Fin 64, ridx_main_v65 i k = ix2 k (i 1) := fun k => funext fun a => Fin.ext (by
    match a with | ⟨0, _⟩ => rfl | ⟨1, _⟩ => rfl)
  have eb : idx_main_v62 (idx_main_v63 i) = ix1 (i 1) := funext fun a => Fin.ext (by
    match a with | ⟨0, _⟩ => rfl)
  simp only [el, er, el', er', eb, Ideal.addf_def]
  rfl

end Cert.RefStages

end
-- ==== Proof.Bridge.RefHost.lean ====
/-
  The reference's host stages between its matrix products are the shared host functions: its node table, its two
  edge lists, and both mean aggregations (of the node table, and of the first layer's output) unfold to the same
  operations.
-/
import proofs.«176091_j8658654069109_1_alg».proof.Proof.Gen.ReferenceIdeal.Read
import proofs.«176091_j8658654069109_1_alg».proof.Proof.Bridge.HostFns

noncomputable section

namespace Cert.Bridge

open Idealize.ShloMosaic Cert.ReferenceIdeal Cert.ReferenceIdeal.Read

variable {F : FTy → Type} [FloatOps F] [Cert.KernelIdeal.Facts] [Cert.ReferenceIdeal.Facts]
variable (x0 : (⟨S200000x384, .f32⟩ : BufTy).Contents (Elt F)) (x1 : (⟨S100000x64, .f32⟩ : BufTy).Contents (Elt F)) (x2 : (⟨S5000x64, .f32⟩ : BufTy).Contents (Elt F)) (x3 : (⟨S2000x64, .f32⟩ : BufTy).Contents (Elt F)) (x4 : (⟨S1000x64, .f32⟩ : BufTy).Contents (Elt F)) (x5 : (⟨S384x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S64x64, .f32⟩ : BufTy).Contents (Elt F)) (x10 : (⟨S64x32, .f32⟩ : BufTy).Contents (Elt F)) (x11 : (⟨S32, .f32⟩ : BufTy).Contents (Elt F)) (x12 : (⟨S64x32, .f32⟩ : BufTy).Contents (Elt F)) (x13 x14 x15 x16 : (⟨S200000, .i32⟩ : BufTy).Contents (Elt F)) (x17 x18 : (⟨S400000, .i32⟩ : BufTy).Contents (Elt F)) (x19 x20 : (⟨S1000000, .i32⟩ : BufTy).Contents (Elt F))

theorem ref_nodes : val_main_v5 (F := F) x0 x1 x2 x3 x4 x5 x6 = nodes (val_main_v4 (F := F) x0 x5 x6) x1 x2 x3 x4 := rfl

theorem ref_src : val_main_v14 (F := F) x13 x14 x15 x16 x17 x18 x19 x20 = edgeSrc x13 x14 x15 x16 x17 x18 x19 x20 := rfl

theorem ref_dst : val_main_v15 (F := F) x13 x14 x15 x16 x17 x18 x19 x20 = edgeDst x13 x14 x15 x16 x17 x18 x19 x20 := rfl

theorem ref_agg1 : val_main_v34 (F := F) x0 x1 x2 x3 x4 x5 x6 x13 x14 x15 x16 x17 x18 x19 x20
    = meanAgg (val_main_v5 (F := F) x0 x1 x2 x3 x4 x5 x6) (val_main_v14 (F := F) x13 x14 x15 x16 x17 x18 x19 x20) (val_main_v15 (F := F) x13 x14 x15 x16 x17 x18 x19 x20) := rfl

theorem ref_agg2 : val_main_v60 (F := F) x0 x1 x2 x3 x4 x5 x6 x7 x8 x9 x13 x14 x15 x16 x17 x18 x19 x20
    = meanAgg (val_main_v41 (F := F) x0 x1 x2 x3 x4 x5 x6 x7 x8 x9 x13 x14 x15 x16 x17 x18 x19 x20) (val_main_v14 (F := F) x13 x14 x15 x16 x17 x18 x19 x20) (val_main_v15 (F := F) x13 x14 x15 x16 x17 x18 x19 x20) := rfl

end Cert.Bridge

end
-- ==== Proof.Bridge.RefNet.lean ====
/-
  The reference's result as the network function of its arguments.
-/
import proofs.«176091_j8658654069109_1_alg».proof.Proof.RefStages
import proofs.«176091_j8658654069109_1_alg».proof.Proof.Bridge.RefHost
import proofs.«176091_j8658654069109_1_alg».proof.Proof.Bridge.Final

noncomputable section

namespace Cert.Bridge

open Idealize.ShloMosaic Cert.ReferenceIdeal Cert.ReferenceIdeal.Read

variable [Cert.KernelIdeal.Facts] [Cert.ReferenceIdeal.Facts]
variable (x0 : (⟨S200000x384, .f32⟩ : BufTy).Contents (Elt Ideal)) (x1 : (⟨S100000x64, .f32⟩ : BufTy).Contents (Elt Ideal)) (x2 : (⟨S5000x64, .f32⟩ : BufTy).Contents (Elt Ideal)) (x3 : (⟨S2000x64, .f32⟩ : BufTy).Contents (Elt Ideal)) (x4 : (⟨S1000x64, .f32⟩ : BufTy).Contents (Elt Ideal)) (x5 : (⟨S384x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64x32, .f32⟩ : BufTy).Contents (Elt Ideal)) (x11 : (⟨S32, .f32⟩ : BufTy).Contents (Elt Ideal)) (x12 : (⟨S64x32, .f32⟩ : BufTy).Contents (Elt Ideal)) (x13 x14 x15 x16 : (⟨S200000, .i32⟩ : BufTy).Contents (Elt Ideal)) (x17 x18 : (⟨S400000, .i32⟩ : BufTy).Contents (Elt Ideal)) (x19 x20 : (⟨S1000000, .i32⟩ : BufTy).Contents (Elt Ideal))

/-- The reference's result is the network function of its arguments: its three dense stages are the specification's
    functions and its host stages between them the shared host functions. -/
theorem ref_net : val_main_v66 (F := Ideal) x0 x1 x2 x3 x4 x5 x6 x7 x8 x9 x10 x11 x12 x13 x14 x15 x16 x17 x18 x19 x20 = net x0 x1 x2 x3 x4 x5 x6 x7 x8 x9 x10 x11 x12 x13 x14 x15 x16 x17 x18 x19 x20 := by
  rw [Cert.RefStages.sage2_stage x0 x1 x2 x3 x4 x5 x6 x7 x8 x9 x10 x11 x12 x13 x14 x15 x16 x17 x18 x19 x20, ref_agg2, Cert.RefStages.sage1_stage x0 x1 x2 x3 x4 x5 x6 x7 x8 x9 x13 x14 x15 x16 x17 x18 x19 x20, ref_agg1, ref_nodes,
    Cert.RefStages.proj_stage x0 x5 x6, ref_src, ref_dst]
  rfl

end Cert.Bridge

end
-- ==== Proof.Claims.lean ====
/-
  The five claims. The two kernel programs' frames are the runs of their three pallas regions among the two host
  stretches, every argument array read back as launched; the reference's frame is its run with the result dropped.
  The ideal pass rewrote nothing, so nothing is to be preserved. For the value claim both programs end, on every
  core, with the network function of the argument arrays: the kernel program by its regions' output arrays and its
  host stretches, the reference by its dense stages and the same host stages, the arguments agreeing by hypothesis.
-/
import proofs.«176091_j8658654069109_1_alg».proof.Defs
import proofs.«176091_j8658654069109_1_alg».proof.Proof.KI.Run
import proofs.«176091_j8658654069109_1_alg».proof.Proof.K.Run
import proofs.«176091_j8658654069109_1_alg».proof.Proof.Gen.ReferenceIdeal.Run
import proofs.«176091_j8658654069109_1_alg».proof.Proof.Gen.ReferenceIdeal.Read
import proofs.«176091_j8658654069109_1_alg».proof.Proof.Gen.Pre_finite_inputs
import proofs.«176091_j8658654069109_1_alg».proof.Proof.Bridge.KerNet
import proofs.«176091_j8658654069109_1_alg».proof.Proof.Bridge.RefNet

noncomputable section

namespace Cert.Proof.Claims

open Idealize.ShloMosaic Idealize.ShloMosaic.TcCoe Idealize.SL.Sem

/-- The network function at equal arguments. -/
theorem net_congr {a0 b0 : (⟨Cert.KernelIdeal.S200000x384, .f32⟩ : BufTy).Contents (Elt Ideal)} {a1 b1 : (⟨Cert.KernelIdeal.S100000x64, .f32⟩ : BufTy).Contents (Elt Ideal)} {a2 b2 : (⟨Cert.KernelIdeal.S5000x64, .f32⟩ : BufTy).Contents (Elt Ideal)} {a3 b3 : (⟨Cert.KernelIdeal.S2000x64, .f32⟩ : BufTy).Contents (Elt Ideal)} {a4 b4 : (⟨Cert.KernelIdeal.S1000x64, .f32⟩ : BufTy).Contents (Elt Ideal)} {a5 b5 : (⟨Cert.KernelIdeal.S384x64, .f32⟩ : BufTy).Contents (Elt Ideal)} {a6 b6 : (⟨Cert.KernelIdeal.S64, .f32⟩ : BufTy).Contents (Elt Ideal)} {a7 b7 : (⟨Cert.KernelIdeal.S64x64, .f32⟩ : BufTy).Contents (Elt Ideal)} {a8 b8 : (⟨Cert.KernelIdeal.S64, .f32⟩ : BufTy).Contents (Elt Ideal)} {a9 b9 : (⟨Cert.KernelIdeal.S64x64, .f32⟩ : BufTy).Contents (Elt Ideal)} {a10 b10 : (⟨Cert.KernelIdeal.S64x32, .f32⟩ : BufTy).Contents (Elt Ideal)} {a11 b11 : (⟨Cert.KernelIdeal.S32, .f32⟩ : BufTy).Contents (Elt Ideal)} {a12 b12 : (⟨Cert.KernelIdeal.S64x32, .f32⟩ : BufTy).Contents (Elt Ideal)} {a13 b13 : (⟨Cert.KernelIdeal.S200000, .i32⟩ : BufTy).Contents (Elt Ideal)} {a14 b14 : (⟨Cert.KernelIdeal.S200000, .i32⟩ : BufTy).Contents (Elt Ideal)} {a15 b15 : (⟨Cert.KernelIdeal.S200000, .i32⟩ : BufTy).Contents (Elt Ideal)} {a16 b16 : (⟨Cert.KernelIdeal.S200000, .i32⟩ : BufTy).Contents (Elt Ideal)} {a17 b17 : (⟨Cert.KernelIdeal.S400000, .i32⟩ : BufTy).Contents (Elt Ideal)} {a18 b18 : (⟨Cert.KernelIdeal.S400000, .i32⟩ : BufTy).Contents (Elt Ideal)} {a19 b19 : (⟨Cert.KernelIdeal.S1000000, .i32⟩ : BufTy).Contents (Elt Ideal)} {a20 b20 : (⟨Cert.KernelIdeal.S1000000, .i32⟩ : BufTy).Contents (Elt Ideal)}
    (e0 : b0 = a0) (e1 : b1 = a1) (e2 : b2 = a2) (e3 : b3 = a3) (e4 : b4 = a4) (e5 : b5 = a5) (e6 : b6 = a6) (e7 : b7 = a7) (e8 : b8 = a8) (e9 : b9 = a9) (e10 : b10 = a10) (e11 : b11 = a11) (e12 : b12 = a12) (e13 : b13 = a13) (e14 : b14 = a14) (e15 : b15 = a15) (e16 : b16 = a16) (e17 : b17 = a17) (e18 : b18 = a18) (e19 : b19 = a19) (e20 : b20 = a20) :
    Cert.Bridge.net b0 b1 b2 b3 b4 b5 b6 b7 b8 b9 b10 b11 b12 b13 b14 b15 b16 b17 b18 b19 b20 = Cert.Bridge.net a0 a1 a2 a3 a4 a5 a6 a7 a8 a9 a10 a11 a12 a13 a14 a15 a16 a17 a18 a19 a20 := by
  subst e0 e1 e2 e3 e4 e5 e6 e7 e8 e9 e10 e11 e12 e13 e14 e15 e16 e17 e18 e19 e20
  rfl

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => Cert.Bridge.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)), ?_, ?_⟩
  · refine (θ_run Cert.KernelIdeal.defs _ _).mono (fun r h c => ?_) (Cert.KernelIdeal.Fr.run_all (F := Ideal) m ρ)
    exact ⟨(h c _ (Cert.KernelIdeal.Fr.mem_uc Cert.KernelIdeal.main_v51 (by decide))).trans (Cert.Bridge.ker_net m ρ c),
      (h c _ (Cert.KernelIdeal.Fr.mem_uc Cert.KernelIdeal.main_arg0 (by decide))).trans (Cert.KernelIdeal.Fr.W5_main_arg0 m ρ c),
      (h c _ (Cert.KernelIdeal.Fr.mem_uc Cert.KernelIdeal.main_arg1 (by decide))).trans (Cert.KernelIdeal.Fr.W5_main_arg1 m ρ c),
      (h c _ (Cert.KernelIdeal.Fr.mem_uc Cert.KernelIdeal.main_arg2 (by decide))).trans (Cert.KernelIdeal.Fr.W5_main_arg2 m ρ c),
      (h c _ (Cert.KernelIdeal.Fr.mem_uc Cert.KernelIdeal.main_arg3 (by decide))).trans (Cert.KernelIdeal.Fr.W5_main_arg3 m ρ c),
      (h c _ (Cert.KernelIdeal.Fr.mem_uc Cert.KernelIdeal.main_arg4 (by decide))).trans (Cert.KernelIdeal.Fr.W5_main_arg4 m ρ c),
      (h c _ (Cert.KernelIdeal.Fr.mem_uc Cert.KernelIdeal.main_arg5 (by decide))).trans (Cert.KernelIdeal.Fr.W5_main_arg5 m ρ c),
      (h c _ (Cert.KernelIdeal.Fr.mem_uc Cert.KernelIdeal.main_arg6 (by decide))).trans (Cert.KernelIdeal.Fr.W5_main_arg6 m ρ c),
      (h c _ (Cert.KernelIdeal.Fr.mem_uc Cert.KernelIdeal.main_arg7 (by decide))).trans (Cert.KernelIdeal.Fr.W5_main_arg7 m ρ c),
      (h c _ (Cert.KernelIdeal.Fr.mem_uc Cert.KernelIdeal.main_arg8 (by decide))).trans (Cert.KernelIdeal.Fr.W5_main_arg8 m ρ c),
      (h c _ (Cert.KernelIdeal.Fr.mem_uc Cert.KernelIdeal.main_arg9 (by decide))).trans (Cert.KernelIdeal.Fr.W5_main_arg9 m ρ c),
      (h c _ (Cert.KernelIdeal.Fr.mem_uc Cert.KernelIdeal.main_arg10 (by decide))).trans (Cert.KernelIdeal.Fr.W5_main_arg10 m ρ c),
      (h c _ (Cert.KernelIdeal.Fr.mem_uc Cert.KernelIdeal.main_arg11 (by decide))).trans (Cert.KernelIdeal.Fr.W5_main_arg11 m ρ c),
      (h c _ (Cert.KernelIdeal.Fr.mem_uc Cert.KernelIdeal.main_arg12 (by decide))).trans (Cert.KernelIdeal.Fr.W5_main_arg12 m ρ c),
      (h c _ (Cert.KernelIdeal.Fr.mem_uc Cert.KernelIdeal.main_arg13 (by decide))).trans (Cert.KernelIdeal.Fr.W5_main_arg13 m ρ c),
      (h c _ (Cert.KernelIdeal.Fr.mem_uc Cert.KernelIdeal.main_arg14 (by decide))).trans (Cert.KernelIdeal.Fr.W5_main_arg14 m ρ c),
      (h c _ (Cert.KernelIdeal.Fr.mem_uc Cert.KernelIdeal.main_arg15 (by decide))).trans (Cert.KernelIdeal.Fr.W5_main_arg15 m ρ c),
      (h c _ (Cert.KernelIdeal.Fr.mem_uc Cert.KernelIdeal.main_arg16 (by decide))).trans (Cert.KernelIdeal.Fr.W5_main_arg16 m ρ c),
      (h c _ (Cert.KernelIdeal.Fr.mem_uc Cert.KernelIdeal.main_arg17 (by decide))).trans (Cert.KernelIdeal.Fr.W5_main_arg17 m ρ c),
      (h c _ (Cert.KernelIdeal.Fr.mem_uc Cert.KernelIdeal.main_arg18 (by decide))).trans (Cert.KernelIdeal.Fr.W5_main_arg18 m ρ c),
      (h c _ (Cert.KernelIdeal.Fr.mem_uc Cert.KernelIdeal.main_arg19 (by decide))).trans (Cert.KernelIdeal.Fr.W5_main_arg19 m ρ c),
      (h c _ (Cert.KernelIdeal.Fr.mem_uc Cert.KernelIdeal.main_arg20 (by decide))).trans (Cert.KernelIdeal.Fr.W5_main_arg20 m ρ c)⟩
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19, h20⟩ := hagree c
    exact (Cert.ReferenceIdeal.Read.val_main_v66_eq (F := Ideal) m' c).trans
      ((Cert.Bridge.ref_net _ _ _ _ _ _ _ _ _ _ _ _ _ _ _ _ _ _ _ _ _).trans
        (net_congr h0 h1 h2 h3 h4 h5 h6 h7 h8 h9 h10 h11 h12 h13 h14 h15 h16 h17 h18 h19 h20))

end Cert.Proof.Claims

end
-- ==== Proof.lean ====
/-
  A graph network of two mean-aggregating layers over a joint node table, computed by three pallas regions (a
  projection of the product features and the two layers' dense combines) among host gathers and scatter-adds, against
  the same network written with whole-array matrix products. Over the extended reals the two agree entry by entry: the
  blocked products are the same sums, the roundings to the narrower float format are the identity, and the host
  stages between the dense ones are the same operations on both sides. The claims are proved in Proof/Claims.lean.
-/
import proofs.«176091_j8658654069109_1_alg».proof.Defs
import proofs.«176091_j8658654069109_1_alg».proof.Proof.Gen.Kernel
import proofs.«176091_j8658654069109_1_alg».proof.Proof.Gen.KernelIdeal
import proofs.«176091_j8658654069109_1_alg».proof.Proof.Gen.ReferenceIdeal
import proofs.«176091_j8658654069109_1_alg».proof.Proof.Gen.Pre_finite_inputs
import proofs.«176091_j8658654069109_1_alg».proof.Proof.Gen.ReferenceIdeal.Run
import proofs.«176091_j8658654069109_1_alg».proof.Proof.Gen.ReferenceIdeal.Read
import proofs.«176091_j8658654069109_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
